-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x14592 : Shape := ⟨2, ![8192, 14592]⟩
abbrev S384x768 : Shape := ⟨2, ![384, 768]⟩
abbrev S384 : Shape := ⟨1, ![384]⟩
abbrev S19x768x384 : Shape := ⟨3, ![19, 768, 384]⟩
abbrev S19x768 : Shape := ⟨2, ![19, 768]⟩
abbrev S256x768 : Shape := ⟨2, ![256, 768]⟩
abbrev S256 : Shape := ⟨1, ![256]⟩
abbrev S128x256 : Shape := ⟨2, ![128, 256]⟩
abbrev S128 : Shape := ⟨1, ![128]⟩
abbrev S150x128 : Shape := ⟨2, ![150, 128]⟩
abbrev S150 : Shape := ⟨1, ![150]⟩
abbrev S_ : Shape := ⟨0, ![]⟩

class Facts : Prop where
  bcast_S_S8192x14592 : S_.BroadcastsInDim S8192x14592 (![] : Fin 0 → Fin S8192x14592.rank)
  reducesTo_S8192x14592_S_d0_1 : S8192x14592.ReducesTo [0, 1] S_
  h_S_ : 0 < S_.numel
  bcast_S_S384x768 : S_.BroadcastsInDim S384x768 (![] : Fin 0 → Fin S384x768.rank)
  reducesTo_S384x768_S_d0_1 : S384x768.ReducesTo [0, 1] S_
  bcast_S_S384 : S_.BroadcastsInDim S384 (![] : Fin 0 → Fin S384.rank)
  reducesTo_S384_S_d0 : S384.ReducesTo [0] S_
  bcast_S_S19x768x384 : S_.BroadcastsInDim S19x768x384 (![] : Fin 0 → Fin S19x768x384.rank)
  reducesTo_S19x768x384_S_d0_1_2 : S19x768x384.ReducesTo [0, 1, 2] S_
  bcast_S_S19x768 : S_.BroadcastsInDim S19x768 (![] : Fin 0 → Fin S19x768.rank)
  reducesTo_S19x768_S_d0_1 : S19x768.ReducesTo [0, 1] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S150x128 : S_.BroadcastsInDim S150x128 (![] : Fin 0 → Fin S150x128.rank)
  reducesTo_S150x128_S_d0_1 : S150x128.ReducesTo [0, 1] S_
  bcast_S_S150 : S_.BroadcastsInDim S150 (![] : Fin 0 → Fin S150.rank)
  reducesTo_S150_S_d0 : S150.ReducesTo [0] S_

variable [Facts]

def fn_part4 {F : FTy → Type} [FloatOps F] (main_arg14 : FVec F S150 .f32) (main_v63 : IVec S_ 1) (main_v67 : IVec S_ 1) : IVec S_ 1 :=
  let main_v68 : IVec S_ 1 := andi main_v63 main_v67
  let main_v69 : FVec F S150 .f32 := Host.absf main_arg14
  let main_cst_26 : FVec F S_ .f32 := constant S_ .f32 0x7F800000#32
  let main_v70 : FVec F S150 .f32 := broadcastInDim S150 ![] bcast_S_S150 main_cst_26
  let main_v71 : IVec S150 1 := cmpf .olt main_v69 main_v70
  let main_c_27 : IVec S_ 1 := constantI S_ 1 1#1
  let main_v72 : IVec S_ 1 := (fun x v => Host.reduce IntOp.andi x v reducesTo_S150_S_d0 h_S_) main_v71 main_c_27
  let main_v73 : IVec S_ 1 := andi main_v68 main_v72
  main_v73

def fn_part3 {F : FTy → Type} [FloatOps F] (main_arg11 : FVec F S128 .f32) (main_arg12 : FVec F S128 .f32) (main_arg13 : FVec F S150x128 .f32) (main_arg14 : FVec F S150 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S150x128 .f32 := Host.absf main_arg13
  let main_cst_24 : FVec F S_ .f32 := constant S_ .f32 0x7F800000#32
  let main_v65 : FVec F S150x128 .f32 := broadcastInDim S150x128 ![] bcast_S_S150x128 main_cst_24
  let main_v66 : IVec S150x128 1 := cmpf .olt main_v64 main_v65
  let main_c_25 : IVec S_ 1 := constantI S_ 1 1#1
  let main_v67 : IVec S_ 1 := (fun x v => Host.reduce IntOp.andi x v reducesTo_S150x128_S_d0_1 h_S_) main_v66 main_c_25
  fn_part4 (F := F) main_arg14 main_v63 main_v67

def fn_part2 {F : FTy → Type} [FloatOps F] (main_arg7 : FVec F S256 .f32) (main_arg8 : FVec F S256 .f32) (main_arg9 : FVec F S128x256 .f32) (main_arg10 : FVec F S128 .f32) (main_arg11 : FVec F S128 .f32) (main_arg12 : FVec F S128 .f32) (main_arg13 : FVec F S150x128 .f32) (main_arg14 : FVec F S150 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S19x768 .f32) (main_arg5 : FVec F S256x768 .f32) (main_arg6 : FVec F S256 .f32) (main_arg7 : FVec F S256 .f32) (main_arg8 : FVec F S256 .f32) (main_arg9 : FVec F S128x256 .f32) (main_arg10 : FVec F S128 .f32) (main_arg11 : FVec F S128 .f32) (main_arg12 : FVec F S128 .f32) (main_arg13 : FVec F S150x128 .f32) (main_arg14 : FVec F S150 .f32) (main_v13 : IVec S_ 1) (main_v16 : IVec S19x768x384 1) : IVec S_ 1 :=
  let main_c_5 : IVec S_ 1 := constantI S_ 1 1#1
  let main_v17 : IVec S_ 1 := (fun x v => Host.reduce IntOp.andi x v reducesTo_S19x768x384_S_d0_1_2 h_S_) main_v16 main_c_5
  let main_v18 : IVec S_ 1 := andi main_v13 main_v17
  let main_v19 : FVec F S19x768 .f32 := Host.absf main_arg4
  let main_cst_6 : FVec F S_ .f32 := constant S_ .f32 0x7F800000#32
  let main_v20 : FVec F S19x768 .f32 := broadcastInDim S19x768 ![] bcast_S_S19x768 main_cst_6
  let main_v21 : IVec S19x768 1 := cmpf .olt main_v19 main_v20
  let main_c_7 : IVec S_ 1 := constantI S_ 1 1#1
  let main_v22 : IVec S_ 1 := (fun x v => Host.reduce IntOp.andi x v reducesTo_S19x768_S_d0_1 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x14592 .f32) (main_arg1 : FVec F S384x768 .f32) (main_arg2 : FVec F S384 .f32) (main_arg3 : FVec F S19x768x384 .f32) (main_arg4 : FVec F S19x768 .f32) (main_arg5 : FVec F S256x768 .f32) (main_arg6 : FVec F S256 .f32) (main_arg7 : FVec F S256 .f32) (main_arg8 : FVec F S256 .f32) (main_arg9 : FVec F S128x256 .f32) (main_arg10 : FVec F S128 .f32) (main_arg11 : FVec F S128 .f32) (main_arg12 : FVec F S128 .f32) (main_arg13 : FVec F S150x128 .f32) (main_arg14 : FVec F S150 .f32) : IVec S_ 1 :=
  let main_v0 : FVec F S8192x14592 .f32 := Host.absf main_arg0
  let main_cst : FVec F S_ .f32 := constant S_ .f32 0x7F800000#32
  let main_v1 : FVec F S8192x14592 .f32 := broadcastInDim S8192x14592 ![] bcast_S_S8192x14592 main_cst
  let main_v2 : IVec S8192x14592 1 := cmpf .olt main_v0 main_v1
  let main_c : IVec S_ 1 := constantI S_ 1 1#1
  let main_v3 : IVec S_ 1 := (fun x v => Host.reduce IntOp.andi x v reducesTo_S8192x14592_S_d0_1 h_S_) main_v2 main_c
  let main_v4 : FVec F S384x768 .f32 := Host.absf main_arg1
  let main_cst_0 : FVec F S_ .f32 := constant S_ .f32 0x7F800000#32
  let main_v5 : FVec F S384x768 .f32 := broadcastInDim S384x768 ![] bcast_S_S384x768 main_cst_0
  let main_v6 : IVec S384x768 1 := cmpf .olt main_v4 main_v5
  let main_c_1 : IVec S_ 1 := constantI S_ 1 1#1
  let main_v7 : IVec S_ 1 := (fun x v => Host.reduce IntOp.andi x v reducesTo_S384x768_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S19x768x384 .f32 := Host.absf main_arg3
  let main_cst_4 : FVec F S_ .f32 := constant S_ .f32 0x7F800000#32
  let main_v15 : FVec F S19x768x384 .f32 := broadcastInDim S19x768x384 ![] bcast_S_S19x768x384 main_cst_4
  let main_v16 : IVec S19x768x384 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x14592 : Shape := ⟨2, ![8192, 14592]⟩
abbrev S384x768 : Shape := ⟨2, ![384, 768]⟩
abbrev S384 : Shape := ⟨1, ![384]⟩
abbrev S19x768x384 : Shape := ⟨3, ![19, 768, 384]⟩
abbrev S19x768 : Shape := ⟨2, ![19, 768]⟩
abbrev S256x768 : Shape := ⟨2, ![256, 768]⟩
abbrev S256 : Shape := ⟨1, ![256]⟩
abbrev S128x256 : Shape := ⟨2, ![128, 256]⟩
abbrev S128 : Shape := ⟨1, ![128]⟩
abbrev S150x128 : Shape := ⟨2, ![150, 128]⟩
abbrev S150 : Shape := ⟨1, ![150]⟩
abbrev S768x384 : Shape := ⟨2, ![768, 384]⟩
abbrev S1x384 : Shape := ⟨2, ![1, 384]⟩
abbrev S384x19x768 : Shape := ⟨3, ![384, 19, 768]⟩
abbrev S384x14592 : Shape := ⟨2, ![384, 14592]⟩
abbrev S1x14592 : Shape := ⟨2, ![1, 14592]⟩
abbrev S8192x768 : Shape := ⟨2, ![8192, 768]⟩
abbrev S128x14592 : Shape := ⟨2, ![128, 14592]⟩
abbrev S128x768 : Shape := ⟨2, ![128, 768]⟩
abbrev S128x384 : Shape := ⟨2, ![128, 384]⟩
abbrev S768x256 : Shape := ⟨2, ![768, 256]⟩
abbrev S8192x256 : Shape := ⟨2, ![8192, 256]⟩
abbrev S1x256 : Shape := ⟨2, ![1, 256]⟩
abbrev S_ : Shape := ⟨0, ![]⟩
abbrev S256x128 : Shape := ⟨2, ![256, 128]⟩
abbrev S8192x128 : Shape := ⟨2, ![8192, 128]⟩
abbrev S1x128 : Shape := ⟨2, ![1, 128]⟩
abbrev S128x150 : Shape := ⟨2, ![128, 150]⟩
abbrev S8192x150 : Shape := ⟨2, ![8192, 150]⟩
abbrev S1x150 : Shape := ⟨2, ![1, 150]⟩

abbrev nBuf : Space → Nat
  | .hbm => 132
  | .vmem => 9
  | .smem => 0
  | _ => 0

abbrev hbmTy0_0 (i : Nat) : BufTy := match i % 128 with
  | 0 => ⟨S8192x14592, .f32⟩
  | 1 => ⟨S384x768, .f32⟩
  | 2 => ⟨S384, .f32⟩
  | 3 => ⟨S19x768x384, .f32⟩
  | 4 => ⟨S19x768, .f32⟩
  | 5 => ⟨S256x768, .f32⟩
  | 6 => ⟨S256, .f32⟩
  | 7 => ⟨S256, .f32⟩
  | 8 => ⟨S256, .f32⟩
  | 9 => ⟨S128x256, .f32⟩
  | 10 => ⟨S128, .f32⟩
  | 11 => ⟨S128, .f32⟩
  | 12 => ⟨S128, .f32⟩
  | 13 => ⟨S150x128, .f32⟩
  | 14 => ⟨S150, .f32⟩
  | 15 => ⟨S768x384, .f32⟩
  | 16 => ⟨S768x384, .bf16⟩
  | 17 => ⟨S1x384, .f32⟩
  | 18 => ⟨S384x19x768, .f32⟩
  | 19 => ⟨S384x14592, .f32⟩
  | 20 => ⟨S384x14592, .bf16⟩
  | 21 => ⟨S1x14592, .f32⟩
  | 22 => ⟨S8192x768, .f32⟩
  | 23 => ⟨S768x256, .f32⟩
  | 24 => ⟨S8192x256, .f32⟩
  | 25 => ⟨S1x256, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S_, .f32⟩
  | 32 => ⟨S256, .f32⟩
  | 33 => ⟨S_, .f32⟩
  | 34 => ⟨S256, .f32⟩
  | 35 => ⟨S256, .f32⟩
  | 36 => ⟨S_, .i32⟩
  | 37 => ⟨S_, .f32⟩
  | 38 => ⟨S256, .f32⟩
  | 39 => ⟨S1x256, .f32⟩
  | 40 => ⟨S_, .f32⟩
  | 41 => ⟨S1x256, .f32⟩
  | 42 => ⟨S1x256, .f32⟩
  | 43 => ⟨S8192x256, .f32⟩
  | 44 => ⟨S8192x256, .f32⟩
  | 45 => ⟨S8192x256, .f32⟩
  | 46 => ⟨S_, .f32⟩
  | 47 => ⟨S_, .f32⟩
  | 48 => ⟨S_, .f32⟩
  | 49 => ⟨S_, .f32⟩
  | 50 => ⟨S256, .f32⟩
  | 51 => ⟨S256, .f32⟩
  | 52 => ⟨S256, .f32⟩
  | 53 => ⟨S_, .f32⟩
  | 54 => ⟨S_, .i1⟩
  | 55 => ⟨S_, .f32⟩
  | 56 => ⟨S_, .f32⟩
  | 57 => ⟨S256, .f32⟩
  | 58 => ⟨S256, .f32⟩
  | 59 => ⟨S1x256, .f32⟩
  | 60 => ⟨S8192x256, .f32⟩
  | 61 => ⟨S8192x256, .f32⟩
  | 62 => ⟨S1x256, .f32⟩
  | 63 => ⟨S8192x256, .f32⟩
  | 64 => ⟨S8192x256, .f32⟩
  | 65 => ⟨S_, .f32⟩
  | 66 => ⟨S256, .f32⟩
  | 67 => ⟨S256, .f32⟩
  | 68 => ⟨S256, .f32⟩
  | 69 => ⟨S1x256, .f32⟩
  | 70 => ⟨S8192x256, .f32⟩
  | 71 => ⟨S8192x256, .f32⟩
  | 72 => ⟨S1x256, .f32⟩
  | 73 => ⟨S8192x256, .f32⟩
  | 74 => ⟨S8192x256, .f32⟩
  | 75 => ⟨S256x128, .f32⟩
  | 76 => ⟨S8192x128, .f32⟩
  | 77 => ⟨S1x128, .f32⟩
  | 78 => ⟨S8192x128, .f32⟩
  | 79 => ⟨S8192x128, .f32⟩
  | 80 => ⟨S_, .f32⟩
  | 81 => ⟨S8192x128, .f32⟩
  | 82 => ⟨S8192x128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S8192x128, .f32⟩
  | 96 => ⟨S8192x128, .f32⟩
  | 97 => ⟨S8192x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S8192x128, .f32⟩
  | 113 => ⟨S8192x128, .f32⟩
  | 114 => ⟨S1x128, .f32⟩
  | 115 => ⟨S8192x128, .f32⟩
  | 116 => ⟨S8192x128, .f32⟩
  | 117 => ⟨S_, .f32⟩
  | 118 => ⟨S128, .f32⟩
  | 119 => ⟨S128, .f32⟩
  | 120 => ⟨S128, .f32⟩
  | 121 => ⟨S1x128, .f32⟩
  | 122 => ⟨S8192x128, .f32⟩
  | 123 => ⟨S8192x128, .f32⟩
  | 124 => ⟨S1x128, .f32⟩
  | 125 => ⟨S8192x128, .f32⟩
  | 126 => ⟨S8192x128, .f32⟩
  | 127 => ⟨S128x150, .f32⟩
  | _ => ⟨S8192x14592, .f32⟩

abbrev hbmTy0_1 (i : Nat) : BufTy := match i % 128 with
  | 0 => ⟨S8192x150, .f32⟩
  | 1 => ⟨S1x150, .f32⟩
  | 2 => ⟨S8192x150, .f32⟩
  | 3 => ⟨S8192x150, .f32⟩
  | _ => ⟨S8192x14592, .f32⟩

abbrev hbmTy (i : Nat) : BufTy := match i / 128 with
  | 0 => hbmTy0_0 i
  | 1 => hbmTy0_1 i
  | _ => ⟨S8192x14592, .f32⟩

abbrev bufTy : (tb : Table) → Fin (tcTables nBuf tb) → BufTy
  | .hbm, ⟨i, _⟩ => hbmTy i
  | .local _ .vmem, ⟨0, _⟩ => ⟨S128x14592, .f32⟩
  | .local _ .vmem, ⟨1, _⟩ => ⟨S128x14592, .f32⟩
  | .local _ .vmem, ⟨2, _⟩ => ⟨S768x384, .bf16⟩
  | .local _ .vmem, ⟨3, _⟩ => ⟨S1x384, .f32⟩
  | .local _ .vmem, ⟨4, _⟩ => ⟨S384x14592, .bf16⟩
  | .local _ .vmem, ⟨5, _⟩ => ⟨S1x14592, .f32⟩
  | .local _ .vmem, ⟨6, _⟩ => ⟨S128x768, .f32⟩
  | .local _ .vmem, ⟨7, _⟩ => ⟨S128x768, .f32⟩
  | .local _ .vmem, ⟨8, _⟩ => ⟨S128x14592, .f32⟩
  | _, _ => ⟨S8192x14592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_cst : Ref sig .tc := ⟨.hbm, 28, rfl⟩
abbrev main_call0_v0 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_call2_cst : Ref sig .tc := ⟨.hbm, 80, rfl⟩
abbrev main_call2_v0 : Ref sig .tc := ⟨.hbm, 81, rfl⟩
abbrev main_v38 : Ref sig .tc := ⟨.hbm, 82, rfl⟩
abbrev main_cst_2 : Ref sig .tc := ⟨.hbm, 83, rfl⟩
abbrev main_v39 : Ref sig .tc := ⟨.hbm, 84, rfl⟩
abbrev main_cst_3 : Ref sig .tc := ⟨.hbm, 85, rfl⟩
abbrev main_v40 : Ref sig .tc := ⟨.hbm, 86, rfl⟩
abbrev main_v41 : Ref sig .tc := ⟨.hbm, 87, rfl⟩
abbrev main_c_4 : Ref sig .tc := ⟨.hbm, 88, rfl⟩
abbrev main_call3_cst : Ref sig .tc := ⟨.hbm, 89, rfl⟩
abbrev main_call3_v0 : Ref sig .tc := ⟨.hbm, 90, rfl⟩
abbrev main_call3_v1 : Ref sig .tc := ⟨.hbm, 91, rfl⟩
abbrev main_call3_cst_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_cst_1 : Ref sig .tc := ⟨.hbm, 99, rfl⟩
abbrev main_call3_v8 : Ref sig .tc := ⟨.hbm, 100, rfl⟩
abbrev main_call3_cst_2 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_cst_3 : Ref sig .tc := ⟨.hbm, 105, rfl⟩
abbrev main_call3_v12 : Ref sig .tc := ⟨.hbm, 106, rfl⟩
abbrev main_call3_cst_4 : Ref sig .tc := ⟨.hbm, 107, rfl⟩
abbrev main_call3_call0_v0 : Ref sig .tc := ⟨.hbm, 108, rfl⟩
abbrev main_call3_call0_v1 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_cst_5 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c19_i32 : BitVec 32 := 19#32
  let v1 : BitVec 32 := Scalar.addi c0_i32 c19_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c768_i32 : BitVec 32 := 768#32
  let v31 : BitVec 32 := Scalar.muli arg8 c768_i32
  v31
def k0_off1 (k0_t1 : Fin k0_t1_loop.trips) : Fin 2 → Nat :=
  let c0_25 : Index := 0#32
  let c0_i32 : BitVec 32 := 0#32
  let c1_i32 : BitVec 32 := 1#32
  let arg8 : BitVec 32 := Scf.iv c0_i32 c1_i32 k0_t1
  let c768_i32 : BitVec 32 := 768#32
  let v31 : BitVec 32 := Scalar.muli arg8 c768_i32
  let v32 : BitVec 32 := v31
  let v33 : Index := Scalar.indexCast v32
  ![0, v33.toNat]
@[reducible] def k0_t2_loop : Scf.Loop 32 :=
  let c1_i32_14 : BitVec 32 := 1#32
  let c18_i32 : BitVec 32 := 18#32
  let v23 : BitVec 32 := Scalar.addi c1_i32_14 c18_i32
  let c1_i32_15 : BitVec 32 := 1#32
  ⟨c1_i32_14, v23, c1_i32_15⟩
def k0_mult2 (k0_t2 : Fin k0_t2_loop.trips) : BitVec 32 :=
  let c1_i32_14 : BitVec 32 := 1#32
  let c1_i32_15 : BitVec 32 := 1#32
  let arg8 : BitVec 32 := Scf.iv c1_i32_14 c1_i32_15 k0_t2
  let c768_i32 : BitVec 32 := 768#32
  let v31 : BitVec 32 := Scalar.muli arg8 c768_i32
  v31
def k0_off2 (k0_t2 : Fin k0_t2_loop.trips) : Fin 2 → Nat :=
  let c0_25 : Index := 0#32
  let c1_i32_14 : BitVec 32 := 1#32
  let c1_i32_15 : BitVec 32 := 1#32
  let arg8 : BitVec 32 := Scf.iv c1_i32_14 c1_i32_15 k0_t2
  let c768_i32 : BitVec 32 := 768#32
  let v31 : BitVec 32 := Scalar.muli arg8 c768_i32
  let v32 : BitVec 32 := v31
  let v33 : Index := Scalar.indexCast v32
  ![0, v33.toNat]
@[reducible] def k0_t3_loop : Scf.Loop 32 :=
  let c0_i32_19 : BitVec 32 := 0#32
  let c19_i32_20 : BitVec 32 := 19#32
  let v27 : BitVec 32 := Scalar.addi c0_i32_19 c19_i32_20
  let c1_i32_21 : BitVec 32 := 1#32
  ⟨c0_i32_19, v27, c1_i32_21⟩
def k0_mult3 (k0_t3 : Fin k0_t3_loop.trips) : BitVec 32 :=
  let c0_i32_19 : BitVec 32 := 0#32
  let c1_i32_21 : BitVec 32 := 1#32
  let arg8 : BitVec 32 := Scf.iv c0_i32_19 c1_i32_21 k0_t3
  let c768_i32 : BitVec 32 := 768#32
  let v31 : BitVec 32 := Scalar.muli arg8 c768_i32
  v31
def k0_off3 (k0_t3 : Fin k0_t3_loop.trips) : Fin 2 → Nat :=
  let c0_25 : Index := 0#32
  let c0_i32_19 : BitVec 32 := 0#32
  let c1_i32_21 : BitVec 32 := 1#32
  let arg8 : BitVec 32 := Scf.iv c0_i32_19 c1_i32_21 k0_t3
  let c768_i32 : BitVec 32 := 768#32
  let v31 : BitVec 32 := Scalar.muli arg8 c768_i32
  let v32 : BitVec 32 := v31
  let v33 : Index := Scalar.indexCast v32
  ![0, v33.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x14592 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x14592 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x14592 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S384x768_S768x384_1_0 : S384x768.Transposes [1, 0] S768x384
  bitsLt_bf16_f32 : FTy.bits .bf16 < FTy.bits .f32
  shapeCasts_S384_S1x384 : S384.ShapeCasts S1x384
  transposes_S19x768x384_S384x19x768_2_0_1 : S19x768x384.Transposes [2, 0, 1] S384x19x768
  shapeCasts_S384x19x768_S384x14592 : S384x19x768.ShapeCasts S384x14592
  shapeCasts_S19x768_S1x14592 : S19x768.ShapeCasts S1x14592
  h_S128x768 : 0 < S128x768.numel
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S128x384 : S1x384.Broadcasts S128x384
  inb_S384x14592_S384x14592_0_0 : ∀ a, (![0, 0] : Fin 2 → Nat) a + S384x14592.size a ≤ S384x14592.size a
  h_S384x14592 : 0 < S384x14592.numel
  shapeCasts_S384x14592_S384x14592 : S384x14592.ShapeCasts S384x14592
  inb_S1x14592_S1x14592_0_0 : ∀ a, (![0, 0] : Fin 2 → Nat) a + S1x14592.size a ≤ S1x14592.size a
  h_S1x14592 : 0 < S1x14592.numel
  shapeCasts_S1x14592_S1x14592 : S1x14592.ShapeCasts S1x14592
  broadcasts_S1x14592_S128x14592 : S1x14592.Broadcasts S128x14592
  inb_S128x14592_S128x14592_0_0 : ∀ a, (![0, 0] : Fin 2 → Nat) a + S128x14592.size a ≤ S128x14592.size a
  h_S128x14592 : 0 < S128x14592.numel
  shapeCasts_S128x14592_S128x14592 : S128x14592.ShapeCasts S128x14592
  inb_S128x14592_S128x768_0_0 : ∀ a, (![0, 0] : Fin 2 → Nat) a + S128x768.size a ≤ S128x14592.size a
  inb_S128x768_S128x768_0_0 : ∀ a, (![0, 0] : Fin 2 → Nat) a + S128x768.size a ≤ S128x768.size a
  transposes_S256x768_S768x256_1_0 : S256x768.Transposes [1, 0] S768x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S256_d0 : S8192x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S128_d0 : S8192x128.ReducesTo [0] S128
  bcast_S_S128 : S_.BroadcastsInDim S128 (![] : Fin 0 → Fin S128.rank)
  bcast_S_S1x128 : S_.BroadcastsInDim S1x128 (![] : Fin 0 → Fin S1x128.rank)
  transposes_S150x128_S128x150_1_0 : S150x128.Transposes [1, 0] S128x150
  bcast_S150_S1x150_1 : S150.BroadcastsInDim S1x150 (![1] : Fin 1 → Fin S1x150.rank)
  bcast_S1x150_S8192x150_0_1 : S1x150.BroadcastsInDim S8192x150 (![0, 1] : Fin 2 → Fin S8192x150.rank)
  dot_S128x768_S768x384_S128x384_1_0_0_1_n_n_wf : DotDims.WF S128x768 S768x384 S128x384 [1] [0] [0] [1] [] []
  dot_S128x384_S384x14592_S128x14592_1_0_0_1_n_n_wf : DotDims.WF S128x384 S384x14592 S128x14592 [1] [0] [0] [1] [] []
  dot_S8192x768_S768x256_S8192x256_1_0_0_1_n_n_wf : DotDims.WF S8192x768 S768x256 S8192x256 [1] [0] [0] [1] [] []
  dot_S8192x256_S256x128_S8192x128_1_0_0_1_n_n_wf : DotDims.WF S8192x256 S256x128 S8192x128 [1] [0] [0] [1] [] []
  dot_S8192x128_S128x150_S8192x150_1_0_0_1_n_n_wf : DotDims.WF S8192x128 S128x150 S8192x150 [1] [0] [0] [1] [] []
  hrank0 : 0 < grid0.rank
  k0_t1_ok : k0_t1_loop.OK
  k0_mult1_dvd : ∀ k0_t1 : Fin k0_t1_loop.trips, 768 ∣ (k0_mult1 k0_t1).toNat
  k0_off1_inb : ∀ k0_t1 : Fin k0_t1_loop.trips, ∀ a, (k0_off1 k0_t1) a + S128x768.size a ≤ S128x14592.size a
  k0_t2_ok : k0_t2_loop.OK
  k0_mult2_dvd : ∀ k0_t2 : Fin k0_t2_loop.trips, 768 ∣ (k0_mult2 k0_t2).toNat
  k0_off2_inb : ∀ k0_t2 : Fin k0_t2_loop.trips, ∀ a, (k0_off2 k0_t2) a + S128x768.size a ≤ S128x14592.size a
  k0_t3_ok : k0_t3_loop.OK
  k0_mult3_dvd : ∀ k0_t3 : Fin k0_t3_loop.trips, 768 ∣ (k0_mult3 k0_t3).toNat
  k0_off3_inb : ∀ k0_t3 : Fin k0_t3_loop.trips, ∀ a, (k0_off3 k0_t3) a + S128x768.size a ≤ S128x14592.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x14592.size a ≤ S8192x14592.size a
  hwx0_0 : ∀ i : grid0.Coords, EltTy.bits .f32 = 32 ∨ (Rect.block (s := S8192x14592) S128x14592.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .bf16 = 32 ∨ (Rect.block (s := S768x384) S768x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x14592.size a ≤ S384x14592.size a
  hwx0_3 : ∀ i : grid0.Coords, EltTy.bits .bf16 = 32 ∨ (Rect.block (s := S384x14592) S384x14592.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x14592.size a ≤ S1x14592.size a
  hwx0_4 : ∀ i : grid0.Coords, EltTy.bits .f32 = 32 ∨ (Rect.block (s := S1x14592) S1x14592.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x768.size a ≤ S8192x768.size a
  hwx0_5 : ∀ i : grid0.Coords, EltTy.bits .f32 = 32 ∨ (Rect.block (s := S8192x768) S128x768.size (cc0_transform_5 i) (hinb0_5 i)).WholeWords (EltTy.packing .f32)

variable [Facts₀]

def dot_S128x768_S768x384_S128x384_1_0_0_1_n_n : DotDims S128x768 S768x384 S128x384 where
  lhsContracting := [1]
  rhsContracting := [0]
  lhsNonContracting := [0]
  rhsNonContracting := [1]
  lhsBatch := []
  rhsBatch := []
  wf := dot_S128x768_S768x384_S128x384_1_0_0_1_n_n_wf
def dot_S128x384_S384x14592_S128x14592_1_0_0_1_n_n : DotDims S128x384 S384x14592 S128x14592 where
  lhsContracting := [1]
  rhsContracting := [0]
  lhsNonContracting := [0]
  rhsNonContracting := [1]
  lhsBatch := []
  rhsBatch := []
  wf := dot_S128x384_S384x14592_S128x14592_1_0_0_1_n_n_wf
def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x150_S8192x150_1_0_0_1_n_n : DotDims S8192x128 S128x150 S8192x150 where
  lhsContracting := [1]
  rhsContracting := [0]
  lhsNonContracting := [0]
  rhsNonContracting := [1]
  lhsBatch := []
  rhsBatch := []
  wf := dot_S8192x128_S128x150_S8192x150_1_0_0_1_n_n_wf

abbrev win0_0 : Pipeline.Window sig grid0 :=
  Pipeline.Window.ofSpec (Memref.whole main_arg0) S128x14592.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S384x14592.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x14592.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x14592 : Shape := ⟨2, ![8192, 14592]⟩
abbrev S384x768 : Shape := ⟨2, ![384, 768]⟩
abbrev S384 : Shape := ⟨1, ![384]⟩
abbrev S19x768x384 : Shape := ⟨3, ![19, 768, 384]⟩
abbrev S19x768 : Shape := ⟨2, ![19, 768]⟩
abbrev S256x768 : Shape := ⟨2, ![256, 768]⟩
abbrev S256 : Shape := ⟨1, ![256]⟩
abbrev S128x256 : Shape := ⟨2, ![128, 256]⟩
abbrev S128 : Shape := ⟨1, ![128]⟩
abbrev S150x128 : Shape := ⟨2, ![150, 128]⟩
abbrev S150 : Shape := ⟨1, ![150]⟩
abbrev S8192x19x768 : Shape := ⟨3, ![8192, 19, 768]⟩
abbrev S_ : Shape := ⟨0, ![]⟩
abbrev S8192x768 : Shape := ⟨2, ![8192, 768]⟩
abbrev S768x384 : Shape := ⟨2, ![768, 384]⟩
abbrev S8192x384 : Shape := ⟨2, ![8192, 384]⟩
abbrev S1x384 : Shape := ⟨2, ![1, 384]⟩
abbrev S1x19x768 : Shape := ⟨3, ![1, 19, 768]⟩
abbrev S8192x1x768 : Shape := ⟨3, ![8192, 1, 768]⟩
abbrev S768x256 : Shape := ⟨2, ![768, 256]⟩
abbrev S8192x256 : Shape := ⟨2, ![8192, 256]⟩
abbrev S1x256 : Shape := ⟨2, ![1, 256]⟩
abbrev S256x128 : Shape := ⟨2, ![256, 128]⟩
abbrev S8192x128 : Shape := ⟨2, ![8192, 128]⟩
abbrev S1x128 : Shape := ⟨2, ![1, 128]⟩
abbrev S128x150 : Shape := ⟨2, ![128, 150]⟩
abbrev S8192x150 : Shape := ⟨2, ![8192, 150]⟩
abbrev S1x150 : Shape := ⟨2, ![1, 150]⟩

abbrev nBuf : Space → Nat
  | .hbm => 153
  | .vmem => 0
  | .smem => 0
  | _ => 0

abbrev hbmTy0_0 (i : Nat) : BufTy := match i % 128 with
  | 0 => ⟨S8192x14592, .f32⟩
  | 1 => ⟨S384x768, .f32⟩
  | 2 => ⟨S384, .f32⟩
  | 3 => ⟨S19x768x384, .f32⟩
  | 4 => ⟨S19x768, .f32⟩
  | 5 => ⟨S256x768, .f32⟩
  | 6 => ⟨S256, .f32⟩
  | 7 => ⟨S256, .f32⟩
  | 8 => ⟨S256, .f32⟩
  | 9 => ⟨S128x256, .f32⟩
  | 10 => ⟨S128, .f32⟩
  | 11 => ⟨S128, .f32⟩
  | 12 => ⟨S128, .f32⟩
  | 13 => ⟨S150x128, .f32⟩
  | 14 => ⟨S150, .f32⟩
  | 15 => ⟨S8192x19x768, .f32⟩
  | 16 => ⟨S_, .f32⟩
  | 17 => ⟨S8192x768, .f32⟩
  | 18 => ⟨S768x384, .f32⟩
  | 19 => ⟨S8192x384, .f32⟩
  | 20 => ⟨S1x384, .f32⟩
  | 21 => ⟨S8192x384, .f32⟩
  | 22 => ⟨S8192x384, .f32⟩
  | 23 => ⟨S8192x19x768, .f32⟩
  | 24 => ⟨S1x19x768, .f32⟩
  | 25 => ⟨S8192x19x768, .f32⟩
  | 26 => ⟨S8192x19x768, .f32⟩
  | 27 => ⟨S_, .f32⟩
  | 28 => ⟨S8192x768, .f32⟩
  | 29 => ⟨S_, .f32⟩
  | 30 => ⟨S8192x768, .f32⟩
  | 31 => ⟨S8192x768, .f32⟩
  | 32 => ⟨S8192x1x768, .f32⟩
  | 33 => ⟨S8192x19x768, .f32⟩
  | 34 => ⟨S8192x19x768, .f32⟩
  | 35 => ⟨S8192x19x768, .f32⟩
  | 36 => ⟨S_, .f32⟩
  | 37 => ⟨S8192x768, .f32⟩
  | 38 => ⟨S8192x1x768, .f32⟩
  | 39 => ⟨S8192x19x768, .f32⟩
  | 40 => ⟨S8192x19x768, .f32⟩
  | 41 => ⟨S8192x19x768, .f32⟩
  | 42 => ⟨S_, .f32⟩
  | 43 => ⟨S8192x768, .f32⟩
  | 44 => ⟨S768x256, .f32⟩
  | 45 => ⟨S8192x256, .f32⟩
  | 46 => ⟨S1x256, .f32⟩
  | 47 => ⟨S8192x256, .f32⟩
  | 48 => ⟨S8192x256, .f32⟩
  | 49 => ⟨S_, .f32⟩
  | 50 => ⟨S8192x256, .f32⟩
  | 51 => ⟨S8192x256, .f32⟩
  | 52 => ⟨S_, .f32⟩
  | 53 => ⟨S256, .f32⟩
  | 54 => ⟨S_, .f32⟩
  | 55 => ⟨S256, .f32⟩
  | 56 => ⟨S256, .f32⟩
  | 57 => ⟨S_, .i32⟩
  | 58 => ⟨S_, .f32⟩
  | 59 => ⟨S256, .f32⟩
  | 60 => ⟨S1x256, .f32⟩
  | 61 => ⟨S_, .f32⟩
  | 62 => ⟨S1x256, .f32⟩
  | 63 => ⟨S1x256, .f32⟩
  | 64 => ⟨S8192x256, .f32⟩
  | 65 => ⟨S8192x256, .f32⟩
  | 66 => ⟨S8192x256, .f32⟩
  | 67 => ⟨S_, .f32⟩
  | 68 => ⟨S_, .f32⟩
  | 69 => ⟨S_, .f32⟩
  | 70 => ⟨S_, .f32⟩
  | 71 => ⟨S256, .f32⟩
  | 72 => ⟨S256, .f32⟩
  | 73 => ⟨S256, .f32⟩
  | 74 => ⟨S_, .f32⟩
  | 75 => ⟨S_, .i1⟩
  | 76 => ⟨S_, .f32⟩
  | 77 => ⟨S_, .f32⟩
  | 78 => ⟨S256, .f32⟩
  | 79 => ⟨S256, .f32⟩
  | 80 => ⟨S1x256, .f32⟩
  | 81 => ⟨S8192x256, .f32⟩
  | 82 => ⟨S8192x256, .f32⟩
  | 83 => ⟨S1x256, .f32⟩
  | 84 => ⟨S8192x256, .f32⟩
  | 85 => ⟨S8192x256, .f32⟩
  | 86 => ⟨S_, .f32⟩
  | 87 => ⟨S256, .f32⟩
  | 88 => ⟨S256, .f32⟩
  | 89 => ⟨S256, .f32⟩
  | 90 => ⟨S1x256, .f32⟩
  | 91 => ⟨S8192x256, .f32⟩
  | 92 => ⟨S8192x256, .f32⟩
  | 93 => ⟨S1x256, .f32⟩
  | 94 => ⟨S8192x256, .f32⟩
  | 95 => ⟨S8192x256, .f32⟩
  | 96 => ⟨S256x128, .f32⟩
  | 97 => ⟨S8192x128, .f32⟩
  | 98 => ⟨S1x128, .f32⟩
  | 99 => ⟨S8192x128, .f32⟩
  | 100 => ⟨S8192x128, .f32⟩
  | 101 => ⟨S_, .f32⟩
  | 102 => ⟨S8192x128, .f32⟩
  | 103 => ⟨S8192x128, .f32⟩
  | 104 => ⟨S_, .f32⟩
  | 105 => ⟨S128, .f32⟩
  | 106 => ⟨S_, .f32⟩
  | 107 => ⟨S128, .f32⟩
  | 108 => ⟨S128, .f32⟩
  | 109 => ⟨S_, .i32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S8192x128, .f32⟩
  | 117 => ⟨S8192x128, .f32⟩
  | 118 => ⟨S8192x128, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128, .f32⟩
  | 126 => ⟨S_, .f32⟩
  | 127 => ⟨S_, .i1⟩
  | _ => ⟨S8192x14592, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S1x128, .f32⟩
  | 5 => ⟨S8192x128, .f32⟩
  | 6 => ⟨S8192x128, .f32⟩
  | 7 => ⟨S1x128, .f32⟩
  | 8 => ⟨S8192x128, .f32⟩
  | 9 => ⟨S8192x128, .f32⟩
  | 10 => ⟨S_, .f32⟩
  | 11 => ⟨S128, .f32⟩
  | 12 => ⟨S128, .f32⟩
  | 13 => ⟨S128, .f32⟩
  | 14 => ⟨S1x128, .f32⟩
  | 15 => ⟨S8192x128, .f32⟩
  | 16 => ⟨S8192x128, .f32⟩
  | 17 => ⟨S1x128, .f32⟩
  | 18 => ⟨S8192x128, .f32⟩
  | 19 => ⟨S8192x128, .f32⟩
  | 20 => ⟨S128x150, .f32⟩
  | 21 => ⟨S8192x150, .f32⟩
  | 22 => ⟨S1x150, .f32⟩
  | 23 => ⟨S8192x150, .f32⟩
  | 24 => ⟨S8192x150, .f32⟩
  | _ => ⟨S8192x14592, .f32⟩

abbrev hbmTy (i : Nat) : BufTy := match i / 128 with
  | 0 => hbmTy0_0 i
  | 1 => hbmTy0_1 i
  | _ => ⟨S8192x14592, .f32⟩

abbrev bufTy : (tb : Table) → Fin (tcTables nBuf tb) → BufTy
  | .hbm, ⟨i, _⟩ => hbmTy i
  | _, _ => ⟨S8192x14592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_c : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_cst_1 : Ref sig .tc := ⟨.hbm, 68, rfl⟩
abbrev main_call1_v8 : Ref sig .tc := ⟨.hbm, 69, rfl⟩
abbrev main_call1_cst_2 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_cst_3 : Ref sig .tc := ⟨.hbm, 74, rfl⟩
abbrev main_call1_v12 : Ref sig .tc := ⟨.hbm, 75, rfl⟩
abbrev main_call1_cst_4 : Ref sig .tc := ⟨.hbm, 76, rfl⟩
abbrev main_call1_call0_v0 : Ref sig .tc := ⟨.hbm, 77, rfl⟩
abbrev main_call1_call0_v1 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_6 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_call2_cst : Ref sig .tc := ⟨.hbm, 101, rfl⟩
abbrev main_call2_v0 : Ref sig .tc := ⟨.hbm, 102, rfl⟩
abbrev main_v54 : Ref sig .tc := ⟨.hbm, 103, rfl⟩
abbrev main_cst_7 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_c_9 : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_cst_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_cst_1 : Ref sig .tc := ⟨.hbm, 120, rfl⟩
abbrev main_call3_v8 : Ref sig .tc := ⟨.hbm, 121, rfl⟩
abbrev main_call3_cst_2 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_cst_3 : Ref sig .tc := ⟨.hbm, 126, rfl⟩
abbrev main_call3_v12 : Ref sig .tc := ⟨.hbm, 127, rfl⟩
abbrev main_call3_cst_4 : Ref sig .tc := ⟨.hbm, 128, rfl⟩
abbrev main_call3_call0_v0 : Ref sig .tc := ⟨.hbm, 129, rfl⟩
abbrev main_call3_call0_v1 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_cst_10 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩

abbrev nD : Nat := 1
abbrev τ : Topo := Topo.v7x

variable {F : FTy → Type} [FloatOps F]

class Facts₀ : Prop where
  shapeCasts_S8192x14592_S8192x19x768 : S8192x14592.ShapeCasts S8192x19x768
  reducesTo_S8192x19x768_S8192x768_d1 : S8192x19x768.ReducesTo [1] S8192x768
  h_S_ : 0 < S_.numel
  transposes_S384x768_S768x384_1_0 : S384x768.Transposes [1, 0] S768x384
  bcast_S384_S1x384_1 : S384.BroadcastsInDim S1x384 (![1] : Fin 1 → Fin S1x384.rank)
  bcast_S1x384_S8192x384_0_1 : S1x384.BroadcastsInDim S8192x384 (![0, 1] : Fin 2 → Fin S8192x384.rank)
  bcast_S19x768_S1x19x768_1_2 : S19x768.BroadcastsInDim S1x19x768 (![1, 2] : Fin 2 → Fin S1x19x768.rank)
  bcast_S1x19x768_S8192x19x768_0_1_2 : S1x19x768.BroadcastsInDim S8192x19x768 (![0, 1, 2] : Fin 3 → Fin S8192x19x768.rank)
  bcast_S_S8192x768 : S_.BroadcastsInDim S8192x768 (![] : Fin 0 → Fin S8192x768.rank)
  bcast_S8192x768_S8192x1x768_0_2 : S8192x768.BroadcastsInDim S8192x1x768 (![0, 2] : Fin 2 → Fin S8192x1x768.rank)
  bcast_S8192x1x768_S8192x19x768_0_1_2 : S8192x1x768.BroadcastsInDim S8192x19x768 (![0, 1, 2] : Fin 3 → Fin S8192x19x768.rank)
  transposes_S256x768_S768x256_1_0 : S256x768.Transposes [1, 0] S768x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S256_d0 : S8192x256.ReducesTo [0] S256
  bcast_S_S256 : S_.BroadcastsInDim S256 (![] : Fin 0 → Fin S256.rank)
  bcast_S_S1x256 : S_.BroadcastsInDim S1x256 (![] : Fin 0 → Fin S1x256.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S128_d0 : S8192x128.ReducesTo [0] S128
  bcast_S_S128 : S_.BroadcastsInDim S128 (![] : Fin 0 → Fin S128.rank)
  bcast_S_S1x128 : S_.BroadcastsInDim S1x128 (![] : Fin 0 → Fin S1x128.rank)
  transposes_S150x128_S128x150_1_0 : S150x128.Transposes [1, 0] S128x150
  bcast_S150_S1x150_1 : S150.BroadcastsInDim S1x150 (![1] : Fin 1 → Fin S1x150.rank)
  bcast_S1x150_S8192x150_0_1 : S1x150.BroadcastsInDim S8192x150 (![0, 1] : Fin 2 → Fin S8192x150.rank)
  dot_S8192x768_S768x384_S8192x384_1_0_0_1_n_n_wf : DotDims.WF S8192x768 S768x384 S8192x384 [1] [0] [0] [1] [] []
  dot_S8192x384_S19x768x384_S8192x19x768_1_2_0_01_n_n_wf : DotDims.WF S8192x384 S19x768x384 S8192x19x768 [1] [2] [0] [0, 1] [] []
  dot_S8192x768_S768x256_S8192x256_1_0_0_1_n_n_wf : DotDims.WF S8192x768 S768x256 S8192x256 [1] [0] [0] [1] [] []
  dot_S8192x256_S256x128_S8192x128_1_0_0_1_n_n_wf : DotDims.WF S8192x256 S256x128 S8192x128 [1] [0] [0] [1] [] []
  dot_S8192x128_S128x150_S8192x150_1_0_0_1_n_n_wf : DotDims.WF S8192x128 S128x150 S8192x150 [1] [0] [0] [1] [] []

variable [Facts₀]

def dot_S8192x768_S768x384_S8192x384_1_0_0_1_n_n : DotDims S8192x768 S768x384 S8192x384 where
  lhsContracting := [1]
  rhsContracting := [0]
  lhsNonContracting := [0]
  rhsNonContracting := [1]
  lhsBatch := []
  rhsBatch := []
  wf := dot_S8192x768_S768x384_S8192x384_1_0_0_1_n_n_wf
def dot_S8192x384_S19x768x384_S8192x19x768_1_2_0_01_n_n : DotDims S8192x384 S19x768x384 S8192x19x768 where
  lhsContracting := [1]
  rhsContracting := [2]
  lhsNonContracting := [0]
  rhsNonContracting := [0, 1]
  lhsBatch := []
  rhsBatch := []
  wf := dot_S8192x384_S19x768x384_S8192x19x768_1_2_0_01_n_n_wf
def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x150_S8192x150_1_0_0_1_n_n : DotDims S8192x128 S128x150 S8192x150 where
  lhsContracting := [1]
  rhsContracting := [0]
  lhsNonContracting := [0]
  rhsNonContracting := [1]
  lhsBatch := []
  rhsBatch := []
  wf := dot_S8192x128_S128x150_S8192x150_1_0_0_1_n_n_wf

class Facts : Prop extends Facts₀ where

variable [Facts]
-- ==== Proof.KbDefs.lean ====
/-
  The kernel program's run, named: the buffer contents each core sees when the one region is
  entered (the launch memory after the seven host operations before it), a window's block at a
  grid point read off those contents, the staging buffers the body is handed at a point, and
  the stretches of host operations after the region.
-/
import proofs.«142875_j90099823936041_2_alg».proof.Proof.Gen.Kernel.Launch
import proofs.«142875_j90099823936041_2_alg».proof.Proof.Gen.Kernel.Skeleton
import proofs.«142875_j90099823936041_2_alg».proof.Proof.Gen.Kernel.Points
import Idealize.ShloMosaic.Lib.Pipeline.FrameBody
import Idealize.ShloMosaic.Lib.Pipeline.FrameSuffix

noncomputable section

namespace Cert.Kernel.Frm

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the region, in order. -/
abbrev opss : List (List (HloOp τ sig (Elt F))) :=
  [hostOps1, hostOps1_1, hostOps1_2, hostOps1_3, hostOps1_4, hostOps1_5, hostOps1_6, hostOps1_7, hostOps1_8]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point `t`, as the pipeline passes it, and its wholeness. -/
abbrev ms0_0 (t : Fin cfg0.N) : Memref sig .tc .vmem S128x14592 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S384x14592 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x14592 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x768 .f32 := win0_5.stage (cfg0.slots t 5)
abbrev hs0_5 (t : Fin cfg0.N) : (ms0_5 t).IsWhole := hstage0_5 ((cfg0.slots t 5).cast nbuf0_5)
/-- The score scratch: a whole scoped buffer of the kernel's own, passed beside the windows. -/
abbrev scM0_0 : Memref sig .tc .vmem S128x14592 .f32 := Memref.whole cc0_scratch0
/-- One staging buffer of the output window, through which its contents are stated. -/
abbrev VO0_5 : View sig .tc .vmem S128x768 .f32 := (Memref.whole cc0_stg5_0 : Memref sig .tc .vmem S128x768 .f32).view

end Cert.Kernel.Frm

end
-- ==== Proof.KbHost.lean ====
/-
  The host side of the kernel program's run: the host operations before the one region and the
  nine stretches of host operations after it.

  Every host operation writes exactly one buffer, its own result, and no result buffer is an
  argument of the program or an array a window of the region stages. So the region finds each
  argument as launched, the operations after the region leave the arguments and the windows'
  arrays alone, and the run's final contents at the fifteen arguments are the launch contents:
  argument 0 is the input array of window 0, never written back; the other fourteen bypass the
  region. Each input window's staging buffer holds its block at every grid point, fetched there
  or not.
-/
import proofs.«142875_j90099823936041_2_alg».proof.Proof.KbDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-! ## The program around the region -/

/-- The program is the host operations before the region, the region, and the nine stretches after
    it: it reduces to the region continued by the later stretches, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [hostOps0] opss (by simp only [List.Forall]; exact hostOps0_sub)
    (by simp only [List.Forall]; exact hostOps0_fresh) main_chain

/-! ## What the operations write -/

/-- `W` lists, in order, the one buffer each operation of `ops` writes. -/
abbrev Writes (ops : List (HloOp τ sig (Elt F))) (W : List (Ref sig .tc)) : Prop :=
  List.Forall₂ (fun op y => op.writes = {Proc.devRef (τ := τ) .tc y}) ops W

/-- A buffer outside the list of written buffers is written by no operation. -/
theorem not_mem_writes {ops : List (HloOp τ sig (Elt F))} {W : List (Ref sig .tc)} (hW : Writes ops W)
    {r : Ref sig .tc} (hr : r ∉ W) : ∀ op ∈ ops, Proc.devRef (τ := τ) .tc r ∉ op.writes := by
  induction hW with
  | nil => intro op h; cases h
  | cons h _ ih =>
    intro op hop
    rcases List.mem_cons.mp hop with rfl | hop
    · rw [h, Finset.mem_singleton]
      exact StableHlo.devRef_ne_of_ne (fun e => hr (e ▸ List.mem_cons_self))
    · exact ih (fun h' => hr (List.mem_cons_of_mem _ h')) op hop

/-- The same over several stretches of operations. -/
theorem not_mem_writes_lists {opss : List (List (HloOp τ sig (Elt F)))} {Wss : List (List (Ref sig .tc))}
    (h : List.Forall₂ Writes opss Wss) {r : Ref sig .tc} (hr : ∀ W ∈ Wss, r ∉ W) :
    ∀ ops ∈ opss, ∀ op ∈ ops, Proc.devRef (τ := τ) .tc r ∉ op.writes := by
  induction h with
  | nil => intro ops h; cases h
  | cons h _ ih =>
    intro ops hops
    rcases List.mem_cons.mp hops with rfl | hops
    · exact not_mem_writes h (hr _ List.mem_cons_self)
    · exact ih (fun W hW => hr W (List.mem_cons_of_mem _ hW)) ops hops

/-- The result buffers of the operations before the region, in order. -/
abbrev wr0 : List (Ref sig .tc) := [main_v0, main_v1, main_v2, main_v3, main_v4, main_v5, main_v6]
/-- The result buffers of `hostOps1`, in order. -/
abbrev wr1 : List (Ref sig .tc) := [main_v8, main_v9, main_v10, main_v11, main_v12]
/-- The result buffers of `hostOps1_1`, in order. -/
abbrev wr1_1 : List (Ref sig .tc) := [main_call0_cst, main_call0_v0, main_v13]
/-- The result buffers of `hostOps1_2`, in order. -/
abbrev wr1_2 : List (Ref sig .tc) := [main_cst, main_v14, main_cst_0, main_v15, main_v16, main_c]
/-- The result buffers of `hostOps1_3`, in order. -/
abbrev wr1_3 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v17]
/-- The result buffers of `hostOps1_4`, in order. -/
abbrev wr1_4 : List (Ref sig .tc) := [main_v18, main_v19, main_v20, main_v21, main_v22, main_v23, main_cst_1, main_v24, main_v25, main_v26, main_v27, main_v28, main_v29, main_v30, main_v31, main_v32, main_v33, main_v34, main_v35, main_v36, main_v37]
/-- The result buffers of `hostOps1_5`, in order. -/
abbrev wr1_5 : List (Ref sig .tc) := [main_call2_cst, main_call2_v0, main_v38]
/-- The result buffers of `hostOps1_6`, in order. -/
abbrev wr1_6 : List (Ref sig .tc) := [main_cst_2, main_v39, main_cst_3, main_v40, main_v41, main_c_4]
/-- The result buffers of `hostOps1_7`, in order. -/
abbrev wr1_7 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v42]
/-- The result buffers of `hostOps1_8`, in order. -/
abbrev wr1_8 : List (Ref sig .tc) := [main_v43, main_v44, main_v45, main_v46, main_v47, main_v48, main_cst_5, main_v49, main_v50, main_v51, main_v52, main_v53, main_v54, main_v55, main_v56, main_v57, main_v58, main_v59, main_v60, main_v61, main_v62]
/-- The result buffers of the nine stretches after the region. -/
abbrev wrss : List (List (Ref sig .tc)) := [wr1, wr1_1, wr1_2, wr1_3, wr1_4, wr1_5, wr1_6, wr1_7, wr1_8]

theorem hostOps0_wr : Writes (hostOps0 (F := F)) wr0 := .cons rfl (.cons rfl (.cons rfl (.cons rfl (.cons rfl (.cons rfl (.cons rfl (.nil)))))))
theorem hostOps1_wr : Writes (hostOps1 (F := F)) wr1 := .cons rfl (.cons rfl (.cons rfl (.cons rfl (.cons rfl (.nil)))))
theorem hostOps1_1_wr : Writes (hostOps1_1 (F := F)) wr1_1 := .cons rfl (.cons rfl (.cons rfl (.nil)))
theorem hostOps1_2_wr : Writes (hostOps1_2 (F := F)) wr1_2 := .cons rfl (.cons rfl (.cons rfl (.cons rfl (.cons rfl (.cons rfl (.nil))))))
theorem hostOps1_3_wr : Writes (hostOps1_3 (F := F)) wr1_3 := .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
theorem hostOps1_4_wr : Writes (hostOps1_4 (F := F)) wr1_4 := .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))
theorem hostOps1_5_wr : Writes (hostOps1_5 (F := F)) wr1_5 := .cons rfl (.cons rfl (.cons rfl (.nil)))
theorem hostOps1_6_wr : Writes (hostOps1_6 (F := F)) wr1_6 := .cons rfl (.cons rfl (.cons rfl (.cons rfl (.cons rfl (.cons rfl (.nil))))))
theorem hostOps1_7_wr : Writes (hostOps1_7 (F := F)) wr1_7 := .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
theorem hostOps1_8_wr : Writes (hostOps1_8 (F := F)) wr1_8 := .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))
theorem opss_wr : List.Forall₂ Writes (opss (F := F)) wrss :=
  .cons hostOps1_wr (.cons hostOps1_1_wr (.cons hostOps1_2_wr (.cons hostOps1_3_wr (.cons hostOps1_4_wr (.cons hostOps1_5_wr (.cons hostOps1_6_wr (.cons hostOps1_7_wr (.cons hostOps1_8_wr (.nil)))))))))

/-! ## The stretches after the region -/

/-- They touch the pipeline's arrays and the bypassing buffers only. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (opss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- No array of the pipeline is a result buffer of theirs. -/
theorem arr_not_written : ∀ w : Fin 6, ∀ W ∈ wrss, Pipeline.arrRef spec0 w ∉ W := by decide
/-- And they write no array of the pipeline. -/
theorem sfx_keeps : ∀ ops ∈ (opss : List (List (HloOp τ sig (Elt F)))), ∀ op ∈ ops,
    ∀ w, Proc.devRef .tc (Pipeline.arrRef spec0 w) ∉ op.writes :=
  fun ops hops op hop w => not_mem_writes_lists opss_wr (arr_not_written w) ops hops op hop

/-! ## The arguments at the region's entry and at the end -/

/-- A buffer no operation before the region writes is found by the region as launched. -/
theorem V_of (c : Dev nD) (b : Ref sig .tc) (h0 : b ∉ wr0) : V m c b = m ((c : Thread nD τ).loc b) :=
  StableHlo.after_of_forall_not_mem (b := Proc.devRef .tc b) _ _ (fun op hop =>
    not_mem_writes hostOps0_wr h0 op (by simpa only [List.flatten_cons, List.flatten_nil, List.append_nil] using hop))

/-- A buffer that is no array of the pipeline and that no host operation writes ends as launched. -/
theorem W_of (dats : (p : Fin 1) → (c : Dev nD) → Dat τ (Elt F) Unit ℕ (UR sig nD τ) ℕ (cfgs p) c) (c : Dev nD) (b : Ref sig .tc)
    (h0 : b ∉ wr0) (h1 : ∀ W ∈ wrss, b ∉ W) (ha : ∀ w, Pipeline.arrRef spec0 w ≠ b) :
    Pipeline.afterTail₀ cfgs dats 0 (V0 m) opss c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact not_mem_writes_lists opss_wr h1 ops hops op hop'),
    Pipeline.withArrays_of_ne _ c (V0 m c) _ b ha]
  exact V_of m c b h0

theorem V_main_arg0 (c : Dev nD) : V m c main_arg0 = m ((c : Thread nD τ).loc main_arg0) :=
  V_of m c main_arg0 (by decide)
theorem V_main_arg1 (c : Dev nD) : V m c main_arg1 = m ((c : Thread nD τ).loc main_arg1) :=
  V_of m c main_arg1 (by decide)
theorem V_main_arg2 (c : Dev nD) : V m c main_arg2 = m ((c : Thread nD τ).loc main_arg2) :=
  V_of m c main_arg2 (by decide)
theorem V_main_arg3 (c : Dev nD) : V m c main_arg3 = m ((c : Thread nD τ).loc main_arg3) :=
  V_of m c main_arg3 (by decide)
theorem V_main_arg4 (c : Dev nD) : V m c main_arg4 = m ((c : Thread nD τ).loc main_arg4) :=
  V_of m c main_arg4 (by decide)
theorem V_main_arg5 (c : Dev nD) : V m c main_arg5 = m ((c : Thread nD τ).loc main_arg5) :=
  V_of m c main_arg5 (by decide)
theorem V_main_arg6 (c : Dev nD) : V m c main_arg6 = m ((c : Thread nD τ).loc main_arg6) :=
  V_of m c main_arg6 (by decide)
theorem V_main_arg7 (c : Dev nD) : V m c main_arg7 = m ((c : Thread nD τ).loc main_arg7) :=
  V_of m c main_arg7 (by decide)
theorem V_main_arg8 (c : Dev nD) : V m c main_arg8 = m ((c : Thread nD τ).loc main_arg8) :=
  V_of m c main_arg8 (by decide)
theorem V_main_arg9 (c : Dev nD) : V m c main_arg9 = m ((c : Thread nD τ).loc main_arg9) :=
  V_of m c main_arg9 (by decide)
theorem V_main_arg10 (c : Dev nD) : V m c main_arg10 = m ((c : Thread nD τ).loc main_arg10) :=
  V_of m c main_arg10 (by decide)
theorem V_main_arg11 (c : Dev nD) : V m c main_arg11 = m ((c : Thread nD τ).loc main_arg11) :=
  V_of m c main_arg11 (by decide)
theorem V_main_arg12 (c : Dev nD) : V m c main_arg12 = m ((c : Thread nD τ).loc main_arg12) :=
  V_of m c main_arg12 (by decide)
theorem V_main_arg13 (c : Dev nD) : V m c main_arg13 = m ((c : Thread nD τ).loc main_arg13) :=
  V_of m c main_arg13 (by decide)
theorem V_main_arg14 (c : Dev nD) : V m c main_arg14 = m ((c : Thread nD τ).loc main_arg14) :=
  V_of m c main_arg14 (by decide)

theorem W_main_arg1 (dats : (p : Fin 1) → (c : Dev nD) → Dat τ (Elt F) Unit ℕ (UR sig nD τ) ℕ (cfgs p) c) (c : Dev nD) :
    Pipeline.afterTail₀ cfgs dats 0 (V0 m) opss c main_arg1 = m ((c : Thread nD τ).loc main_arg1) :=
  W_of m dats c main_arg1 (by decide) (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) opss c main_arg2 = m ((c : Thread nD τ).loc main_arg2) :=
  W_of m dats c main_arg2 (by decide) (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) opss c main_arg3 = m ((c : Thread nD τ).loc main_arg3) :=
  W_of m dats c main_arg3 (by decide) (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) opss c main_arg4 = m ((c : Thread nD τ).loc main_arg4) :=
  W_of m dats c main_arg4 (by decide) (by decide) (by decide)
theorem W_main_arg5 (dats : (p : Fin 1) → (c : Dev nD) → Dat τ (Elt F) Unit ℕ (UR sig nD τ) ℕ (cfgs p) c) (c : Dev nD) :
    Pipeline.afterTail₀ cfgs dats 0 (V0 m) opss c main_arg5 = m ((c : Thread nD τ).loc main_arg5) :=
  W_of m dats c main_arg5 (by decide) (by decide) (by decide)
theorem W_main_arg6 (dats : (p : Fin 1) → (c : Dev nD) → Dat τ (Elt F) Unit ℕ (UR sig nD τ) ℕ (cfgs p) c) (c : Dev nD) :
    Pipeline.afterTail₀ cfgs dats 0 (V0 m) opss c main_arg6 = m ((c : Thread nD τ).loc main_arg6) :=
  W_of m dats c main_arg6 (by decide) (by decide) (by decide)
theorem W_main_arg7 (dats : (p : Fin 1) → (c : Dev nD) → Dat τ (Elt F) Unit ℕ (UR sig nD τ) ℕ (cfgs p) c) (c : Dev nD) :
    Pipeline.afterTail₀ cfgs dats 0 (V0 m) opss c main_arg7 = m ((c : Thread nD τ).loc main_arg7) :=
  W_of m dats c main_arg7 (by decide) (by decide) (by decide)
theorem W_main_arg8 (dats : (p : Fin 1) → (c : Dev nD) → Dat τ (Elt F) Unit ℕ (UR sig nD τ) ℕ (cfgs p) c) (c : Dev nD) :
    Pipeline.afterTail₀ cfgs dats 0 (V0 m) opss c main_arg8 = m ((c : Thread nD τ).loc main_arg8) :=
  W_of m dats c main_arg8 (by decide) (by decide) (by decide)
theorem W_main_arg9 (dats : (p : Fin 1) → (c : Dev nD) → Dat τ (Elt F) Unit ℕ (UR sig nD τ) ℕ (cfgs p) c) (c : Dev nD) :
    Pipeline.afterTail₀ cfgs dats 0 (V0 m) opss c main_arg9 = m ((c : Thread nD τ).loc main_arg9) :=
  W_of m dats c main_arg9 (by decide) (by decide) (by decide)
theorem W_main_arg10 (dats : (p : Fin 1) → (c : Dev nD) → Dat τ (Elt F) Unit ℕ (UR sig nD τ) ℕ (cfgs p) c) (c : Dev nD) :
    Pipeline.afterTail₀ cfgs dats 0 (V0 m) opss c main_arg10 = m ((c : Thread nD τ).loc main_arg10) :=
  W_of m dats c main_arg10 (by decide) (by decide) (by decide)
theorem W_main_arg11 (dats : (p : Fin 1) → (c : Dev nD) → Dat τ (Elt F) Unit ℕ (UR sig nD τ) ℕ (cfgs p) c) (c : Dev nD) :
    Pipeline.afterTail₀ cfgs dats 0 (V0 m) opss c main_arg11 = m ((c : Thread nD τ).loc main_arg11) :=
  W_of m dats c main_arg11 (by decide) (by decide) (by decide)
theorem W_main_arg12 (dats : (p : Fin 1) → (c : Dev nD) → Dat τ (Elt F) Unit ℕ (UR sig nD τ) ℕ (cfgs p) c) (c : Dev nD) :
    Pipeline.afterTail₀ cfgs dats 0 (V0 m) opss c main_arg12 = m ((c : Thread nD τ).loc main_arg12) :=
  W_of m dats c main_arg12 (by decide) (by decide) (by decide)
theorem W_main_arg13 (dats : (p : Fin 1) → (c : Dev nD) → Dat τ (Elt F) Unit ℕ (UR sig nD τ) ℕ (cfgs p) c) (c : Dev nD) :
    Pipeline.afterTail₀ cfgs dats 0 (V0 m) opss c main_arg13 = m ((c : Thread nD τ).loc main_arg13) :=
  W_of m dats c main_arg13 (by decide) (by decide) (by decide)
theorem W_main_arg14 (dats : (p : Fin 1) → (c : Dev nD) → Dat τ (Elt F) Unit ℕ (UR sig nD τ) ℕ (cfgs p) c) (c : Dev nD) :
    Pipeline.afterTail₀ cfgs dats 0 (V0 m) opss c main_arg14 = m ((c : Thread nD τ).loc main_arg14) :=
  W_of m dats c main_arg14 (by decide) (by decide) (by decide)

/-- Argument 0 is the array of input window 0: the region never writes it back and no later
    operation writes it, so for proof data whose array is the region-entry contents it ends as
    launched. -/
theorem W_main_arg0 (dats : (p : Fin 1) → (c : Dev nD) → Dat τ (Elt F) Unit ℕ (UR sig nD τ) ℕ (cfgs p) c) (c : Dev nD)
    (hA : (dats 0 c).A 0 = V m c (Pipeline.arrRef spec0 0)) :
    Pipeline.afterTail₀ cfgs dats 0 (V0 m) opss c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact not_mem_writes_lists opss_wr (by decide) ops hops op hop')]
  exact (Pipeline.withArrays_arr (cfgs 0).spec launch0.win.arr_inj c (V0 m c) _ 0).trans
    (((dats 0 c).arrAt_in 0 rfl _).trans (hA.trans (V_main_arg0 m c)))

/-! ## The input windows' blocks -/

/-- Input window 0's current staging buffer holds its block at every point, fetched there or not, for
    any proof data whose array is the region-entry contents and whose body leaves the block in place:
    where the pipeline does not fetch, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for
    any proof data whose array is the region-entry contents and whose body leaves the block in place:
    where the pipeline does not fetch, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for
    any proof data whose array is the region-entry contents and whose body leaves the block in place:
    where the pipeline does not fetch, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for
    any proof data whose array is the region-entry contents and whose body leaves the block in place:
    where the pipeline does not fetch, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for
    any proof data whose array is the region-entry contents and whose body leaves the block in place:
    where the pipeline does not fetch, the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run to the library's frame post read at the argument arrays — argument 0 an input
    window's array, the other fourteen bypassing the region — the fifteen arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) opss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c)⟩) h

end Cert.Kernel.Frm

end
-- ==== Proof.KbBody.lean ====
/-
  The kernel body at one grid point, run once on whole staging buffers.

  The five input blocks are only read; the score scratch is overwritten whole before anything
  is read from it; the output block is stored once, whole. The three counted loops (the sum of
  the 19 branch slices, the running maximum over branches 1..18, the accumulation of the
  softmax denominator and the weighted sum) are passed by their invariants. What the output
  block and the scratch end with is recorded as the list of stored pieces that the run finds.
-/
import proofs.«142875_j90099823936041_2_alg».proof.Proof.Gen.Kernel.Launch
import proofs.«142875_j90099823936041_2_alg».proof.Proof.Gen.Kernel.Skeleton
import proofs.«142875_j90099823936041_2_alg».proof.Proof.Gen.Kernel.Points
import proofs.«142875_j90099823936041_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output block (`.1`) and into the score scratch (`.2.1`),
    last first, with the proof that on whole buffers — the inputs at their contents, the output
    and the scratch at anything — the body runs to the continuation holding the inputs as they
    were and the output and the scratch with those pieces written. -/
noncomputable def kernelRun0 (c : Dev nD) (i : grid0.Coords) (arg1 : Memref sig .tc .vmem S128x14592 .f32) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x14592 .bf16) (harg4 : arg4.IsWhole) (arg5 : Memref sig .tc .vmem S1x14592 .f32) (harg5 : arg5.IsWhole) (arg6 : Memref sig .tc .vmem S128x768 .f32) (harg6 : arg6.IsWhole) (arg7 : Memref sig .tc .vmem S128x14592 .f32) (harg7 : arg7.IsWhole)
    (x0 : Vec F S128x14592 .f32) (x1 : Vec F S768x384 .bf16) (x2 : Vec F S1x384 .f32) (x3 : Vec F S384x14592 .bf16) (x4 : Vec F S1x14592 .f32) :
    Σ' (L5 : List (View.Piece (Elt F) S128x768 .f32)), { LS : List (View.Piece (Elt F) S128x14592 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__sk_attention_kernel i arg1 harg1 arg2 harg2 arg3 harg3 arg4 harg4 arg5 harg5 arg6 harg6 arg7 harg7) K } := by
  refine ⟨?_, ?_, fun E K => ?run⟩
  case run =>
    simp only [cc0__sk_attention_kernel_eq_skeleton]; unfold cc0__sk_attention_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, HS⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.Kernel.Frm

end
-- ==== Proof.KbOut.lean ====
/-
  What the body leaves in the output block at a grid point: the one piece it stores there, whole,
  read back; that piece covers the block.
-/
import proofs.«142875_j90099823936041_2_alg».proof.Proof.KbDefs
import proofs.«142875_j90099823936041_2_alg».proof.Proof.KbBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.Sem

variable {F : FTy → Type} [FloatOps F]

/-- The body's one store into the output block covers it. -/
theorem cover0_5 (c : Dev nD) (i : grid0.Coords) (arg1 : Memref sig .tc .vmem S128x14592 .f32) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x14592 .bf16) (harg4 : arg4.IsWhole) (arg5 : Memref sig .tc .vmem S1x14592 .f32) (harg5 : arg5.IsWhole) (arg6 : Memref sig .tc .vmem S128x768 .f32) (harg6 : arg6.IsWhole) (arg7 : Memref sig .tc .vmem S128x14592 .f32) (harg7 : arg7.IsWhole)
    (x0 : Vec F S128x14592 .f32) (x1 : Vec F S768x384 .bf16) (x2 : Vec F S1x384 .f32) (x3 : Vec F S384x14592 .bf16) (x4 : Vec F S1x14592 .f32) (y : S128x768.Idx) :
    ∃ pc ∈ (kernelRun0 (F := F) c i arg1 harg1 arg2 harg2 arg3 harg3 arg4 harg4 arg5 harg5 arg6 harg6 arg7 harg7 x0 x1 x2 x3 x4).1, y ∈ pc.1.set :=
  View.cover_of_tiledL (kernelRun0 (F := F) c i arg1 harg1 arg2 harg2 arg3 harg3 arg4 harg4 arg5 harg5 arg6 harg6 arg7 harg7 x0 x1 x2 x3 x4).1 S128x768.size (by sl_kernel_rfl) y

/-- What the body leaves in the output block: its stored pieces read back. -/
def out0_5 (c : Dev nD) (i : grid0.Coords) (arg1 : Memref sig .tc .vmem S128x14592 .f32) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x14592 .bf16) (harg4 : arg4.IsWhole) (arg5 : Memref sig .tc .vmem S1x14592 .f32) (harg5 : arg5.IsWhole) (arg6 : Memref sig .tc .vmem S128x768 .f32) (harg6 : arg6.IsWhole) (arg7 : Memref sig .tc .vmem S128x14592 .f32) (harg7 : arg7.IsWhole)
    (x0 : Vec F S128x14592 .f32) (x1 : Vec F S768x384 .bf16) (x2 : Vec F S1x384 .f32) (x3 : Vec F S384x14592 .bf16) (x4 : Vec F S1x14592 .f32) : Vec F S128x768 .f32 :=
  VO0_5.read (Elt F) (VO0_5.writes (Elt F) VO0_5.junk (kernelRun0 (F := F) c i arg1 harg1 arg2 harg2 arg3 harg3 arg4 harg4 arg5 harg5 arg6 harg6 arg7 harg7 x0 x1 x2 x3 x4).1)

end Cert.Kernel.Frm

end
-- ==== Proof.KbFrame.lean ====
/-
  The kernel program's frame: the proof data of its one pipeline (every input window's staging
  buffer holds that window's block at each of the 64 grid points, the output window's holds what
  the body stored there, the score scratch and the generator register are the pipeline's own
  and pass through), the body's obligation at a generic point from the body's run, and the run
  of the whole program around the region. The arguments end unchanged because no host operation
  writes an argument and the pipeline writes back only its output window.
-/
import proofs.«142875_j90099823936041_2_alg».proof.Proof.KbHost
import proofs.«142875_j90099823936041_2_alg».proof.Proof.KbOut

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's own resources: the score scratch, whole, at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point: the inputs' buffers hold their blocks, so the body's run applies; the
    scratch is lent from the pipeline's own resources and handed back at whatever it ends with. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold out0_5
  iintro ⟨⟨HS, Hg⟩, Ho, ⟨%d0, H0⟩, ⟨%d1, H1⟩, ⟨%d2, H2⟩, ⟨%d3, H3⟩, ⟨%d4, H4⟩, ⟨%d5, H5⟩⟩
  iapply ((kernelRun0 (F := F) c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; every final state has each array of the
    pipeline at what the proof data says and every other unscoped buffer as the host operations
    after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- The frame claim at any float instance: the program runs to the end and its fifteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frm

end
-- ==== Proof.KiDefs.lean ====
/-
  The kernel program's run, named: the buffer contents each core sees when the one region is
  entered (the launch memory after the seven host operations before it), a window's block at a
  grid point read off those contents, the staging buffers the body is handed at a point, and
  the stretches of host operations after the region.
-/
import proofs.«142875_j90099823936041_2_alg».proof.Proof.Gen.KernelIdeal.Launch
import proofs.«142875_j90099823936041_2_alg».proof.Proof.Gen.KernelIdeal.Skeleton
import proofs.«142875_j90099823936041_2_alg».proof.Proof.Gen.KernelIdeal.Points
import Idealize.ShloMosaic.Lib.Pipeline.FrameBody
import Idealize.ShloMosaic.Lib.Pipeline.FrameSuffix

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the region, in order. -/
abbrev opss : List (List (HloOp τ sig (Elt F))) :=
  [hostOps1, hostOps1_1, hostOps1_2, hostOps1_3, hostOps1_4, hostOps1_5, hostOps1_6, hostOps1_7, hostOps1_8]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point `t`, as the pipeline passes it, and its wholeness. -/
abbrev ms0_0 (t : Fin cfg0.N) : Memref sig .tc .vmem S128x14592 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S384x14592 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x14592 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x768 .f32 := win0_5.stage (cfg0.slots t 5)
abbrev hs0_5 (t : Fin cfg0.N) : (ms0_5 t).IsWhole := hstage0_5 ((cfg0.slots t 5).cast nbuf0_5)
/-- The score scratch: a whole scoped buffer of the kernel's own, passed beside the windows. -/
abbrev scM0_0 : Memref sig .tc .vmem S128x14592 .f32 := Memref.whole cc0_scratch0
/-- One staging buffer of the output window, through which its contents are stated. -/
abbrev VO0_5 : View sig .tc .vmem S128x768 .f32 := (Memref.whole cc0_stg5_0 : Memref sig .tc .vmem S128x768 .f32).view

end Cert.KernelIdeal.Frm

end
-- ==== Proof.KiHost.lean ====
/-
  The host side of the kernel program's run: the host operations before the one region and the
  nine stretches of host operations after it.

  Every host operation writes exactly one buffer, its own result, and no result buffer is an
  argument of the program or an array a window of the region stages. So the region finds each
  argument as launched, the operations after the region leave the arguments and the windows'
  arrays alone, and the run's final contents at the fifteen arguments are the launch contents:
  argument 0 is the input array of window 0, never written back; the other fourteen bypass the
  region. Each input window's staging buffer holds its block at every grid point, fetched there
  or not.
-/
import proofs.«142875_j90099823936041_2_alg».proof.Proof.KiDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-! ## The program around the region -/

/-- The program is the host operations before the region, the region, and the nine stretches after
    it: it reduces to the region continued by the later stretches, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [hostOps0] opss (by simp only [List.Forall]; exact hostOps0_sub)
    (by simp only [List.Forall]; exact hostOps0_fresh) main_chain

/-! ## What the operations write -/

/-- `W` lists, in order, the one buffer each operation of `ops` writes. -/
abbrev Writes (ops : List (HloOp τ sig (Elt F))) (W : List (Ref sig .tc)) : Prop :=
  List.Forall₂ (fun op y => op.writes = {Proc.devRef (τ := τ) .tc y}) ops W

/-- A buffer outside the list of written buffers is written by no operation. -/
theorem not_mem_writes {ops : List (HloOp τ sig (Elt F))} {W : List (Ref sig .tc)} (hW : Writes ops W)
    {r : Ref sig .tc} (hr : r ∉ W) : ∀ op ∈ ops, Proc.devRef (τ := τ) .tc r ∉ op.writes := by
  induction hW with
  | nil => intro op h; cases h
  | cons h _ ih =>
    intro op hop
    rcases List.mem_cons.mp hop with rfl | hop
    · rw [h, Finset.mem_singleton]
      exact StableHlo.devRef_ne_of_ne (fun e => hr (e ▸ List.mem_cons_self))
    · exact ih (fun h' => hr (List.mem_cons_of_mem _ h')) op hop

/-- The same over several stretches of operations. -/
theorem not_mem_writes_lists {opss : List (List (HloOp τ sig (Elt F)))} {Wss : List (List (Ref sig .tc))}
    (h : List.Forall₂ Writes opss Wss) {r : Ref sig .tc} (hr : ∀ W ∈ Wss, r ∉ W) :
    ∀ ops ∈ opss, ∀ op ∈ ops, Proc.devRef (τ := τ) .tc r ∉ op.writes := by
  induction h with
  | nil => intro ops h; cases h
  | cons h _ ih =>
    intro ops hops
    rcases List.mem_cons.mp hops with rfl | hops
    · exact not_mem_writes h (hr _ List.mem_cons_self)
    · exact ih (fun W hW => hr W (List.mem_cons_of_mem _ hW)) ops hops

/-- The result buffers of the operations before the region, in order. -/
abbrev wr0 : List (Ref sig .tc) := [main_v0, main_v1, main_v2, main_v3, main_v4, main_v5, main_v6]
/-- The result buffers of `hostOps1`, in order. -/
abbrev wr1 : List (Ref sig .tc) := [main_v8, main_v9, main_v10, main_v11, main_v12]
/-- The result buffers of `hostOps1_1`, in order. -/
abbrev wr1_1 : List (Ref sig .tc) := [main_call0_cst, main_call0_v0, main_v13]
/-- The result buffers of `hostOps1_2`, in order. -/
abbrev wr1_2 : List (Ref sig .tc) := [main_cst, main_v14, main_cst_0, main_v15, main_v16, main_c]
/-- The result buffers of `hostOps1_3`, in order. -/
abbrev wr1_3 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v17]
/-- The result buffers of `hostOps1_4`, in order. -/
abbrev wr1_4 : List (Ref sig .tc) := [main_v18, main_v19, main_v20, main_v21, main_v22, main_v23, main_cst_1, main_v24, main_v25, main_v26, main_v27, main_v28, main_v29, main_v30, main_v31, main_v32, main_v33, main_v34, main_v35, main_v36, main_v37]
/-- The result buffers of `hostOps1_5`, in order. -/
abbrev wr1_5 : List (Ref sig .tc) := [main_call2_cst, main_call2_v0, main_v38]
/-- The result buffers of `hostOps1_6`, in order. -/
abbrev wr1_6 : List (Ref sig .tc) := [main_cst_2, main_v39, main_cst_3, main_v40, main_v41, main_c_4]
/-- The result buffers of `hostOps1_7`, in order. -/
abbrev wr1_7 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v42]
/-- The result buffers of `hostOps1_8`, in order. -/
abbrev wr1_8 : List (Ref sig .tc) := [main_v43, main_v44, main_v45, main_v46, main_v47, main_v48, main_cst_5, main_v49, main_v50, main_v51, main_v52, main_v53, main_v54, main_v55, main_v56, main_v57, main_v58, main_v59, main_v60, main_v61, main_v62]
/-- The result buffers of the nine stretches after the region. -/
abbrev wrss : List (List (Ref sig .tc)) := [wr1, wr1_1, wr1_2, wr1_3, wr1_4, wr1_5, wr1_6, wr1_7, wr1_8]

theorem hostOps0_wr : Writes (hostOps0 (F := F)) wr0 := .cons rfl (.cons rfl (.cons rfl (.cons rfl (.cons rfl (.cons rfl (.cons rfl (.nil)))))))
theorem hostOps1_wr : Writes (hostOps1 (F := F)) wr1 := .cons rfl (.cons rfl (.cons rfl (.cons rfl (.cons rfl (.nil)))))
theorem hostOps1_1_wr : Writes (hostOps1_1 (F := F)) wr1_1 := .cons rfl (.cons rfl (.cons rfl (.nil)))
theorem hostOps1_2_wr : Writes (hostOps1_2 (F := F)) wr1_2 := .cons rfl (.cons rfl (.cons rfl (.cons rfl (.cons rfl (.cons rfl (.nil))))))
theorem hostOps1_3_wr : Writes (hostOps1_3 (F := F)) wr1_3 := .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
theorem hostOps1_4_wr : Writes (hostOps1_4 (F := F)) wr1_4 := .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))
theorem hostOps1_5_wr : Writes (hostOps1_5 (F := F)) wr1_5 := .cons rfl (.cons rfl (.cons rfl (.nil)))
theorem hostOps1_6_wr : Writes (hostOps1_6 (F := F)) wr1_6 := .cons rfl (.cons rfl (.cons rfl (.cons rfl (.cons rfl (.cons rfl (.nil))))))
theorem hostOps1_7_wr : Writes (hostOps1_7 (F := F)) wr1_7 := .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
theorem hostOps1_8_wr : Writes (hostOps1_8 (F := F)) wr1_8 := .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))
theorem opss_wr : List.Forall₂ Writes (opss (F := F)) wrss :=
  .cons hostOps1_wr (.cons hostOps1_1_wr (.cons hostOps1_2_wr (.cons hostOps1_3_wr (.cons hostOps1_4_wr (.cons hostOps1_5_wr (.cons hostOps1_6_wr (.cons hostOps1_7_wr (.cons hostOps1_8_wr (.nil)))))))))

/-! ## The stretches after the region -/

/-- They touch the pipeline's arrays and the bypassing buffers only. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (opss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- No array of the pipeline is a result buffer of theirs. -/
theorem arr_not_written : ∀ w : Fin 6, ∀ W ∈ wrss, Pipeline.arrRef spec0 w ∉ W := by decide
/-- And they write no array of the pipeline. -/
theorem sfx_keeps : ∀ ops ∈ (opss : List (List (HloOp τ sig (Elt F)))), ∀ op ∈ ops,
    ∀ w, Proc.devRef .tc (Pipeline.arrRef spec0 w) ∉ op.writes :=
  fun ops hops op hop w => not_mem_writes_lists opss_wr (arr_not_written w) ops hops op hop

/-! ## The arguments at the region's entry and at the end -/

/-- A buffer no operation before the region writes is found by the region as launched. -/
theorem V_of (c : Dev nD) (b : Ref sig .tc) (h0 : b ∉ wr0) : V m c b = m ((c : Thread nD τ).loc b) :=
  StableHlo.after_of_forall_not_mem (b := Proc.devRef .tc b) _ _ (fun op hop =>
    not_mem_writes hostOps0_wr h0 op (by simpa only [List.flatten_cons, List.flatten_nil, List.append_nil] using hop))

/-- A buffer that is no array of the pipeline and that no host operation writes ends as launched. -/
theorem W_of (dats : (p : Fin 1) → (c : Dev nD) → Dat τ (Elt F) Unit ℕ (UR sig nD τ) ℕ (cfgs p) c) (c : Dev nD) (b : Ref sig .tc)
    (h0 : b ∉ wr0) (h1 : ∀ W ∈ wrss, b ∉ W) (ha : ∀ w, Pipeline.arrRef spec0 w ≠ b) :
    Pipeline.afterTail₀ cfgs dats 0 (V0 m) opss c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact not_mem_writes_lists opss_wr h1 ops hops op hop'),
    Pipeline.withArrays_of_ne _ c (V0 m c) _ b ha]
  exact V_of m c b h0

theorem V_main_arg0 (c : Dev nD) : V m c main_arg0 = m ((c : Thread nD τ).loc main_arg0) :=
  V_of m c main_arg0 (by decide)
theorem V_main_arg1 (c : Dev nD) : V m c main_arg1 = m ((c : Thread nD τ).loc main_arg1) :=
  V_of m c main_arg1 (by decide)
theorem V_main_arg2 (c : Dev nD) : V m c main_arg2 = m ((c : Thread nD τ).loc main_arg2) :=
  V_of m c main_arg2 (by decide)
theorem V_main_arg3 (c : Dev nD) : V m c main_arg3 = m ((c : Thread nD τ).loc main_arg3) :=
  V_of m c main_arg3 (by decide)
theorem V_main_arg4 (c : Dev nD) : V m c main_arg4 = m ((c : Thread nD τ).loc main_arg4) :=
  V_of m c main_arg4 (by decide)
theorem V_main_arg5 (c : Dev nD) : V m c main_arg5 = m ((c : Thread nD τ).loc main_arg5) :=
  V_of m c main_arg5 (by decide)
theorem V_main_arg6 (c : Dev nD) : V m c main_arg6 = m ((c : Thread nD τ).loc main_arg6) :=
  V_of m c main_arg6 (by decide)
theorem V_main_arg7 (c : Dev nD) : V m c main_arg7 = m ((c : Thread nD τ).loc main_arg7) :=
  V_of m c main_arg7 (by decide)
theorem V_main_arg8 (c : Dev nD) : V m c main_arg8 = m ((c : Thread nD τ).loc main_arg8) :=
  V_of m c main_arg8 (by decide)
theorem V_main_arg9 (c : Dev nD) : V m c main_arg9 = m ((c : Thread nD τ).loc main_arg9) :=
  V_of m c main_arg9 (by decide)
theorem V_main_arg10 (c : Dev nD) : V m c main_arg10 = m ((c : Thread nD τ).loc main_arg10) :=
  V_of m c main_arg10 (by decide)
theorem V_main_arg11 (c : Dev nD) : V m c main_arg11 = m ((c : Thread nD τ).loc main_arg11) :=
  V_of m c main_arg11 (by decide)
theorem V_main_arg12 (c : Dev nD) : V m c main_arg12 = m ((c : Thread nD τ).loc main_arg12) :=
  V_of m c main_arg12 (by decide)
theorem V_main_arg13 (c : Dev nD) : V m c main_arg13 = m ((c : Thread nD τ).loc main_arg13) :=
  V_of m c main_arg13 (by decide)
theorem V_main_arg14 (c : Dev nD) : V m c main_arg14 = m ((c : Thread nD τ).loc main_arg14) :=
  V_of m c main_arg14 (by decide)

theorem W_main_arg1 (dats : (p : Fin 1) → (c : Dev nD) → Dat τ (Elt F) Unit ℕ (UR sig nD τ) ℕ (cfgs p) c) (c : Dev nD) :
    Pipeline.afterTail₀ cfgs dats 0 (V0 m) opss c main_arg1 = m ((c : Thread nD τ).loc main_arg1) :=
  W_of m dats c main_arg1 (by decide) (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) opss c main_arg2 = m ((c : Thread nD τ).loc main_arg2) :=
  W_of m dats c main_arg2 (by decide) (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) opss c main_arg3 = m ((c : Thread nD τ).loc main_arg3) :=
  W_of m dats c main_arg3 (by decide) (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) opss c main_arg4 = m ((c : Thread nD τ).loc main_arg4) :=
  W_of m dats c main_arg4 (by decide) (by decide) (by decide)
theorem W_main_arg5 (dats : (p : Fin 1) → (c : Dev nD) → Dat τ (Elt F) Unit ℕ (UR sig nD τ) ℕ (cfgs p) c) (c : Dev nD) :
    Pipeline.afterTail₀ cfgs dats 0 (V0 m) opss c main_arg5 = m ((c : Thread nD τ).loc main_arg5) :=
  W_of m dats c main_arg5 (by decide) (by decide) (by decide)
theorem W_main_arg6 (dats : (p : Fin 1) → (c : Dev nD) → Dat τ (Elt F) Unit ℕ (UR sig nD τ) ℕ (cfgs p) c) (c : Dev nD) :
    Pipeline.afterTail₀ cfgs dats 0 (V0 m) opss c main_arg6 = m ((c : Thread nD τ).loc main_arg6) :=
  W_of m dats c main_arg6 (by decide) (by decide) (by decide)
theorem W_main_arg7 (dats : (p : Fin 1) → (c : Dev nD) → Dat τ (Elt F) Unit ℕ (UR sig nD τ) ℕ (cfgs p) c) (c : Dev nD) :
    Pipeline.afterTail₀ cfgs dats 0 (V0 m) opss c main_arg7 = m ((c : Thread nD τ).loc main_arg7) :=
  W_of m dats c main_arg7 (by decide) (by decide) (by decide)
theorem W_main_arg8 (dats : (p : Fin 1) → (c : Dev nD) → Dat τ (Elt F) Unit ℕ (UR sig nD τ) ℕ (cfgs p) c) (c : Dev nD) :
    Pipeline.afterTail₀ cfgs dats 0 (V0 m) opss c main_arg8 = m ((c : Thread nD τ).loc main_arg8) :=
  W_of m dats c main_arg8 (by decide) (by decide) (by decide)
theorem W_main_arg9 (dats : (p : Fin 1) → (c : Dev nD) → Dat τ (Elt F) Unit ℕ (UR sig nD τ) ℕ (cfgs p) c) (c : Dev nD) :
    Pipeline.afterTail₀ cfgs dats 0 (V0 m) opss c main_arg9 = m ((c : Thread nD τ).loc main_arg9) :=
  W_of m dats c main_arg9 (by decide) (by decide) (by decide)
theorem W_main_arg10 (dats : (p : Fin 1) → (c : Dev nD) → Dat τ (Elt F) Unit ℕ (UR sig nD τ) ℕ (cfgs p) c) (c : Dev nD) :
    Pipeline.afterTail₀ cfgs dats 0 (V0 m) opss c main_arg10 = m ((c : Thread nD τ).loc main_arg10) :=
  W_of m dats c main_arg10 (by decide) (by decide) (by decide)
theorem W_main_arg11 (dats : (p : Fin 1) → (c : Dev nD) → Dat τ (Elt F) Unit ℕ (UR sig nD τ) ℕ (cfgs p) c) (c : Dev nD) :
    Pipeline.afterTail₀ cfgs dats 0 (V0 m) opss c main_arg11 = m ((c : Thread nD τ).loc main_arg11) :=
  W_of m dats c main_arg11 (by decide) (by decide) (by decide)
theorem W_main_arg12 (dats : (p : Fin 1) → (c : Dev nD) → Dat τ (Elt F) Unit ℕ (UR sig nD τ) ℕ (cfgs p) c) (c : Dev nD) :
    Pipeline.afterTail₀ cfgs dats 0 (V0 m) opss c main_arg12 = m ((c : Thread nD τ).loc main_arg12) :=
  W_of m dats c main_arg12 (by decide) (by decide) (by decide)
theorem W_main_arg13 (dats : (p : Fin 1) → (c : Dev nD) → Dat τ (Elt F) Unit ℕ (UR sig nD τ) ℕ (cfgs p) c) (c : Dev nD) :
    Pipeline.afterTail₀ cfgs dats 0 (V0 m) opss c main_arg13 = m ((c : Thread nD τ).loc main_arg13) :=
  W_of m dats c main_arg13 (by decide) (by decide) (by decide)
theorem W_main_arg14 (dats : (p : Fin 1) → (c : Dev nD) → Dat τ (Elt F) Unit ℕ (UR sig nD τ) ℕ (cfgs p) c) (c : Dev nD) :
    Pipeline.afterTail₀ cfgs dats 0 (V0 m) opss c main_arg14 = m ((c : Thread nD τ).loc main_arg14) :=
  W_of m dats c main_arg14 (by decide) (by decide) (by decide)

/-- Argument 0 is the array of input window 0: the region never writes it back and no later
    operation writes it, so for proof data whose array is the region-entry contents it ends as
    launched. -/
theorem W_main_arg0 (dats : (p : Fin 1) → (c : Dev nD) → Dat τ (Elt F) Unit ℕ (UR sig nD τ) ℕ (cfgs p) c) (c : Dev nD)
    (hA : (dats 0 c).A 0 = V m c (Pipeline.arrRef spec0 0)) :
    Pipeline.afterTail₀ cfgs dats 0 (V0 m) opss c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact not_mem_writes_lists opss_wr (by decide) ops hops op hop')]
  exact (Pipeline.withArrays_arr (cfgs 0).spec launch0.win.arr_inj c (V0 m c) _ 0).trans
    (((dats 0 c).arrAt_in 0 rfl _).trans (hA.trans (V_main_arg0 m c)))

/-! ## The input windows' blocks -/

/-- Input window 0's current staging buffer holds its block at every point, fetched there or not, for
    any proof data whose array is the region-entry contents and whose body leaves the block in place:
    where the pipeline does not fetch, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for
    any proof data whose array is the region-entry contents and whose body leaves the block in place:
    where the pipeline does not fetch, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for
    any proof data whose array is the region-entry contents and whose body leaves the block in place:
    where the pipeline does not fetch, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for
    any proof data whose array is the region-entry contents and whose body leaves the block in place:
    where the pipeline does not fetch, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for
    any proof data whose array is the region-entry contents and whose body leaves the block in place:
    where the pipeline does not fetch, the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run to the library's frame post read at the argument arrays — argument 0 an input
    window's array, the other fourteen bypassing the region — the fifteen arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) opss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c)⟩) h

end Cert.KernelIdeal.Frm

end
-- ==== Proof.KiBody.lean ====
/-
  The kernel body at one grid point, run once on whole staging buffers.

  The five input blocks are only read; the score scratch is overwritten whole before anything
  is read from it; the output block is stored once, whole. The three counted loops (the sum of
  the 19 branch slices, the running maximum over branches 1..18, the accumulation of the
  softmax denominator and the weighted sum) are passed by their invariants. What the output
  block and the scratch end with is recorded as the list of stored pieces that the run finds.
-/
import proofs.«142875_j90099823936041_2_alg».proof.Proof.Gen.KernelIdeal.Launch
import proofs.«142875_j90099823936041_2_alg».proof.Proof.Gen.KernelIdeal.Skeleton
import proofs.«142875_j90099823936041_2_alg».proof.Proof.Gen.KernelIdeal.Points
import proofs.«142875_j90099823936041_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body stores into the output block (`.1`) and into the score scratch (`.2.1`),
    last first, with the proof that on whole buffers — the inputs at their contents, the output
    and the scratch at anything — the body runs to the continuation holding the inputs as they
    were and the output and the scratch with those pieces written. -/
noncomputable def kernelRun0 (c : Dev nD) (i : grid0.Coords) (arg1 : Memref sig .tc .vmem S128x14592 .f32) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x14592 .bf16) (harg4 : arg4.IsWhole) (arg5 : Memref sig .tc .vmem S1x14592 .f32) (harg5 : arg5.IsWhole) (arg6 : Memref sig .tc .vmem S128x768 .f32) (harg6 : arg6.IsWhole) (arg7 : Memref sig .tc .vmem S128x14592 .f32) (harg7 : arg7.IsWhole)
    (x0 : Vec F S128x14592 .f32) (x1 : Vec F S768x384 .bf16) (x2 : Vec F S1x384 .f32) (x3 : Vec F S384x14592 .bf16) (x4 : Vec F S1x14592 .f32) :
    Σ' (L5 : List (View.Piece (Elt F) S128x768 .f32)), { LS : List (View.Piece (Elt F) S128x14592 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__sk_attention_kernel i arg1 harg1 arg2 harg2 arg3 harg3 arg4 harg4 arg5 harg5 arg6 harg6 arg7 harg7) K } := by
  refine ⟨?_, ?_, fun E K => ?run⟩
  case run =>
    simp only [cc0__sk_attention_kernel_eq_skeleton]; unfold cc0__sk_attention_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, HS⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Frm

end
-- ==== Proof.KiOut.lean ====
/-
  What the body leaves in the output block at a grid point: the one piece it stores there, whole,
  read back; that piece covers the block.
-/
import proofs.«142875_j90099823936041_2_alg».proof.Proof.KiDefs
import proofs.«142875_j90099823936041_2_alg».proof.Proof.KiBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.Sem

variable {F : FTy → Type} [FloatOps F]

/-- The body's one store into the output block covers it. -/
theorem cover0_5 (c : Dev nD) (i : grid0.Coords) (arg1 : Memref sig .tc .vmem S128x14592 .f32) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x14592 .bf16) (harg4 : arg4.IsWhole) (arg5 : Memref sig .tc .vmem S1x14592 .f32) (harg5 : arg5.IsWhole) (arg6 : Memref sig .tc .vmem S128x768 .f32) (harg6 : arg6.IsWhole) (arg7 : Memref sig .tc .vmem S128x14592 .f32) (harg7 : arg7.IsWhole)
    (x0 : Vec F S128x14592 .f32) (x1 : Vec F S768x384 .bf16) (x2 : Vec F S1x384 .f32) (x3 : Vec F S384x14592 .bf16) (x4 : Vec F S1x14592 .f32) (y : S128x768.Idx) :
    ∃ pc ∈ (kernelRun0 (F := F) c i arg1 harg1 arg2 harg2 arg3 harg3 arg4 harg4 arg5 harg5 arg6 harg6 arg7 harg7 x0 x1 x2 x3 x4).1, y ∈ pc.1.set :=
  View.cover_of_tiledL (kernelRun0 (F := F) c i arg1 harg1 arg2 harg2 arg3 harg3 arg4 harg4 arg5 harg5 arg6 harg6 arg7 harg7 x0 x1 x2 x3 x4).1 S128x768.size (by sl_kernel_rfl) y

/-- What the body leaves in the output block: its stored pieces read back. -/
def out0_5 (c : Dev nD) (i : grid0.Coords) (arg1 : Memref sig .tc .vmem S128x14592 .f32) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x14592 .bf16) (harg4 : arg4.IsWhole) (arg5 : Memref sig .tc .vmem S1x14592 .f32) (harg5 : arg5.IsWhole) (arg6 : Memref sig .tc .vmem S128x768 .f32) (harg6 : arg6.IsWhole) (arg7 : Memref sig .tc .vmem S128x14592 .f32) (harg7 : arg7.IsWhole)
    (x0 : Vec F S128x14592 .f32) (x1 : Vec F S768x384 .bf16) (x2 : Vec F S1x384 .f32) (x3 : Vec F S384x14592 .bf16) (x4 : Vec F S1x14592 .f32) : Vec F S128x768 .f32 :=
  VO0_5.read (Elt F) (VO0_5.writes (Elt F) VO0_5.junk (kernelRun0 (F := F) c i arg1 harg1 arg2 harg2 arg3 harg3 arg4 harg4 arg5 harg5 arg6 harg6 arg7 harg7 x0 x1 x2 x3 x4).1)

end Cert.KernelIdeal.Frm

end
-- ==== Proof.KiFrame.lean ====
/-
  The kernel program's frame: the proof data of its one pipeline (every input window's staging
  buffer holds that window's block at each of the 64 grid points, the output window's holds what
  the body stored there, the score scratch and the generator register are the pipeline's own
  and pass through), the body's obligation at a generic point from the body's run, and the run
  of the whole program around the region. The arguments end unchanged because no host operation
  writes an argument and the pipeline writes back only its output window.
-/
import proofs.«142875_j90099823936041_2_alg».proof.Proof.KiHost
import proofs.«142875_j90099823936041_2_alg».proof.Proof.KiOut

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's own resources: the score scratch, whole, at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point: the inputs' buffers hold their blocks, so the body's run applies; the
    scratch is lent from the pipeline's own resources and handed back at whatever it ends with. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold out0_5
  iintro ⟨⟨HS, Hg⟩, Ho, ⟨%d0, H0⟩, ⟨%d1, H1⟩, ⟨%d2, H2⟩, ⟨%d3, H3⟩, ⟨%d4, H4⟩, ⟨%d5, H5⟩⟩
  iapply ((kernelRun0 (F := F) c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; every final state has each array of the
    pipeline at what the proof data says and every other unscoped buffer as the host operations
    after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- The frame claim at any float instance: the program runs to the end and its fifteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frm

end
-- ==== Proof.SkTail.lean ====
/-
  The classifier both programs end with, as one function of the attended feature and the ten
  classifier parameters: a linear layer 768 → 256 with ReLU, batch normalisation over the 8192
  rows (batch mean, biased batch variance, scale and shift), a linear layer 256 → 128 with ReLU,
  batch normalisation again, and a last linear layer 128 → 150. It is never opened: the two
  programs apply it to features that are proved equal.
-/
import proofs.«142875_j90099823936041_2_alg».proof.KernelIdeal
import proofs.«142875_j90099823936041_2_alg».proof.Proof.Gen.KernelIdeal

noncomputable section

namespace Cert.SkTail

open Cert.KernelIdeal Cert.KernelIdeal.Gen Idealize.ShloMosaic

variable {F : FTy → Type} [FloatOps F]

/-- The first linear layer, 768 → 256, with its bias and ReLU. -/
def lin1 (v : FVec F S8192x768 .f32) (w : FVec F S256x768 .f32) (b : FVec F S256 .f32) : FVec F S8192x256 .f32 :=
  maximumf (addf (Host.dotGeneral dot_S8192x768_S768x256_S8192x256_1_0_0_1_n_n none v (transpose S768x256 [1, 0] w transposes_S256x768_S768x256_1_0)) (broadcastInDim S8192x256 ![0, 1] bcast_S1x256_S8192x256_0_1 (broadcastInDim S1x256 ![1] bcast_S256_S1x256_1 b)))
    (broadcastInDim S8192x256 ![] bcast_S_S8192x256 (constant S_ .f32 0x00000000#32))

/-- The second linear layer, 256 → 128, with its bias and ReLU. -/
def lin2 (v : FVec F S8192x256 .f32) (w : FVec F S128x256 .f32) (b : FVec F S128 .f32) : FVec F S8192x128 .f32 :=
  maximumf (addf (Host.dotGeneral dot_S8192x256_S256x128_S8192x128_1_0_0_1_n_n none v (transpose S256x128 [1, 0] w transposes_S128x256_S256x128_1_0)) (broadcastInDim S8192x128 ![0, 1] bcast_S1x128_S8192x128_0_1 (broadcastInDim S1x128 ![1] bcast_S128_S1x128_1 b)))
    (broadcastInDim S8192x128 ![] bcast_S_S8192x128 (constant S_ .f32 0x00000000#32))

/-- The last linear layer, 128 → 150, with its bias. -/
def lin3 (v : FVec F S8192x128 .f32) (w : FVec F S150x128 .f32) (b : FVec F S150 .f32) : FVec F S8192x150 .f32 :=
  addf (Host.dotGeneral dot_S8192x128_S128x150_S8192x150_1_0_0_1_n_n none v (transpose S128x150 [1, 0] w transposes_S150x128_S128x150_1_0)) (broadcastInDim S8192x150 ![0, 1] bcast_S1x150_S8192x150_0_1 (broadcastInDim S1x150 ![1] bcast_S150_S1x150_1 b))

/-- Batch normalisation of the 256 channels over the 8192 rows: the batch mean, the biased batch
    variance (the mean of the squared deviations, guarded by the sign of the count), then
    `gamma · (h − mean) · rsqrt(var + eps) + beta`. -/
def bn256 (h : FVec F S8192x256 .f32) (g be : FVec F S256 .f32) : FVec F S8192x256 .f32 :=
  let mean : FVec F S256 .f32 := Host.divf (Host.reduceAdd h (constant S_ .f32 0x00000000#32) reducesTo_S8192x256_S256_d0 h_S_) (broadcastInDim S256 ![] bcast_S_S256 (constant S_ .f32 0x46000000#32))
  let m1 : FVec F S1x256 .f32 := Host.divf (broadcastInDim S1x256 ![1] bcast_S256_S1x256_1 (Host.reduceAdd h (constant S_ .f32 0x00000000#32) reducesTo_S8192x256_S256_d0 h_S_)) (broadcastInDim S1x256 ![] bcast_S_S1x256 (constant S_ .f32 0x46000000#32))
  let dev : FVec F S8192x256 .f32 := subf h (broadcastInDim S8192x256 ![0, 1] bcast_S1x256_S8192x256_0_1 m1)
  let cnt : FVec F S_ .f32 := subf (constant S_ .f32 0x46000000#32) (sitofp .f32 (constantI S_ 32 0#32))
  let q : FVec F S256 .f32 := Host.divf (Host.reduceAdd (mulf dev dev) (constant S_ .f32 0x00000000#32) reducesTo_S8192x256_S256_d0 h_S_) (broadcastInDim S256 ![] bcast_S_S256 cnt)
  let var : FVec F S256 .f32 := select (broadcastInDim S256 ![] bcast_S_S256 (cmpf .ogt cnt (constant S_ .f32 0x00000000#32))) q (broadcastInDim S256 ![] bcast_S_S256 (id (constant S_ .f32 0x7FC00000#32)))
  let sc : FVec F S8192x256 .f32 := mulf (broadcastInDim S8192x256 ![0, 1] bcast_S1x256_S8192x256_0_1 (broadcastInDim S1x256 ![1] bcast_S256_S1x256_1 g)) (subf h (broadcastInDim S8192x256 ![0, 1] bcast_S1x256_S8192x256_0_1 (broadcastInDim S1x256 ![1] bcast_S256_S1x256_1 mean)))
  let rs : FVec F S256 .f32 := Host.rsqrt (addf var (broadcastInDim S256 ![] bcast_S_S256 (constant S_ .f32 0x3727C5AC#32)))
  addf (mulf sc (broadcastInDim S8192x256 ![0, 1] bcast_S1x256_S8192x256_0_1 (broadcastInDim S1x256 ![1] bcast_S256_S1x256_1 rs))) (broadcastInDim S8192x256 ![0, 1] bcast_S1x256_S8192x256_0_1 (broadcastInDim S1x256 ![1] bcast_S256_S1x256_1 be))

/-- Batch normalisation of the 128 channels over the 8192 rows: the batch mean, the biased batch
    variance (the mean of the squared deviations, guarded by the sign of the count), then
    `gamma · (h − mean) · rsqrt(var + eps) + beta`. -/
def bn128 (h : FVec F S8192x128 .f32) (g be : FVec F S128 .f32) : FVec F S8192x128 .f32 :=
  let mean : FVec F S128 .f32 := Host.divf (Host.reduceAdd h (constant S_ .f32 0x00000000#32) reducesTo_S8192x128_S128_d0 h_S_) (broadcastInDim S128 ![] bcast_S_S128 (constant S_ .f32 0x46000000#32))
  let m1 : FVec F S1x128 .f32 := Host.divf (broadcastInDim S1x128 ![1] bcast_S128_S1x128_1 (Host.reduceAdd h (constant S_ .f32 0x00000000#32) reducesTo_S8192x128_S128_d0 h_S_)) (broadcastInDim S1x128 ![] bcast_S_S1x128 (constant S_ .f32 0x46000000#32))
  let dev : FVec F S8192x128 .f32 := subf h (broadcastInDim S8192x128 ![0, 1] bcast_S1x128_S8192x128_0_1 m1)
  let cnt : FVec F S_ .f32 := subf (constant S_ .f32 0x46000000#32) (sitofp .f32 (constantI S_ 32 0#32))
  let q : FVec F S128 .f32 := Host.divf (Host.reduceAdd (mulf dev dev) (constant S_ .f32 0x00000000#32) reducesTo_S8192x128_S128_d0 h_S_) (broadcastInDim S128 ![] bcast_S_S128 cnt)
  let var : FVec F S128 .f32 := select (broadcastInDim S128 ![] bcast_S_S128 (cmpf .ogt cnt (constant S_ .f32 0x00000000#32))) q (broadcastInDim S128 ![] bcast_S_S128 (id (constant S_ .f32 0x7FC00000#32)))
  let sc : FVec F S8192x128 .f32 := mulf (broadcastInDim S8192x128 ![0, 1] bcast_S1x128_S8192x128_0_1 (broadcastInDim S1x128 ![1] bcast_S128_S1x128_1 g)) (subf h (broadcastInDim S8192x128 ![0, 1] bcast_S1x128_S8192x128_0_1 (broadcastInDim S1x128 ![1] bcast_S128_S1x128_1 mean)))
  let rs : FVec F S128 .f32 := Host.rsqrt (addf var (broadcastInDim S128 ![] bcast_S_S128 (constant S_ .f32 0x3727C5AC#32)))
  addf (mulf sc (broadcastInDim S8192x128 ![0, 1] bcast_S1x128_S8192x128_0_1 (broadcastInDim S1x128 ![1] bcast_S128_S1x128_1 rs))) (broadcastInDim S8192x128 ![0, 1] bcast_S1x128_S8192x128_0_1 (broadcastInDim S1x128 ![1] bcast_S128_S1x128_1 be))

/-- The classifier head: three linear layers, the first two followed by ReLU and batch normalisation. -/
def tail (v : FVec F S8192x768 .f32) (a5 : FVec F S256x768 .f32) (a6 a7 a8 : FVec F S256 .f32)
    (a9 : FVec F S128x256 .f32) (a10 a11 a12 : FVec F S128 .f32) (a13 : FVec F S150x128 .f32) (a14 : FVec F S150 .f32) :
    FVec F S8192x150 .f32 :=
  lin3 (bn128 (lin2 (bn256 (lin1 v a5 a6) a7 a8) a9 a10) a11 a12) a13 a14

end Cert.SkTail

end
-- ==== Proof.KiTail.lean ====
/-
  The program's result as the classifier head applied to the region's output array.

  The nine stretches of host operations after the region compute, buffer by buffer, exactly the
  nesting of the classifier head: the first linear layer with ReLU, batch normalisation, the second
  linear layer with ReLU, batch normalisation, the last linear layer. They read the output array of
  the region and the ten classifier parameters, which no host operation writes and which the region
  leaves alone; so the final contents of the result buffer are the head of the output array and of
  the parameters as launched. The head itself is compared by name, never opened.
-/
import proofs.«142875_j90099823936041_2_alg».proof.Proof.KiFrame
import proofs.«142875_j90099823936041_2_alg».proof.Proof.SkTail

set_option maxRecDepth 16384

noncomputable section

namespace Cert.KernelIdeal.Frm

open Cert.KernelIdeal Cert.KernelIdeal.Gen
open Idealize.ShloMosaic Idealize.ShloMosaic.TcCoe Idealize.ShloMosaic.Tactic
open Idealize.ShloMosaic.StableHlo
open Idealize.SL Idealize.SL.Sem
open Idealize.ShloMosaic.Pipeline (Dat Cfg Window BodyObligation cellOf)

variable {F : FTy → Type} [FloatOps F]

set_option maxHeartbeats 8000000 in
/-- From any contents, the nine stretches leave in the result buffer the classifier head of what
    the output array's buffer and the ten parameter buffers held. -/
theorem tail_of (W : Valuation τ sig (Elt F)) :
    StableHlo.after (opss (F := F)).flatten W (Proc.devRef .tc main_v62)
      = Cert.SkTail.tail (W (Proc.devRef .tc main_v7)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  simp only [opss, hostOps1, hostOps1_1, hostOps1_2, hostOps1_3, hostOps1_4, hostOps1_5, hostOps1_6, hostOps1_7, hostOps1_8,
    List.flatten_cons, List.flatten_nil, List.append_nil, List.cons_append, List.nil_append]
  after_results_simp
  rfl

variable (m : (ℓ : Loc nD τ sig) → Buf (Elt F) ℓ) (ρ : Dev nD → PrngReg)

/-- The result buffer at the end: the head of the output array as the region leaves it and of
    the parameters as launched. -/
theorem result_eq (c : Dev nD) : Pipeline.afterTail₀ cfgs (dats m) 0 (V0 m) opss c main_v62
    = Cert.SkTail.tail ((dats m 0 c).arrAt 5 cfg0.N) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h7 : Pipeline.withArrays (cfgs 0).spec c (V0 m c) (fun w => (dats m 0 c).arrAt w (cfgs 0).N) (Proc.devRef .tc main_v7)
      = (dats m 0 c).arrAt 5 cfg0.N :=
    Pipeline.withArrays_arr (cfgs 0).spec launch0.win.arr_inj c (V0 m c) _ 5
  have hb : ∀ (b : Ref sig .tc), b ∉ wr0 → (∀ w, Pipeline.arrRef spec0 w ≠ b) →
      Pipeline.withArrays (cfgs 0).spec c (V0 m c) (fun w => (dats m 0 c).arrAt w (cfgs 0).N) (Proc.devRef .tc b)
        = m ((c : Thread nD τ).loc b) :=
    fun b h0 ha => (Pipeline.withArrays_of_ne _ c (V0 m c) _ b ha).trans (V_of m c b h0)
  unfold Pipeline.afterTail₀
  rw [tail_of, h7, hb main_arg5 (by decide) (by decide),
    hb main_arg6 (by decide) (by decide),
    hb main_arg7 (by decide) (by decide),
    hb main_arg8 (by decide) (by decide),
    hb main_arg9 (by decide) (by decide),
    hb main_arg10 (by decide) (by decide),
    hb main_arg11 (by decide) (by decide),
    hb main_arg12 (by decide) (by decide),
    hb main_arg13 (by decide) (by decide),
    hb main_arg14 (by decide) (by decide)]

/-- The run restated: the result buffer ends at the classifier head of the region's output array,
    and the fifteen arguments end as launched. -/
theorem run_value : θ_run defs (onTc (τ := τ) (main (F := F))) ⟨m, fun _ => 0, ρ⟩ fun r => ∀ c : Dev nD,
      r.2.mem ((c.tc : Thread nD τ).loc main_v62)
        = Cert.SkTail.tail ((dats m 0 c).arrAt 5 cfg0.N) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).2 main_v62 (Pipeline.mem_restRefs_of main_v62 (by decide) (by decide))).trans (result_eq m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c)⟩) (run_main m ρ)

end Cert.KernelIdeal.Frm

end
-- ==== Proof.SkSpec.lean ====
/-
  The mathematics of selective-kernel attention over 19 branches, on the extended reals.

  For a batch row `b` and an output channel `o`, with the input row cut into 19 consecutive
  pieces of 768 entries, `xm b m o = x[b, 768·m + o]`:
    feaU b o    = ∑ₘ xm b m o                                  the branches summed
    feaZ b d    = ∑ₖ feaU b k · Wfc[d, k] + bfc[d]              the squeeze to 384 channels
    score b m o = ∑_d feaZ b d · Wbr[m, o, d] + bbr[m, o]       one score per branch and channel
    smax b o    = maxₘ score b m o
    pexp b m o  = exp (score b m o − smax b o)
    den b o     = ∑ₘ pexp b m o
  and the attended feature is the softmax-weighted sum of the branches, which can be formed in
  two orders:
    feaVK b o = (∑ₘ pexp b m o · xm b m o) / den b o             weight, sum, then divide once
    feaVR b o = ∑ₘ xm b m o · (pexp b m o / den b o)             normalise each weight, then sum.
  On finite inputs the two agree (distributivity of the division over the finite sum; the
  denominator is a positive real): that law is proved in SkLaw.lean.
-/
import Idealize.ShloMosaic.PureOps.Ideal
import Idealize.ShloMosaic.Lib.ValueIdx

noncomputable section

namespace Cert.SkSpec

open Idealize.ShloMosaic Idealize.ShloMosaic.ValueIdx

/-- Column `768·m + o` of a row of 14592 = 19·768 entries. -/
def col (m : Fin 19) (o : Fin 768) : Fin 14592 := ⟨768 * m.val + o.val, by have := m.isLt; have := o.isLt; omega⟩

variable (x : (⟨2, ![8192, 14592]⟩ : Shape).Idx → EReal) (wfc : (⟨2, ![384, 768]⟩ : Shape).Idx → EReal)
  (bfc : (⟨1, ![384]⟩ : Shape).Idx → EReal) (wbr : (⟨3, ![19, 768, 384]⟩ : Shape).Idx → EReal)
  (bbr : (⟨2, ![19, 768]⟩ : Shape).Idx → EReal)

/-- Branch `m` of row `b` at channel `o`. -/
def xm (b : Fin 8192) (m : Fin 19) (o : Fin 768) : EReal := x (ix2 b (col m o))

/-- The branches summed. -/
def feaU (b : Fin 8192) (o : Fin 768) : EReal := ∑ m : Fin 19, xm x b m o

/-- The squeeze: a linear map to 384 channels plus its bias. -/
def feaZ (b : Fin 8192) (d : Fin 384) : EReal := (∑ k : Fin 768, feaU x b k * wfc (ix2 d k)) + bfc (ix1 d)

/-- The score of branch `m` at channel `o`. -/
def score (b : Fin 8192) (m : Fin 19) (o : Fin 768) : EReal :=
  (∑ d : Fin 384, feaZ x wfc bfc b d * wbr (ix3 m o d)) + bbr (ix2 m o)

/-- The largest score over the branches. -/
def smax (b : Fin 8192) (o : Fin 768) : EReal := Finset.univ.sup fun m : Fin 19 => score x wfc bfc wbr bbr b m o

/-- The unnormalised softmax weight. -/
def pexp (b : Fin 8192) (m : Fin 19) (o : Fin 768) : EReal :=
  Ideal.exp (score x wfc bfc wbr bbr b m o - smax x wfc bfc wbr bbr b o)

/-- The softmax denominator. -/
def den (b : Fin 8192) (o : Fin 768) : EReal := ∑ m : Fin 19, pexp x wfc bfc wbr bbr b m o

/-- Weight, sum, then divide once. -/
def feaVK (b : Fin 8192) (o : Fin 768) : EReal :=
  Ideal.div (∑ m : Fin 19, pexp x wfc bfc wbr bbr b m o * xm x b m o) (den x wfc bfc wbr bbr b o)

/-- Normalise each weight, then sum. -/
def feaVR (b : Fin 8192) (o : Fin 768) : EReal :=
  ∑ m : Fin 19, xm x b m o * Ideal.div (pexp x wfc bfc wbr bbr b m o) (den x wfc bfc wbr bbr b o)

end Cert.SkSpec

end
-- ==== Proof.KiWindows.lean ====
/-
  What the region's five input windows hold, entry by entry, in terms of the program's arguments.

  Before the region the host transposes the squeeze weights (and rounds them to bf16, the identity
  on the extended reals), adds a unit row axis to the squeeze bias, moves the branch weights'
  channel axis first and flattens branch and output channel into one column axis of 19·768
  entries (column 768·m + o), and flattens the branch biases the same way. The input array itself
  is staged 128 rows at a time; the other four windows stage their whole arrays at every point.
-/
import proofs.«142875_j90099823936041_2_alg».proof.Proof.KiHost
import proofs.«142875_j90099823936041_2_alg».proof.Proof.SkSpec
import Idealize.ShloMosaic.Lib.ValueIdx
import Idealize.ShloMosaic.Lib.ValueLayout
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.ShloMosaic.StableHlo Idealize.ShloMosaic.ValueIdx
open Idealize.SL Idealize.SL.Sem
open Idealize.ShloMosaic.Pipeline (Dat Cfg Window BodyObligation cellOf)

variable (m : (ℓ : Loc nD τ sig) → Buf (Elt Ideal) ℓ)

/-! ## The arrays the host operations before the region write -/

/-- The squeeze weights as the region finds them: transposed, then rounded to bf16. -/
theorem v1_eq (c : Dev nD) : @Eq (S768x384.Idx → EReal) (V m c main_v1)
    (truncf (F := Ideal) .bf16 (transpose S768x384 [1, 0] (m ((c : Thread nD τ).loc main_arg1) : S384x768.Idx → Elt Ideal .f32) transposes_S384x768_S768x384_1_0) bitsLt_bf16_f32) := by
  show StableHlo.after hostOps0 (fun b => m (c, b)) (Proc.devRef .tc main_v1) = _
  after_results
  try rfl

theorem v1_apply (c : Dev nD) (k : Fin 768) (d : Fin 384) :
    V m c main_v1 (ix2 k d) = m ((c : Thread nD τ).loc main_arg1) (ix2 d k) := by
  rw [v1_eq]
  exact transpose_ix2_apply _ _ k d

/-- The squeeze bias with a unit row axis. -/
theorem v2_eq (c : Dev nD) : @Eq (S1x384.Idx → EReal) (V m c main_v2)
    (shapeCast S1x384 (m ((c : Thread nD τ).loc main_arg2) : S384.Idx → Elt Ideal .f32) shapeCasts_S384_S1x384) := by
  show StableHlo.after hostOps0 (fun b => m (c, b)) (Proc.devRef .tc main_v2) = _
  after_results
  try rfl

theorem v2_apply (c : Dev nD) (d : Fin 384) :
    V m c main_v2 (ix2 (0 : Fin 1) d) = m ((c : Thread nD τ).loc main_arg2) (ix1 d) := by
  rw [v2_eq]
  exact shapeCast_a_1a_apply _ _ 0 d

/-- The branch weights as the region finds them: the channel axis moved first, branch and output
    channel flattened into one column axis, rounded to bf16. -/
theorem v5_eq (c : Dev nD) : @Eq (S384x14592.Idx → EReal) (V m c main_v5)
    (truncf (F := Ideal) .bf16 (shapeCast S384x14592 (transpose S384x19x768 [2, 0, 1] (m ((c : Thread nD τ).loc main_arg3) : S19x768x384.Idx → Elt Ideal .f32) transposes_S19x768x384_S384x19x768_2_0_1) shapeCasts_S384x19x768_S384x14592) bitsLt_bf16_f32) := by
  show StableHlo.after hostOps0 (fun b => m (c, b)) (Proc.devRef .tc main_v5) = _
  after_results
  try rfl

theorem v5_apply (c : Dev nD) (d : Fin 384) (mm : Fin 19) (o : Fin 768) :
    V m c main_v5 (ix2 d (Cert.SkSpec.col mm o)) = m ((c : Thread nD τ).loc main_arg3) (ix3 mm o d) := by
  rw [v5_eq]
  show shapeCast S384x14592 (transpose S384x19x768 [2, 0, 1] (m ((c : Thread nD τ).loc main_arg3) : S19x768x384.Idx → Elt Ideal .f32) transposes_S19x768x384_S384x19x768_2_0_1) shapeCasts_S384x19x768_S384x14592 (ix2 d (Cert.SkSpec.col mm o)) = _
  refine (shapeCast_apply _ _ _ (ix3 d mm o) ?_).trans ?_
  · rw [Shape.rowMajor_val_three, Shape.rowMajor_val_two]
    show (d.val * 19 + mm.val) * 768 + o.val = d.val * 14592 + (768 * mm.val + o.val)
    omega
  · exact transpose_apply _ _ _ _ (ix3 mm o d) fun b => match b with | ⟨0, _⟩ => rfl | ⟨1, _⟩ => rfl | ⟨2, _⟩ => rfl

/-- The branch biases flattened into one row of 19·768 columns. -/
theorem v6_eq (c : Dev nD) : @Eq (S1x14592.Idx → EReal) (V m c main_v6)
    (shapeCast S1x14592 (m ((c : Thread nD τ).loc main_arg4) : S19x768.Idx → Elt Ideal .f32) shapeCasts_S19x768_S1x14592) := by
  show StableHlo.after hostOps0 (fun b => m (c, b)) (Proc.devRef .tc main_v6) = _
  after_results
  try rfl

theorem v6_apply (c : Dev nD) (mm : Fin 19) (o : Fin 768) :
    V m c main_v6 (ix2 (0 : Fin 1) (Cert.SkSpec.col mm o)) = m ((c : Thread nD τ).loc main_arg4) (ix2 mm o) := by
  rw [v6_eq]
  refine shapeCast_apply _ _ _ (ix2 mm o) ?_
  rw [Shape.rowMajor_val_two, Shape.rowMajor_val_two]
  show mm.val * 768 + o.val = 0 * 14592 + (768 * mm.val + o.val)
  omega

/-! ## The windows' blocks at a grid point -/

/-- The windows' block indices over the 64 grid points: the input array's window moves down one
    block of rows per point; the other four stay at the one block that is their whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of the input block at point `t` is row `128·t + r` of the input array. -/
theorem blk0_apply (c : Dev nD) (t : Fin cfg0.N) (r : Fin 128) (j : Fin 14592) :
    iblk m c 0 t (ix2 r j) = m ((c : Thread nD τ).loc main_arg0)
      (ix2 (⟨128 * t.val + r.val, by have ht : t.val < 64 := lt_of_lt_of_eq t.isLt N_0; have := r.isLt; omega⟩ : Fin 8192) j) := by
  show V m c main_arg0 (((cfg0.win 0).blk t).view.emb (ix2 r j)) = _
  rw [V_main_arg0]
  obtain ⟨e00, e01, e10, e11, e20, e21, e30, e31, e40, e41⟩ := idx_facts t
  refine congrArg _ (funext fun a => Fin.ext ?_)
  match a with
  | ⟨0, _⟩ => show win0_0.index t (0 : Fin 2) * 128 + 1 * r.val = 128 * t.val + r.val; omega
  | ⟨1, _⟩ => show win0_0.index t (1 : Fin 2) * 14592 + 1 * j.val = j.val; omega

/-- The other four windows stage their whole arrays. -/
theorem blk1_apply (c : Dev nD) (t : Fin cfg0.N) (k : Fin 768) (d : Fin 384) :
    iblk m c 1 t (ix2 k d) = V m c main_v1 (ix2 k d) := by
  show V m c main_v1 (((cfg0.win 1).blk t).view.emb (ix2 k d)) = _
  obtain ⟨e00, e01, e10, e11, e20, e21, e30, e31, e40, e41⟩ := idx_facts t
  refine congrArg _ (funext fun a => Fin.ext ?_)
  match a with
  | ⟨0, _⟩ => show win0_1.index t (0 : Fin 2) * 768 + 1 * k.val = k.val; omega
  | ⟨1, _⟩ => show win0_1.index t (1 : Fin 2) * 384 + 1 * d.val = d.val; omega
theorem blk2_apply (c : Dev nD) (t : Fin cfg0.N) (u : Fin 1) (d : Fin 384) :
    iblk m c 2 t (ix2 u d) = V m c main_v2 (ix2 u d) := by
  show V m c main_v2 (((cfg0.win 2).blk t).view.emb (ix2 u d)) = _
  obtain ⟨e00, e01, e10, e11, e20, e21, e30, e31, e40, e41⟩ := idx_facts t
  refine congrArg _ (funext fun a => Fin.ext ?_)
  match a with
  | ⟨0, _⟩ => show win0_2.index t (0 : Fin 2) * 1 + 1 * u.val = u.val; omega
  | ⟨1, _⟩ => show win0_2.index t (1 : Fin 2) * 384 + 1 * d.val = d.val; omega
theorem blk3_apply (c : Dev nD) (t : Fin cfg0.N) (d : Fin 384) (j : Fin 14592) :
    iblk m c 3 t (ix2 d j) = V m c main_v5 (ix2 d j) := by
  show V m c main_v5 (((cfg0.win 3).blk t).view.emb (ix2 d j)) = _
  obtain ⟨e00, e01, e10, e11, e20, e21, e30, e31, e40, e41⟩ := idx_facts t
  refine congrArg _ (funext fun a => Fin.ext ?_)
  match a with
  | ⟨0, _⟩ => show win0_3.index t (0 : Fin 2) * 384 + 1 * d.val = d.val; omega
  | ⟨1, _⟩ => show win0_3.index t (1 : Fin 2) * 14592 + 1 * j.val = j.val; omega
theorem blk4_apply (c : Dev nD) (t : Fin cfg0.N) (u : Fin 1) (j : Fin 14592) :
    iblk m c 4 t (ix2 u j) = V m c main_v6 (ix2 u j) := by
  show V m c main_v6 (((cfg0.win 4).blk t).view.emb (ix2 u j)) = _
  obtain ⟨e00, e01, e10, e11, e20, e21, e30, e31, e40, e41⟩ := idx_facts t
  refine congrArg _ (funext fun a => Fin.ext ?_)
  match a with
  | ⟨0, _⟩ => show win0_4.index t (0 : Fin 2) * 1 + 1 * u.val = u.val; omega
  | ⟨1, _⟩ => show win0_4.index t (1 : Fin 2) * 14592 + 1 * j.val = j.val; omega

end Cert.KernelIdeal.Frm

end
-- ==== Proof.KiTrips.lean ====
/-
  One trip of each of the body's three loops, read at an entry (r, o) of the 128 × 768 carried
  block, on the extended reals. A trip loads the k-th slice of 768 columns of a 128 × 14592
  buffer: entry (r, o) of the slice is entry (r, 768·k + o) of the buffer.
    • first loop:  acc ↦ acc + x[·, k-th slice]
    • second loop: acc ↦ max acc (s[·, (k+1)-th slice])      (it starts at branch 1)
    • third loop:  (l, a) ↦ (l + p, a + p · x[·, k-th slice]),  p = exp (s[·, k-th slice] − mx)
-/
import proofs.«142875_j90099823936041_2_alg».proof.Proof.KiBody
import Idealize.ShloMosaic.Lib.ValueIdx
import Idealize.ShloMosaic.Lib.Pipeline.Value
import Idealize.ShloMosaic.Lib.WholeRead
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

/-- Entry `(r, 768·k + o)` of a 128 × 14592 array, for `k < 19`; zero past the last slice. -/
def slice (X : S128x14592.Idx → EReal) (r : Fin 128) (o : Fin 768) (k : ℕ) : EReal :=
  if h : k < 19 then X (ix2 r ⟨768 * k + o.val, by have := o.isLt; omega⟩) else 0

/-- The unit-stride rectangle of 128 × 768 at column offset `c0` places `(r, o)` at `(r, c0 + o)`. -/
theorem unit_idx (off : Fin 2 → Nat) (inb : ∀ a, off a + S128x768.size a ≤ S128x14592.size a) (c0 : ℕ) (hoff : off = ![0, c0])
    (r : Fin 128) (o : Fin 768) (hlt : c0 + o.val < 14592) :
    (Rect.unit (s := S128x14592) off S128x768.size inb).toLoadRect.idx (ix2 r o) = ix2 r ⟨c0 + o.val, hlt⟩ := by
  subst hoff
  funext a
  apply Fin.ext
  match a with
  | ⟨0, _⟩ => show 0 + 1 * r.val = r.val; omega
  | ⟨1, _⟩ => show c0 + 1 * o.val = c0 + o.val; omega

section trips
variable (𝒱 : Variants) (c : Dev nD) (bd : Option 𝒱.V) (i : grid0.Coords) (arg1 : Memref sig .tc .vmem S128x14592 .f32) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x14592 .bf16) (harg4 : arg4.IsWhole) (arg5 : Memref sig .tc .vmem S1x14592 .f32) (harg5 : arg5.IsWhole) (arg6 : Memref sig .tc .vmem S128x768 .f32) (harg6 : arg6.IsWhole) (arg7 : Memref sig .tc .vmem S128x14592 .f32) (harg7 : arg7.IsWhole)

/-- First loop: one more branch slice added. -/
theorem trip1_apply (x0 : S128x14592.Idx → EReal) (k : Fin k0_t1_loop.trips) (acc : FVec Ideal S128x768 .f32) (r : Fin 128) (o : Fin 768) :
    tripR_k0_t1 (F := Ideal) 𝒱 c bd i arg1 harg1 arg2 harg2 arg3 harg3 arg4 harg4 arg5 harg5 arg6 harg6 arg7 harg7 (harg1.unread x0) k acc (ix2 r o) = acc (ix2 r o) + slice x0 r o k.val := by
  have hk : k.val < 19 := Nat.lt_of_lt_of_le k.isLt k0_t1_abs.2.1
  unfold tripR_k0_t1 trip_k0_t1
  dsimp only
  unfold k0_pay3
  show acc (ix2 r o) + _ = _
  rw [harg1.readAt_unread, unit_idx _ _ (768 * k.val) (k0_off1_eq k) r o (by have := o.isLt; omega)]
  unfold slice; rw [dif_pos hk]

/-- Second loop: the running maximum takes in the next branch's scores (the loop starts at branch 1). -/
theorem trip2_apply (X7 : BufTy.Contents (Elt Ideal) arg7.view.ty) (S : S128x14592.Idx → EReal) (hS : arg7.view.read (Elt Ideal) X7 = S)
    (k : Fin k0_t2_loop.trips) (acc : Vec Ideal S128x768 .f32) (r : Fin 128) (o : Fin 768) :
    tripR_k0_t2 (F := Ideal) 𝒱 c bd i arg1 harg1 arg2 harg2 arg3 harg3 arg4 harg4 arg5 harg5 arg6 harg6 arg7 harg7 X7 k acc (ix2 r o) = max (acc (ix2 r o)) (slice S r o (k.val + 1)) := by
  have hk : k.val < 18 := Nat.lt_of_lt_of_le k.isLt k0_t2_abs.2.1
  unfold tripR_k0_t2 trip_k0_t2
  dsimp only
  unfold k0_pay5
  show max (acc (ix2 r o)) _ = _
  rw [View.readAt_eq_ld, hS]
  show max _ (S ((Rect.unit (s := S128x14592) (k0_off2 k) S128x768.size (k0_off2_inb k)).toLoadRect.idx (ix2 r o))) = _
  rw [unit_idx _ _ (768 * k.val + 768) (k0_off2_eq k) r o (by have := o.isLt; omega)]
  unfold slice; rw [dif_pos (by omega : k.val + 1 < 19)]
  congr 3

/-- Third loop: the denominator takes in `p = exp (s − mx)` of the branch, the weighted sum `p · x`. -/
theorem trip3_apply (v24 : Vec Ideal S128x768 .f32) (x0 : S128x14592.Idx → EReal)
    (X7 : BufTy.Contents (Elt Ideal) arg7.view.ty) (S : S128x14592.Idx → EReal) (hS : arg7.view.read (Elt Ideal) X7 = S)
    (k : Fin k0_t3_loop.trips) (acc : FVec Ideal S128x768 .f32 × FVec Ideal S128x768 .f32) (r : Fin 128) (o : Fin 768) :
    (tripR_k0_t3 (F := Ideal) 𝒱 c bd i arg1 harg1 arg2 harg2 arg3 harg3 arg4 harg4 arg5 harg5 arg6 harg6 arg7 harg7 v24 (harg1.unread x0) X7 k acc).1 (ix2 r o)
        = acc.1 (ix2 r o) + Ideal.exp (slice S r o k.val - v24 (ix2 r o))
    ∧ (tripR_k0_t3 (F := Ideal) 𝒱 c bd i arg1 harg1 arg2 harg2 arg3 harg3 arg4 harg4 arg5 harg5 arg6 harg6 arg7 harg7 v24 (harg1.unread x0) X7 k acc).2 (ix2 r o)
        = acc.2 (ix2 r o) + Ideal.exp (slice S r o k.val - v24 (ix2 r o)) * slice x0 r o k.val := by
  have hk : k.val < 19 := Nat.lt_of_lt_of_le k.isLt k0_t3_abs.2.1
  have hi := unit_idx _ (k0_off3_inb k) (768 * k.val) (k0_off3_eq k) r o (by have := o.isLt; omega)
  have h7 : View.readAt (Elt Ideal) arg7.view (Rect.unit (s := S128x14592) (k0_off3 k) S128x768.size (k0_off3_inb k)).toLoadRect X7 (ix2 r o) = slice S r o k.val := by
    rw [View.readAt_eq_ld, hS]
    show S ((Rect.unit (s := S128x14592) (k0_off3 k) S128x768.size (k0_off3_inb k)).toLoadRect.idx (ix2 r o)) = _
    rw [hi]; unfold slice; rw [dif_pos hk]
  have h1 : View.readAt (Elt Ideal) arg1.view (Rect.unit (s := S128x14592) (k0_off3 k) S128x768.size (k0_off3_inb k)).toLoadRect (harg1.unread x0) (ix2 r o) = slice x0 r o k.val := by
    rw [harg1.readAt_unread, hi]; unfold slice; rw [dif_pos hk]
  unfold tripR_k0_t3 trip_k0_t3
  dsimp only
  unfold k0_pay9 k0_pay10 k0_pay8
  constructor
  · show acc.1 (ix2 r o) + Ideal.exp (_ - v24 (ix2 r o)) = _
    rw [h7]
  · show acc.2 (ix2 r o) + Ideal.exp (_ - v24 (ix2 r o)) * _ = _
    rw [h7, h1]

/-- The first loop ends with the branches summed. -/
theorem loop1_apply (x0 : S128x14592.Idx → EReal) (init : FVec Ideal S128x768 .f32) (r : Fin 128) (o : Fin 768) :
    ∀ n, n ≤ k0_t1_loop.trips → st_k0_t1 (F := Ideal) 𝒱 c bd i arg1 harg1 arg2 harg2 arg3 harg3 arg4 harg4 arg5 harg5 arg6 harg6 arg7 harg7 (harg1.unread x0) init n (ix2 r o)
      = init (ix2 r o) + ∑ k ∈ Finset.range n, slice x0 r o k
  | 0, _ => by rw [Finset.range_zero, Finset.sum_empty, add_zero]; rfl
  | n + 1, hn => by
    have := st_k0_t1_succ (F := Ideal) 𝒱 c bd i arg1 harg1 arg2 harg2 arg3 harg3 arg4 harg4 arg5 harg5 arg6 harg6 arg7 harg7 (harg1.unread x0) init ⟨n, hn⟩
    rw [show n + 1 = (⟨n, hn⟩ : Fin k0_t1_loop.trips).val + 1 from rfl, this, trip1_apply, loop1_apply x0 init r o n (Nat.le_of_lt hn),
      Finset.sum_range_succ, add_assoc]

/-- The second loop ends with the maximum over the branches it has seen. -/
theorem loop2_apply (X7 : BufTy.Contents (Elt Ideal) arg7.view.ty) (S : S128x14592.Idx → EReal) (hS : arg7.view.read (Elt Ideal) X7 = S)
    (init : Vec Ideal S128x768 .f32) (r : Fin 128) (o : Fin 768) :
    ∀ n, n ≤ k0_t2_loop.trips → st_k0_t2 (F := Ideal) 𝒱 c bd i arg1 harg1 arg2 harg2 arg3 harg3 arg4 harg4 arg5 harg5 arg6 harg6 arg7 harg7 X7 init n (ix2 r o)
      = init (ix2 r o) ⊔ (Finset.range n).sup fun k => slice S r o (k + 1)
  | 0, _ => by rw [Finset.range_zero, Finset.sup_empty, sup_bot_eq]; rfl
  | n + 1, hn => by
    have := st_k0_t2_succ (F := Ideal) 𝒱 c bd i arg1 harg1 arg2 harg2 arg3 harg3 arg4 harg4 arg5 harg5 arg6 harg6 arg7 harg7 X7 init ⟨n, hn⟩
    rw [show n + 1 = (⟨n, hn⟩ : Fin k0_t2_loop.trips).val + 1 from rfl, this, trip2_apply 𝒱 c bd i arg1 harg1 arg2 harg2 arg3 harg3 arg4 harg4 arg5 harg5 arg6 harg6 arg7 harg7 X7 S hS, loop2_apply X7 S hS init r o n (Nat.le_of_lt hn)]
    show max (max _ _) (slice S r o (n + 1)) = max _ ((Finset.range (n + 1)).sup _)
    rw [Finset.range_add_one, Finset.sup_insert, max_assoc]
    congr 1
    exact max_comm _ _

/-- The third loop ends with the softmax denominator and the weighted sum of the branches. -/
theorem loop3_apply (v24 : Vec Ideal S128x768 .f32) (x0 : S128x14592.Idx → EReal)
    (X7 : BufTy.Contents (Elt Ideal) arg7.view.ty) (S : S128x14592.Idx → EReal) (hS : arg7.view.read (Elt Ideal) X7 = S)
    (init : FVec Ideal S128x768 .f32 × FVec Ideal S128x768 .f32) (r : Fin 128) (o : Fin 768) :
    ∀ n, n ≤ k0_t3_loop.trips →
      (st_k0_t3 (F := Ideal) 𝒱 c bd i arg1 harg1 arg2 harg2 arg3 harg3 arg4 harg4 arg5 harg5 arg6 harg6 arg7 harg7 v24 (harg1.unread x0) X7 init n).1 (ix2 r o)
        = init.1 (ix2 r o) + ∑ k ∈ Finset.range n, Ideal.exp (slice S r o k - v24 (ix2 r o))
      ∧ (st_k0_t3 (F := Ideal) 𝒱 c bd i arg1 harg1 arg2 harg2 arg3 harg3 arg4 harg4 arg5 harg5 arg6 harg6 arg7 harg7 v24 (harg1.unread x0) X7 init n).2 (ix2 r o)
        = init.2 (ix2 r o) + ∑ k ∈ Finset.range n, Ideal.exp (slice S r o k - v24 (ix2 r o)) * slice x0 r o k
  | 0, _ => by
    constructor <;> (rw [Finset.range_zero, Finset.sum_empty, add_zero]; rfl)
  | n + 1, hn => by
    have hs := st_k0_t3_succ (F := Ideal) 𝒱 c bd i arg1 harg1 arg2 harg2 arg3 harg3 arg4 harg4 arg5 harg5 arg6 harg6 arg7 harg7 v24 (harg1.unread x0) X7 init ⟨n, hn⟩
    have ht := trip3_apply 𝒱 c bd i arg1 harg1 arg2 harg2 arg3 harg3 arg4 harg4 arg5 harg5 arg6 harg6 arg7 harg7 v24 x0 X7 S hS ⟨n, hn⟩
      (st_k0_t3 (F := Ideal) 𝒱 c bd i arg1 harg1 arg2 harg2 arg3 harg3 arg4 harg4 arg5 harg5 arg6 harg6 arg7 harg7 v24 (harg1.unread x0) X7 init n) r o
    have ih := loop3_apply v24 x0 X7 S hS init r o n (Nat.le_of_lt hn)
    rw [show n + 1 = (⟨n, hn⟩ : Fin k0_t3_loop.trips).val + 1 from rfl, hs]
    constructor
    · rw [ht.1, ih.1, Finset.sum_range_succ, add_assoc]
    · rw [ht.2, ih.2, Finset.sum_range_succ, add_assoc]

end trips

end Cert.KernelIdeal.Val

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.KiBlock.lean ====
/-
  The output block at one grid point, entry by entry, on the extended reals, as a function of
  the five input blocks: x0 (128 rows of the input), x1 (the squeeze weights, transposed),
  x2 (the squeeze bias as a row), x3 (the 19 branch weight matrices side by side), x4 (the 19
  branch biases side by side). With
    bU r k   = ∑ over the 19 slices of x0[r, ·] at column k
    bZ r d   = ∑ₖ bU r k · x1[k, d] + x2[0, d]
    bS r j   = ∑_d bZ r d · x3[d, j] + x4[0, j]                 (one score per column of the scratch)
    bMx r o  = the largest of bS r (768·m + o) over the 19 branches m
  the entry (r, o) of the output block is
    (∑ₘ exp (bS r (768·m + o) − bMx r o) · x0[r, 768·m + o]) / (∑ₘ exp (bS r (768·m + o) − bMx r o)).
-/
import proofs.«142875_j90099823936041_2_alg».proof.Proof.KiTrips
import proofs.«142875_j90099823936041_2_alg».proof.Proof.KiOut
import proofs.«142875_j90099823936041_2_alg».proof.Proof.LibPlainDot
import Idealize.ShloMosaic.Lib.ValueLayout
import Idealize.ShloMosaic.Lib.ValueIdx
import Idealize.ShloMosaic.Lib.Pipeline.Value
import Idealize.ShloMosaic.Lib.WholeRead
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

theorem hz2 : (![0, 0] : Fin 2 → ℕ) = fun _ => 0 := by funext a; fin_cases a <;> rfl

/-- The fused score matmul with its bias, and before it the squeeze matmul with its bias, read at `(r, j)`. -/
theorem pay4_apply (v2 : FVec Ideal S128x768 .f32) (v4 : Vec Ideal S768x384 .bf16) (v7 : Vec Ideal S1x384 .f32)
    (v12 : Vec Ideal S384x14592 .bf16) (v15 : Vec Ideal S1x14592 .f32) (r : Fin 128) (j : Fin 14592) :
    k0_pay4 (F := Ideal) v2 v4 v7 v12 v15 (ix2 r j)
      = (∑ d : Fin 384, ((∑ k : Fin 768, v2 (ix2 r k) * v4 (ix2 k d)) + v7 (ix2 (0 : Fin 1) d)) * v12 (ix2 d j))
          + v15 (ix2 (0 : Fin 1) j) := by
  unfold k0_pay4
  simp only [shapeCast_self, matmul]
  rw [addf_apply, Cert.Bridge.matmul_zero_plain dot_S128x384_S384x14592_S128x14592_1_0_0_1_n_n rfl rfl rfl rfl rfl rfl,
    broadcastTo_1b_ab_apply]
  refine congrArg (· + v15 (ix2 (0 : Fin 1) j)) (Finset.sum_congr rfl fun d _ => congrArg (· * v12 (ix2 d j)) ?_)
  rw [truncf_apply, addf_apply, Cert.Bridge.matmul_zero_plain dot_S128x768_S768x384_S128x384_1_0_0_1_n_n rfl rfl rfl rfl rfl rfl,
    broadcastTo_1b_ab_apply]
  rfl

section block
variable (x0 : S128x14592.Idx → EReal) (x1 : S768x384.Idx → EReal) (x2 : S1x384.Idx → EReal)
  (x3 : S384x14592.Idx → EReal) (x4 : S1x14592.Idx → EReal)

/-- The 19 slices of row `r` summed at column `k`. -/
def bU (r : Fin 128) (k : Fin 768) : EReal := ∑ m ∈ Finset.range 19, slice x0 r k m
/-- The squeeze. -/
def bZ (r : Fin 128) (d : Fin 384) : EReal := (∑ k : Fin 768, bU x0 r k * x1 (ix2 k d)) + x2 (ix2 (0 : Fin 1) d)
/-- The scores, all 19 branches side by side. -/
def bS2 (r : Fin 128) (j : Fin 14592) : EReal :=
  (∑ d : Fin 384, bZ x0 x1 x2 r d * x3 (ix2 d j)) + x4 (ix2 (0 : Fin 1) j)
/-- The same as an array of 128 × 14592. -/
def bS : S128x14592.Idx → EReal := fun j => bS2 x0 x1 x2 x3 x4 (j 0) (j 1)
/-- The largest score over the branches. -/
def bMx (r : Fin 128) (o : Fin 768) : EReal := (Finset.range 19).sup fun k => slice (bS x0 x1 x2 x3 x4) r o k
/-- The output block's entry. -/
def bOut (r : Fin 128) (o : Fin 768) : EReal :=
  Ideal.div (∑ k ∈ Finset.range 19, Ideal.exp (slice (bS x0 x1 x2 x3 x4) r o k - bMx x0 x1 x2 x3 x4 r o) * slice x0 r o k)
    (∑ k ∈ Finset.range 19, Ideal.exp (slice (bS x0 x1 x2 x3 x4) r o k - bMx x0 x1 x2 x3 x4 r o))

/-- A supremum over `n + 1` consecutive indices: the first, then the rest shifted by one. -/
theorem sup_range_shift (f : ℕ → EReal) : ∀ n, (Finset.range (n + 1)).sup f = f 0 ⊔ (Finset.range n).sup fun k => f (k + 1)
  | 0 => by simp
  | n + 1 => by
    rw [Finset.range_add_one, Finset.sup_insert, sup_range_shift f n, Finset.range_add_one (n := n), Finset.sup_insert]
    exact sup_left_comm _ _ _

end block

section run
variable (c : Dev nD) (i : grid0.Coords) (arg1 : Memref sig .tc .vmem S128x14592 .f32) (harg1 : arg1.IsWhole) (arg2 : Memref sig .tc .vmem S768x384 .bf16) (harg2 : arg2.IsWhole) (arg3 : Memref sig .tc .vmem S1x384 .f32) (harg3 : arg3.IsWhole) (arg4 : Memref sig .tc .vmem S384x14592 .bf16) (harg4 : arg4.IsWhole) (arg5 : Memref sig .tc .vmem S1x14592 .f32) (harg5 : arg5.IsWhole) (arg6 : Memref sig .tc .vmem S128x768 .f32) (harg6 : arg6.IsWhole) (arg7 : Memref sig .tc .vmem S128x14592 .f32) (harg7 : arg7.IsWhole)
variable (x0 : S128x14592.Idx → EReal) (x1 : S768x384.Idx → EReal) (x2 : S1x384.Idx → EReal)
  (x3 : S384x14592.Idx → EReal) (x4 : S1x14592.Idx → EReal)

/-- A load of a whole buffer held at contents that read `X` reads `X`. -/
theorem load_whole {S : Shape} {e : EltTy} (hr : S.rank = 2) (mr : Memref sig .tc .vmem S e) (h : mr.IsWhole) (X : S.Idx → Elt Ideal e)
    (off : Fin S.rank → ℕ) (hoff : off = fun _ => 0) (inb : ∀ a, off a + S.size a ≤ S.size a) :
    View.readAt (Elt Ideal) mr.view (Rect.unit (s := S) off S.size inb).toLoadRect (h.unread X) = X := by
  rw [View.readAt_eq_ld, h.read_unread]; exact View.ld_unit_zero hoff inb X

/-- The one piece the body stores into the scratch holds the scores. -/
theorem scores_canon :
    View.canon (kernelRun0.sl.HS_1 (F := Ideal) c i arg1 harg1 arg2 harg2 arg3 harg3 arg4 harg4 arg5 harg5 arg6 harg6 arg7 harg7 x0 x1 x2 x3 x4) = bS x0 x1 x2 x3 x4 := by
  have h19 : Scf.trips k0_t1_loop.lb k0_t1_loop.ub k0_t1_loop.st = 19 := by decide
  unfold kernelRun0.sl.HS_1
  rw [View.canon_unit_zero hz2, h19, load_whole rfl arg2 harg2 x1 _ hz2, load_whole rfl arg3 harg3 x2 _ hz2,
    load_whole rfl arg4 harg4 x3 _ hz2, load_whole rfl arg5 harg5 x4 _ hz2]
  funext j
  obtain ⟨p, q, rfl⟩ : ∃ (p : Fin 128) (q : Fin 14592), j = ix2 p q := ⟨j 0, j 1, eq_ix2 j⟩
  rw [pay4_apply]
  show _ = bS2 x0 x1 x2 x3 x4 p q
  unfold bS2 bZ bU
  refine congrArg (· + x4 (ix2 (0 : Fin 1) q)) (Finset.sum_congr rfl fun d _ => congrArg (· * x3 (ix2 d q)) ?_)
  refine congrArg (· + x2 (ix2 (0 : Fin 1) d)) (Finset.sum_congr rfl fun k _ => congrArg (· * x1 (ix2 k d)) ?_)
  rw [loop1_apply Variants.none c none i arg1 harg1 arg2 harg2 arg3 harg3 arg4 harg4 arg5 harg5 arg6 harg6 arg7 harg7 x0 k0_pay2 p k 19 (by decide)]
  show (Ideal.ofBits .f32 0x00000000#32 : EReal) + _ = _
  rw [Ideal.ofBits_zero_f32, zero_add]

/-- The scratch after the body's one whole store reads as the scores. -/
theorem scratch_read :
    arg7.view.read (Elt Ideal) (arg7.view.writes (Elt Ideal) arg7.view.junk
        (kernelRun0.sl.HS_1 (F := Ideal) c i arg1 harg1 arg2 harg2 arg3 harg3 arg4 harg4 arg5 harg5 arg6 harg6 arg7 harg7 x0 x1 x2 x3 x4))
      = bS x0 x1 x2 x3 x4 := by
  rw [View.read_writes_eq_canon _ _ _ (fun y => by
    unfold kernelRun0.sl.HS_1; exact ⟨_, List.mem_singleton_self _, View.mem_set_unit_zero hz2 inb_S128x14592_S128x14592_0_0 y⟩)]
  exact scores_canon c i arg1 harg1 arg2 harg2 arg3 harg3 arg4 harg4 arg5 harg5 arg6 harg6 arg7 harg7 x0 x1 x2 x3 x4

/-- THE OUTPUT BLOCK, entry by entry. -/
theorem out0_5_apply (r : Fin 128) (o : Fin 768) :
    out0_5 (F := Ideal) c i arg1 harg1 arg2 harg2 arg3 harg3 arg4 harg4 arg5 harg5 arg6 harg6 arg7 harg7 x0 x1 x2 x3 x4 (ix2 r o) = bOut x0 x1 x2 x3 x4 r o := by
  have h19 : Scf.trips k0_t3_loop.lb k0_t3_loop.ub k0_t3_loop.st = 19 := by decide
  have h18 : Scf.trips k0_t2_loop.lb k0_t2_loop.ub k0_t2_loop.st = 18 := by decide
  have hS := scratch_read c i arg1 harg1 arg2 harg2 arg3 harg3 arg4 harg4 arg5 harg5 arg6 harg6 arg7 harg7 x0 x1 x2 x3 x4
  have hC := scores_canon c i arg1 harg1 arg2 harg2 arg3 harg3 arg4 harg4 arg5 harg5 arg6 harg6 arg7 harg7 x0 x1 x2 x3 x4
  have hL : (kernelRun0 (F := Ideal) c i arg1 harg1 arg2 harg2 arg3 harg3 arg4 harg4 arg5 harg5 arg6 harg6 arg7 harg7 x0 x1 x2 x3 x4).1
      = [⟨Rect.unit (s := S128x768) ![0, 0] S128x768.size inb_S128x768_S128x768_0_0,
          k0_pay1 (kernelRun0.sl.r (F := Ideal) c i arg1 harg1 arg2 harg2 arg3 harg3 arg4 harg4 arg5 harg5 arg6 harg6 arg7 harg7 x0 x1 x2 x3 x4)
            (kernelRun0.sl.r_1 (F := Ideal) c i arg1 harg1 arg2 harg2 arg3 harg3 arg4 harg4 arg5 harg5 arg6 harg6 arg7 harg7 x0 x1 x2 x3 x4)⟩] := by
    unfold kernelRun0; rfl
  -- the first slice of the scores, loaded before the second loop
  have hv22 : kernelRun0.sl.v22 (F := Ideal) c i arg1 harg1 arg2 harg2 arg3 harg3 arg4 harg4 arg5 harg5 arg6 harg6 arg7 harg7 x0 x1 x2 x3 x4 (ix2 r o) = slice (bS x0 x1 x2 x3 x4) r o 0 := by
    unfold kernelRun0.sl.v22
    rw [View.readCov_eq_canon', hC]
    show bS x0 x1 x2 x3 x4 ((Rect.unit (s := S128x14592) ![0, 0] S128x768.size inb_S128x14592_S128x768_0_0).toLoadRect.idx (ix2 r o)) = _
    rw [unit_idx _ _ (768 * 0) (by rfl) r o (by have := o.isLt; omega)]
    unfold slice; rw [dif_pos (by decide : 0 < 19)]
  -- the running maximum ends at the largest score over the 19 branches
  have hmx : st_k0_t2 (F := Ideal) Variants.none c none i arg1 harg1 arg2 harg2 arg3 harg3 arg4 harg4 arg5 harg5 arg6 harg6 arg7 harg7
      (arg7.view.writes (Elt Ideal) arg7.view.junk (kernelRun0.sl.HS_1 (F := Ideal) c i arg1 harg1 arg2 harg2 arg3 harg3 arg4 harg4 arg5 harg5 arg6 harg6 arg7 harg7 x0 x1 x2 x3 x4))
      (kernelRun0.sl.v22 (F := Ideal) c i arg1 harg1 arg2 harg2 arg3 harg3 arg4 harg4 arg5 harg5 arg6 harg6 arg7 harg7 x0 x1 x2 x3 x4) 18 (ix2 r o) = bMx x0 x1 x2 x3 x4 r o := by
    rw [loop2_apply Variants.none c none i arg1 harg1 arg2 harg2 arg3 harg3 arg4 harg4 arg5 harg5 arg6 harg6 arg7 harg7 _ _ hS _ r o 18 (by decide), hv22]
    unfold bMx
    rw [sup_range_shift _ 18]
  obtain ⟨h3a, h3b⟩ := loop3_apply Variants.none c none i arg1 harg1 arg2 harg2 arg3 harg3 arg4 harg4 arg5 harg5 arg6 harg6 arg7 harg7
    (st_k0_t2 (F := Ideal) Variants.none c none i arg1 harg1 arg2 harg2 arg3 harg3 arg4 harg4 arg5 harg5 arg6 harg6 arg7 harg7
      (arg7.view.writes (Elt Ideal) arg7.view.junk (kernelRun0.sl.HS_1 (F := Ideal) c i arg1 harg1 arg2 harg2 arg3 harg3 arg4 harg4 arg5 harg5 arg6 harg6 arg7 harg7 x0 x1 x2 x3 x4))
      (kernelRun0.sl.v22 (F := Ideal) c i arg1 harg1 arg2 harg2 arg3 harg3 arg4 harg4 arg5 harg5 arg6 harg6 arg7 harg7 x0 x1 x2 x3 x4) 18)
    x0 _ _ hS (k0_pay6, k0_pay7) r o 19 (by decide)
  unfold out0_5
  rw [View.read_writes_eq_canon _ _ _ (cover0_5 (F := Ideal) c i arg1 harg1 arg2 harg2 arg3 harg3 arg4 harg4 arg5 harg5 arg6 harg6 arg7 harg7 x0 x1 x2 x3 x4), hL, View.canon_unit_zero hz2]
  unfold k0_pay1
  show Ideal.div (kernelRun0.sl.r_1 (F := Ideal) c i arg1 harg1 arg2 harg2 arg3 harg3 arg4 harg4 arg5 harg5 arg6 harg6 arg7 harg7 x0 x1 x2 x3 x4 (ix2 r o))
    (kernelRun0.sl.r (F := Ideal) c i arg1 harg1 arg2 harg2 arg3 harg3 arg4 harg4 arg5 harg5 arg6 harg6 arg7 harg7 x0 x1 x2 x3 x4 (ix2 r o)) = _
  unfold kernelRun0.sl.r kernelRun0.sl.r_1
  rw [h19, h18, h3a, h3b, hmx]
  unfold bOut
  show Ideal.div ((Ideal.ofBits .f32 0x00000000#32 : EReal) + _) ((Ideal.ofBits .f32 0x00000000#32 : EReal) + _) = _
  rw [Ideal.ofBits_zero_f32, zero_add, zero_add]

end run

end Cert.KernelIdeal.Val

end
-- ==== Proof.KiBridge.lean ====
/-
  The output block's entry, written over the five input blocks, is the attended feature of the
  specification at the block's row, once each block is read back to the arguments: the input
  block is 128 consecutive rows of x, the squeeze weights are transposed, the squeeze bias is
  a row, and the 19 branch weight matrices and biases lie side by side in m-major order, column
  768·m + o holding branch m's channel o.
-/
import proofs.«142875_j90099823936041_2_alg».proof.Proof.KiBlock
import proofs.«142875_j90099823936041_2_alg».proof.Proof.SkSpec
import Idealize.ShloMosaic.Lib.ValueIdx
import Idealize.ShloMosaic.Lib.Pipeline.Value
import Idealize.ShloMosaic.Lib.WholeRead
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

open Cert.SkSpec

/-- A supremum over the first `n` naturals is the supremum over `Fin n`. -/
theorem sup_range_eq_univ (n : ℕ) (f : ℕ → EReal) : (Finset.range n).sup f = Finset.univ.sup fun i : Fin n => f i.val := by
  apply le_antisymm
  · exact Finset.sup_le fun k hk => Finset.le_sup (f := fun i : Fin n => f i.val) (Finset.mem_univ (⟨k, Finset.mem_range.1 hk⟩ : Fin n))
  · exact Finset.sup_le fun i _ => Finset.le_sup (f := f) (Finset.mem_range.2 i.isLt)

/-- Slice `m` of a row at channel `o` is column `768·m + o`. -/
theorem slice_fin (X : S128x14592.Idx → EReal) (r : Fin 128) (o : Fin 768) (mm : Fin 19) :
    slice X r o mm.val = X (ix2 r (col mm o)) := by
  unfold slice; rw [dif_pos mm.isLt]; rfl

theorem bOut_eq_feaVK
    (x : (⟨2, ![8192, 14592]⟩ : Shape).Idx → EReal) (wfc : (⟨2, ![384, 768]⟩ : Shape).Idx → EReal)
    (bfc : (⟨1, ![384]⟩ : Shape).Idx → EReal) (wbr : (⟨3, ![19, 768, 384]⟩ : Shape).Idx → EReal)
    (bbr : (⟨2, ![19, 768]⟩ : Shape).Idx → EReal)
    (x0 : S128x14592.Idx → EReal) (x1 : S768x384.Idx → EReal) (x2 : S1x384.Idx → EReal)
    (x3 : S384x14592.Idx → EReal) (x4 : S1x14592.Idx → EReal)
    (b0 : ℕ) (hb : b0 + 128 ≤ 8192)
    (h0 : ∀ (r : Fin 128) (j : Fin 14592), x0 (ix2 r j) = x (ix2 (⟨b0 + r.val, by have := r.isLt; omega⟩ : Fin 8192) j))
    (h1 : ∀ (k : Fin 768) (d : Fin 384), x1 (ix2 k d) = wfc (ix2 d k))
    (h2 : ∀ d : Fin 384, x2 (ix2 (0 : Fin 1) d) = bfc (ix1 d))
    (h3 : ∀ (d : Fin 384) (mm : Fin 19) (o : Fin 768), x3 (ix2 d (col mm o)) = wbr (ix3 mm o d))
    (h4 : ∀ (mm : Fin 19) (o : Fin 768), x4 (ix2 (0 : Fin 1) (col mm o)) = bbr (ix2 mm o))
    (r : Fin 128) (o : Fin 768) :
    bOut x0 x1 x2 x3 x4 r o = feaVK x wfc bfc wbr bbr (⟨b0 + r.val, by have := r.isLt; omega⟩ : Fin 8192) o := by
  have hX : ∀ (mm : Fin 19) (o' : Fin 768), slice x0 r o' mm.val = xm x ⟨b0 + r.val, by have := r.isLt; omega⟩ mm o' := fun mm o' => by
    rw [slice_fin, h0]; rfl
  have hU : ∀ k : Fin 768, bU x0 r k = feaU x ⟨b0 + r.val, by have := r.isLt; omega⟩ k := fun k => by
    unfold bU feaU; rw [Finset.sum_range]; exact Finset.sum_congr rfl fun mm _ => hX mm k
  have hZ : ∀ d : Fin 384, bZ x0 x1 x2 r d = feaZ x wfc bfc ⟨b0 + r.val, by have := r.isLt; omega⟩ d := fun d => by
    unfold bZ feaZ; rw [h2]
    exact congrArg (· + bfc (ix1 d)) (Finset.sum_congr rfl fun k _ => by rw [hU, h1])
  have hS : ∀ (mm : Fin 19) (o' : Fin 768), slice (bS x0 x1 x2 x3 x4) r o' mm.val
      = score x wfc bfc wbr bbr ⟨b0 + r.val, by have := r.isLt; omega⟩ mm o' := fun mm o' => by
    rw [slice_fin]
    show bS2 x0 x1 x2 x3 x4 r (col mm o') = _
    unfold bS2 score; rw [h4]
    exact congrArg (· + bbr (ix2 mm o')) (Finset.sum_congr rfl fun d _ => by rw [hZ, h3])
  have hM : bMx x0 x1 x2 x3 x4 r o = smax x wfc bfc wbr bbr ⟨b0 + r.val, by have := r.isLt; omega⟩ o := by
    unfold bMx smax; rw [sup_range_eq_univ]
    exact congrArg (Finset.sup Finset.univ) (funext fun mm => hS mm o)
  unfold bOut feaVK den pexp
  rw [Finset.sum_range, Finset.sum_range, hM]
  refine congrArg₂ Ideal.div (Finset.sum_congr rfl fun mm _ => ?_) (Finset.sum_congr rfl fun mm _ => ?_)
  · rw [hS, hX]
  · rw [hS]

end Cert.KernelIdeal.Val

end
-- ==== Proof.KiArray.lean ====
/-
  The kernel's output array after the run: entry (b, o) of the 8192 × 768 array is the attended
  feature of the specification at row b and channel o, as a function of the five attention
  arguments. Grid point t writes back rows 128·t … 128·t + 127, whole; the 64 points tile the
  array, the point that covers row b being b / 128.
-/
import proofs.«142875_j90099823936041_2_alg».proof.Proof.KiFrame
import proofs.«142875_j90099823936041_2_alg».proof.Proof.KiWindows
import proofs.«142875_j90099823936041_2_alg».proof.Proof.KiBridge
import proofs.«142875_j90099823936041_2_alg».proof.Proof.SkSpec
import Idealize.ShloMosaic.Lib.ValueIdx
import Idealize.ShloMosaic.Lib.Pipeline.Value
import Idealize.ShloMosaic.Lib.WholeRead
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

open Idealize.ShloMosaic.Pipeline (Dat Cfg Window)

variable (m : (ℓ : Loc nD τ sig) → Buf (Elt Ideal) ℓ)

/-- The attended feature of the specification, as the 8192 × 768 array the kernel's output ends at. -/
def feaArr (c : Dev nD) : S8192x768.Idx → EReal := fun j =>
  Cert.SkSpec.feaVK (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)

/-- The output window's block index at point `t` is `(t, 0)`, decided over the grid. -/
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- WHAT POINT `t` WRITES BACK is block `t` of the feature array. -/
theorem flushed5_eq (c : Dev nD) (t : Fin cfg0.N) :
    (dats m 0 c).flushed 5 t = ((cfg0.win 5).blk t).view.read (Elt Ideal) (feaArr m c) := by
  have hN : t.val < 64 := lt_of_lt_of_eq t.isLt (show cfg0.N = 64 from N_0)
  obtain ⟨e0, e1⟩ := idx5 t
  show (cfg0.win 5).cut (grid0.coords t) ((dats m 0 c).after 5 t) = _
  rw [after0_5]
  refine funext fun (y : S128x768.Idx) => ?_
  obtain ⟨r, o, rfl⟩ : ∃ (r : Fin 128) (o : Fin 768), y = ix2 r o := ⟨y 0, y 1, eq_ix2 y⟩
  show out0_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (iblk m c 4 t) (ix2 r o)
    = feaArr m c (((cfg0.win 5).blk t).view.emb (ix2 r o))
  rw [out0_5_apply,
    bOut_eq_feaVK (m ((c : Thread nD τ).loc main_arg0)) (m ((c : Thread nD τ).loc main_arg1)) (m ((c : Thread nD τ).loc main_arg2)) (m ((c : Thread nD τ).loc main_arg3)) (m ((c : Thread nD τ).loc main_arg4)) _ _ _ _ _ (128 * t.val) (by omega)
      (fun r j => blk0_apply m c t r j)
      (fun k d => (blk1_apply m c t k d).trans (v1_apply m c k d))
      (fun d => (blk2_apply m c t 0 d).trans (v2_apply m c d))
      (fun d mm o => (blk3_apply m c t d (Cert.SkSpec.col mm o)).trans (v5_apply m c d mm o))
      (fun mm o => (blk4_apply m c t 0 (Cert.SkSpec.col mm o)).trans (v6_apply m c mm o))]
  unfold feaArr
  refine congrArg₂ (Cert.SkSpec.feaVK (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_)
  · show 128 * t.val + r.val = win0_5.index t (0 : Fin 2) * 128 + 1 * r.val; omega
  · show o.val = win0_5.index t (1 : Fin 2) * 768 + 1 * o.val; omega

/-- An index of the array is in point `t`'s block iff each coordinate is in the block's range on its axis. -/
theorem mem_blk5 (t : Fin cfg0.N) (i : S8192x768.Idx) :
    i ∈ ((cfg0.win 5).blk t).view.set ↔ ∀ a : Fin 2, win0_5.index t a * S128x768.size a ≤ (i a).val ∧ (i a).val < win0_5.index t a * S128x768.size a + S128x768.size a := by
  show i ∈ ((View.whole main_v7).slice (win0_5.rect t)).set ↔ _
  rw [View.set_slice_whole, Rect.mem_set_unit]
  exact Iff.rfl

/-- Every entry of the array is in some point's block: row `b` in point `b / 128`'s. -/
theorem cover5 (i : S8192x768.Idx) : ∃ t : Fin cfg0.N, (cfg0.win 5).flush t = true ∧ i ∈ ((cfg0.win 5).blk t).view.set := by
  have hi0 : (i 0).val < 8192 := (i 0).isLt
  have hi1 : (i 1).val < 768 := (i 1).isLt
  have hN : cfg0.N = 64 := N_0
  let t : Fin cfg0.N := ⟨(i 0).val / 128, by rw [hN]; omega⟩
  obtain ⟨e0, e1⟩ := idx5 t
  have et : t.val = (i 0).val / 128 := rfl
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 768 ≤ (i 1).val ∧ (i 1).val < win0_5.index t (1 : Fin 2) * 768 + 768; omega

/-- THE ARRAY after the run. -/
theorem final5 (c : Dev nD) : (dats m 0 c).arrAt 5 cfg0.N = feaArr m c :=
  (dats m 0 c).arrAt_eq_of_cover 5 (feaArr m c) (fun t _ => flushed5_eq m c t) cover5

end Cert.KernelIdeal.Val

end
-- ==== Proof.RefRun.lean ====
import proofs.«142875_j90099823936041_2_alg».proof.Proof.Gen.ReferenceIdeal
import Idealize.ShloMosaic.Lib.StableHlo.Run

/-!
# The reference program as a straight line of host operations

The reference's `@main` is a straight line of tensor operations; the four functions it calls
(`relu` twice, the biased variance `_var` twice, each with its `where` inside) are executed on the
operands, so the whole program is the list of its own operations with each callee's operations
standing at the call site over that call's buffers. This module states that list (in two
consecutive pieces), proves the program equal to it, and reads the run back: every execution
terminates with each buffer at the fold of the operations' results over the launch contents.
No operation writes an argument buffer, so the arguments end as they began.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first piece: the branch feature (reshape, sum over branches, two products with their
    biases, the softmax over the branch axis, the weighted sum), the first linear layer, its
    `relu`, the batch mean and biased variance, the normalization and affine map, and the second
    linear layer's product. -/
abbrev ops0 : List (HloOp τ sig (Elt F)) :=
  [ StableHlo.reshape main_arg0 main_v0 rfl shapeCasts_S8192x14592_S8192x19x768,
    StableHlo.nullary main_cst (constant S_ .f32 0x00000000#32),
    StableHlo.binary main_v0 main_cst main_v1 ((fun x v => Host.reduceAdd x v reducesTo_S8192x19x768_S8192x768_d1 h_S_) : (⟨S8192x19x768, .f32⟩ : BufTy).Contents (Elt F) → (⟨S_, .f32⟩ : BufTy).Contents (Elt F) → (⟨S8192x768, .f32⟩ : BufTy).Contents (Elt F)),
    StableHlo.unary main_arg1 main_v2 ((transpose S768x384 [1, 0] · transposes_S384x768_S768x384_1_0) : (⟨S384x768, .f32⟩ : BufTy).Contents (Elt F) → (⟨S768x384, .f32⟩ : BufTy).Contents (Elt F)),
    StableHlo.binary main_v1 main_v2 main_v3 ((fun l r => Host.dotGeneral dot_S8192x768_S768x384_S8192x384_1_0_0_1_n_n none l r) : (⟨S8192x768, .f32⟩ : BufTy).Contents (Elt F) → (⟨S768x384, .f32⟩ : BufTy).Contents (Elt F) → (⟨S8192x384, .f32⟩ : BufTy).Contents (Elt F)),
    StableHlo.unary main_arg2 main_v4 (broadcastInDim S1x384 ![1] bcast_S384_S1x384_1 : (⟨S384, .f32⟩ : BufTy).Contents (Elt F) → (⟨S1x384, .f32⟩ : BufTy).Contents (Elt F)),
    StableHlo.unary main_v4 main_v5 (broadcastInDim S8192x384 ![0, 1] bcast_S1x384_S8192x384_0_1 : (⟨S1x384, .f32⟩ : BufTy).Contents (Elt F) → (⟨S8192x384, .f32⟩ : BufTy).Contents (Elt F)),
    StableHlo.binary main_v3 main_v5 main_v6 (addf : (⟨S8192x384, .f32⟩ : BufTy).Contents (Elt F) → (⟨S8192x384, .f32⟩ : BufTy).Contents (Elt F) → (⟨S8192x384, .f32⟩ : BufTy).Contents (Elt F)),
    StableHlo.binary main_v6 main_arg3 main_v7 ((fun l r => Host.dotGeneral dot_S8192x384_S19x768x384_S8192x19x768_1_2_0_01_n_n none l r) : (⟨S8192x384, .f32⟩ : BufTy).Contents (Elt F) → (⟨S19x768x384, .f32⟩ : BufTy).Contents (Elt F) → (⟨S8192x19x768, .f32⟩ : BufTy).Contents (Elt F)),
    StableHlo.unary main_arg4 main_v8 (broadcastInDim S1x19x768 ![1, 2] bcast_S19x768_S1x19x768_1_2 : (⟨S19x768, .f32⟩ : BufTy).Contents (Elt F) → (⟨S1x19x768, .f32⟩ : BufTy).Contents (Elt F)),
    StableHlo.unary main_v8 main_v9 (broadcastInDim S8192x19x768 ![0, 1, 2] bcast_S1x19x768_S8192x19x768_0_1_2 : (⟨S1x19x768, .f32⟩ : BufTy).Contents (Elt F) → (⟨S8192x19x768, .f32⟩ : BufTy).Contents (Elt F)),
    StableHlo.binary main_v7 main_v9 main_v10 (addf : (⟨S8192x19x768, .f32⟩ : BufTy).Contents (Elt F) → (⟨S8192x19x768, .f32⟩ : BufTy).Contents (Elt F) → (⟨S8192x19x768, .f32⟩ : BufTy).Contents (Elt F)),
    StableHlo.nullary main_cst_0 (constant S_ .f32 0xFF800000#32),
    StableHlo.binary main_v10 main_cst_0 main_v11 ((fun x v => Host.reduce FloatOps.maximumf x v reducesTo_S8192x19x768_S8192x768_d1 h_S_) : (⟨S8192x19x768, .f32⟩ : BufTy).Contents (Elt F) → (⟨S_, .f32⟩ : BufTy).Contents (Elt F) → (⟨S8192x768, .f32⟩ : BufTy).Contents (Elt F)),
    StableHlo.nullary main_cst_1 (constant S_ .f32 0xFF800000#32),
    StableHlo.unary main_cst_1 main_v12 (broadcastInDim S8192x768 ![] bcast_S_S8192x768 : (⟨S_, .f32⟩ : BufTy).Contents (Elt F) → (⟨S8192x768, .f32⟩ : BufTy).Contents (Elt F)),
    StableHlo.binary main_v12 main_v11 main_v13 (maximumf : (⟨S8192x768, .f32⟩ : BufTy).Contents (Elt F) → (⟨S8192x768, .f32⟩ : BufTy).Contents (Elt F) → (⟨S8192x768, .f32⟩ : BufTy).Contents (Elt F)),
    StableHlo.unary main_v13 main_v14 (broadcastInDim S8192x1x768 ![0, 2] bcast_S8192x768_S8192x1x768_0_2 : (⟨S8192x768, .f32⟩ : BufTy).Contents (Elt F) → (⟨S8192x1x768, .f32⟩ : BufTy).Contents (Elt F)),
    StableHlo.unary main_v14 main_v15 (broadcastInDim S8192x19x768 ![0, 1, 2] bcast_S8192x1x768_S8192x19x768_0_1_2 : (⟨S8192x1x768, .f32⟩ : BufTy).Contents (Elt F) → (⟨S8192x19x768, .f32⟩ : BufTy).Contents (Elt F)),
    StableHlo.binary main_v10 main_v15 main_v16 (subf : (⟨S8192x19x768, .f32⟩ : BufTy).Contents (Elt F) → (⟨S8192x19x768, .f32⟩ : BufTy).Contents (Elt F) → (⟨S8192x19x768, .f32⟩ : BufTy).Contents (Elt F)),
    StableHlo.unary main_v16 main_v17 (Host.exp : (⟨S8192x19x768, .f32⟩ : BufTy).Contents (Elt F) → (⟨S8192x19x768, .f32⟩ : BufTy).Contents (Elt F)),
    StableHlo.nullary main_cst_2 (constant S_ .f32 0x00000000#32),
    StableHlo.binary main_v17 main_cst_2 main_v18 ((fun x v => Host.reduceAdd x v reducesTo_S8192x19x768_S8192x768_d1 h_S_) : (⟨S8192x19x768, .f32⟩ : BufTy).Contents (Elt F) → (⟨S_, .f32⟩ : BufTy).Contents (Elt F) → (⟨S8192x768, .f32⟩ : BufTy).Contents (Elt F)),
    StableHlo.unary main_v18 main_v19 (broadcastInDim S8192x1x768 ![0, 2] bcast_S8192x768_S8192x1x768_0_2 : (⟨S8192x768, .f32⟩ : BufTy).Contents (Elt F) → (⟨S8192x1x768, .f32⟩ : BufTy).Contents (Elt F)),
    StableHlo.unary main_v19 main_v20 (broadcastInDim S8192x19x768 ![0, 1, 2] bcast_S8192x1x768_S8192x19x768_0_1_2 : (⟨S8192x1x768, .f32⟩ : BufTy).Contents (Elt F) → (⟨S8192x19x768, .f32⟩ : BufTy).Contents (Elt F)),
    StableHlo.binary main_v17 main_v20 main_v21 (Host.divf : (⟨S8192x19x768, .f32⟩ : BufTy).Contents (Elt F) → (⟨S8192x19x768, .f32⟩ : BufTy).Contents (Elt F) → (⟨S8192x19x768, .f32⟩ : BufTy).Contents (Elt F)),
    StableHlo.binary main_v0 main_v21 main_v22 (mulf : (⟨S8192x19x768, .f32⟩ : BufTy).Contents (Elt F) → (⟨S8192x19x768, .f32⟩ : BufTy).Contents (Elt F) → (⟨S8192x19x768, .f32⟩ : BufTy).Contents (Elt F)),
    StableHlo.nullary main_cst_3 (constant S_ .f32 0x00000000#32),
    StableHlo.binary main_v22 main_cst_3 main_v23 ((fun x v => Host.reduceAdd x v reducesTo_S8192x19x768_S8192x768_d1 h_S_) : (⟨S8192x19x768, .f32⟩ : BufTy).Contents (Elt F) → (⟨S_, .f32⟩ : BufTy).Contents (Elt F) → (⟨S8192x768, .f32⟩ : BufTy).Contents (Elt F)),
    StableHlo.unary main_arg5 main_v24 ((transpose S768x256 [1, 0] · transposes_S256x768_S768x256_1_0) : (⟨S256x768, .f32⟩ : BufTy).Contents (Elt F) → (⟨S768x256, .f32⟩ : BufTy).Contents (Elt F)),
    StableHlo.binary main_v23 main_v24 main_v25 ((fun l r => Host.dotGeneral dot_S8192x768_S768x256_S8192x256_1_0_0_1_n_n none l r) : (⟨S8192x768, .f32⟩ : BufTy).Contents (Elt F) → (⟨S768x256, .f32⟩ : BufTy).Contents (Elt F) → (⟨S8192x256, .f32⟩ : BufTy).Contents (Elt F)),
    StableHlo.unary main_arg6 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S8192x256 ![0, 1] bcast_S1x256_S8192x256_0_1 : (⟨S1x256, .f32⟩ : BufTy).Contents (Elt F) → (⟨S8192x256, .f32⟩ : BufTy).Contents (Elt F)),
    StableHlo.binary main_v25 main_v27 main_v28 (addf : (⟨S8192x256, .f32⟩ : BufTy).Contents (Elt F) → (⟨S8192x256, .f32⟩ : BufTy).Contents (Elt F) → (⟨S8192x256, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S8192x256, .f32⟩) (broadcastInDim S8192x256 ![] bcast_S_S8192x256),
    StableHlo.TRef.binary (.of main_v28 : StableHlo.TRef sig ⟨S8192x256, .f32⟩) (.of main_call0_v0 : StableHlo.TRef sig ⟨S8192x256, .f32⟩) (.of main_v29 : StableHlo.TRef sig ⟨S8192x256, .f32⟩) maximumf,
    StableHlo.nullary main_cst_4 (constant S_ .f32 0x00000000#32),
    StableHlo.binary main_v29 main_cst_4 main_v30 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_5 (constant S_ .f32 0x46000000#32),
    StableHlo.unary main_cst_5 main_v31 (broadcastInDim S256 ![] bcast_S_S256 : (⟨S_, .f32⟩ : BufTy).Contents (Elt F) → (⟨S256, .f32⟩ : BufTy).Contents (Elt F)),
    StableHlo.binary main_v30 main_v31 main_v32 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary (.of main_call1_cst : StableHlo.TRef sig ⟨S_, .f32⟩) (constant S_ .f32 0x00000000#32),
    StableHlo.TRef.binary (.of main_v29 : StableHlo.TRef sig ⟨S8192x256, .f32⟩) (.of main_call1_cst : StableHlo.TRef sig ⟨S_, .f32⟩) (.of main_call1_v0 : StableHlo.TRef sig ⟨S256, .f32⟩) (fun x v => Host.reduceAdd x v reducesTo_S8192x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x46000000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S8192x256, .f32⟩) (broadcastInDim S8192x256 ![0, 1] bcast_S1x256_S8192x256_0_1),
    StableHlo.TRef.binary (.of main_v29 : StableHlo.TRef sig ⟨S8192x256, .f32⟩) (.of main_call1_v4 : StableHlo.TRef sig ⟨S8192x256, .f32⟩) (.of main_call1_v5 : StableHlo.TRef sig ⟨S8192x256, .f32⟩) subf,
    StableHlo.TRef.binary (.of main_call1_v5 : StableHlo.TRef sig ⟨S8192x256, .f32⟩) (.of main_call1_v5 : StableHlo.TRef sig ⟨S8192x256, .f32⟩) (.of main_call1_v6 : StableHlo.TRef sig ⟨S8192x256, .f32⟩) mulf,
    StableHlo.TRef.unary (.of main_c : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x46000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8192x256, .f32⟩) (.of main_call1_cst_2 : StableHlo.TRef sig ⟨S_, .f32⟩) (.of main_call1_v9 : StableHlo.TRef sig ⟨S256, .f32⟩) (fun x v => Host.reduceAdd x v reducesTo_S8192x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v33 : StableHlo.TRef sig ⟨S256, .f32⟩) (fun p a b => select (broadcastInDim S256 ![] bcast_S_S256 p) a b),
    StableHlo.unary main_v32 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S8192x256 ![0, 1] bcast_S1x256_S8192x256_0_1 : (⟨S1x256, .f32⟩ : BufTy).Contents (Elt F) → (⟨S8192x256, .f32⟩ : BufTy).Contents (Elt F)),
    StableHlo.binary main_v29 main_v35 main_v36 (subf : (⟨S8192x256, .f32⟩ : BufTy).Contents (Elt F) → (⟨S8192x256, .f32⟩ : BufTy).Contents (Elt F) → (⟨S8192x256, .f32⟩ : BufTy).Contents (Elt F)),
    StableHlo.unary main_arg7 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S8192x256 ![0, 1] bcast_S1x256_S8192x256_0_1 : (⟨S1x256, .f32⟩ : BufTy).Contents (Elt F) → (⟨S8192x256, .f32⟩ : BufTy).Contents (Elt F)),
    StableHlo.binary main_v38 main_v36 main_v39 (mulf : (⟨S8192x256, .f32⟩ : BufTy).Contents (Elt F) → (⟨S8192x256, .f32⟩ : BufTy).Contents (Elt F) → (⟨S8192x256, .f32⟩ : BufTy).Contents (Elt F)),
    StableHlo.nullary main_cst_6 (constant S_ .f32 0x3727C5AC#32),
    StableHlo.unary main_cst_6 main_v40 (broadcastInDim S256 ![] bcast_S_S256 : (⟨S_, .f32⟩ : BufTy).Contents (Elt F) → (⟨S256, .f32⟩ : BufTy).Contents (Elt F)),
    StableHlo.binary main_v33 main_v40 main_v41 (addf : (⟨S256, .f32⟩ : BufTy).Contents (Elt F) → (⟨S256, .f32⟩ : BufTy).Contents (Elt F) → (⟨S256, .f32⟩ : BufTy).Contents (Elt F)),
    StableHlo.unary main_v41 main_v42 (Host.rsqrt : (⟨S256, .f32⟩ : BufTy).Contents (Elt F) → (⟨S256, .f32⟩ : BufTy).Contents (Elt F)),
    StableHlo.unary main_v42 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S8192x256 ![0, 1] bcast_S1x256_S8192x256_0_1 : (⟨S1x256, .f32⟩ : BufTy).Contents (Elt F) → (⟨S8192x256, .f32⟩ : BufTy).Contents (Elt F)),
    StableHlo.binary main_v39 main_v44 main_v45 (mulf : (⟨S8192x256, .f32⟩ : BufTy).Contents (Elt F) → (⟨S8192x256, .f32⟩ : BufTy).Contents (Elt F) → (⟨S8192x256, .f32⟩ : BufTy).Contents (Elt F)),
    StableHlo.unary main_arg8 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S8192x256 ![0, 1] bcast_S1x256_S8192x256_0_1 : (⟨S1x256, .f32⟩ : BufTy).Contents (Elt F) → (⟨S8192x256, .f32⟩ : BufTy).Contents (Elt F)),
    StableHlo.binary main_v45 main_v47 main_v48 (addf : (⟨S8192x256, .f32⟩ : BufTy).Contents (Elt F) → (⟨S8192x256, .f32⟩ : BufTy).Contents (Elt F) → (⟨S8192x256, .f32⟩ : BufTy).Contents (Elt F)),
    StableHlo.unary main_arg9 main_v49 ((transpose S256x128 [1, 0] · transposes_S128x256_S256x128_1_0) : (⟨S128x256, .f32⟩ : BufTy).Contents (Elt F) → (⟨S256x128, .f32⟩ : BufTy).Contents (Elt F)),
    StableHlo.binary main_v48 main_v49 main_v50 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)) ]

/-- The second piece: the second layer's bias and `relu`, its batch statistics, normalization and
    affine map, and the last linear layer. -/
abbrev ops1 : List (HloOp τ sig (Elt F)) :=
  [ StableHlo.unary main_arg10 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S8192x128 ![0, 1] bcast_S1x128_S8192x128_0_1 : (⟨S1x128, .f32⟩ : BufTy).Contents (Elt F) → (⟨S8192x128, .f32⟩ : BufTy).Contents (Elt F)),
    StableHlo.binary main_v50 main_v52 main_v53 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S8192x128, .f32⟩) (broadcastInDim S8192x128 ![] bcast_S_S8192x128),
    StableHlo.TRef.binary (.of main_v53 : StableHlo.TRef sig ⟨S8192x128, .f32⟩) (.of main_call2_v0 : StableHlo.TRef sig ⟨S8192x128, .f32⟩) (.of main_v54 : StableHlo.TRef sig ⟨S8192x128, .f32⟩) maximumf,
    StableHlo.nullary main_cst_7 (constant S_ .f32 0x00000000#32),
    StableHlo.binary main_v54 main_cst_7 main_v55 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_8 (constant S_ .f32 0x46000000#32),
    StableHlo.unary main_cst_8 main_v56 (broadcastInDim S128 ![] bcast_S_S128 : (⟨S_, .f32⟩ : BufTy).Contents (Elt F) → (⟨S128, .f32⟩ : BufTy).Contents (Elt F)),
    StableHlo.binary main_v55 main_v56 main_v57 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary (.of main_call3_cst : StableHlo.TRef sig ⟨S_, .f32⟩) (constant S_ .f32 0x00000000#32),
    StableHlo.TRef.binary (.of main_v54 : StableHlo.TRef sig ⟨S8192x128, .f32⟩) (.of main_call3_cst : StableHlo.TRef sig ⟨S_, .f32⟩) (.of main_call3_v0 : StableHlo.TRef sig ⟨S128, .f32⟩) (fun x v => Host.reduceAdd x v reducesTo_S8192x128_S128_d0 h_S_),
    StableHlo.TRef.unary (.of main_call3_v0 : StableHlo.TRef sig ⟨S128, .f32⟩) (.of main_call3_v1 : StableHlo.TRef sig ⟨S1x128, .f32⟩) (broadcastInDim S1x128 ![1] bcast_S128_S1x128_1),
    StableHlo.TRef.nullary (.of main_call3_cst_0 : StableHlo.TRef sig ⟨S_, .f32⟩) (constant S_ .f32 0x46000000#32),
    StableHlo.TRef.unary (.of main_call3_cst_0 : StableHlo.TRef sig ⟨S_, .f32⟩) (.of main_call3_v2 : StableHlo.TRef sig ⟨S1x128, .f32⟩) (broadcastInDim S1x128 ![] bcast_S_S1x128),
    StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf,
    StableHlo.TRef.unary (.of main_call3_v3 : StableHlo.TRef sig ⟨S1x128, .f32⟩) (.of main_call3_v4 : StableHlo.TRef sig ⟨S8192x128, .f32⟩) (broadcastInDim S8192x128 ![0, 1] bcast_S1x128_S8192x128_0_1),
    StableHlo.TRef.binary (.of main_v54 : StableHlo.TRef sig ⟨S8192x128, .f32⟩) (.of main_call3_v4 : StableHlo.TRef sig ⟨S8192x128, .f32⟩) (.of main_call3_v5 : StableHlo.TRef sig ⟨S8192x128, .f32⟩) subf,
    StableHlo.TRef.binary (.of main_call3_v5 : StableHlo.TRef sig ⟨S8192x128, .f32⟩) (.of main_call3_v5 : StableHlo.TRef sig ⟨S8192x128, .f32⟩) (.of main_call3_v6 : StableHlo.TRef sig ⟨S8192x128, .f32⟩) mulf,
    StableHlo.TRef.unary (.of main_c_9 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x46000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S8192x128, .f32⟩) (.of main_call3_cst_2 : StableHlo.TRef sig ⟨S_, .f32⟩) (.of main_call3_v9 : StableHlo.TRef sig ⟨S128, .f32⟩) (fun x v => Host.reduceAdd x v reducesTo_S8192x128_S128_d0 h_S_),
    StableHlo.TRef.unary (.of main_call3_v8 : StableHlo.TRef sig ⟨S_, .f32⟩) (.of main_call3_v10 : StableHlo.TRef sig ⟨S128, .f32⟩) (broadcastInDim S128 ![] bcast_S_S128),
    StableHlo.TRef.binary (.of main_call3_v9 : StableHlo.TRef sig ⟨S128, .f32⟩) (.of main_call3_v10 : StableHlo.TRef sig ⟨S128, .f32⟩) (.of main_call3_v11 : StableHlo.TRef sig ⟨S128, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S128, .f32⟩) (broadcastInDim S128 ![] bcast_S_S128),
    StableHlo.TRef.ternary (.of main_call3_v12 : StableHlo.TRef sig ⟨S_, .i1⟩) (.of main_call3_v11 : StableHlo.TRef sig ⟨S128, .f32⟩) (.of main_call3_call0_v1 : StableHlo.TRef sig ⟨S128, .f32⟩) (.of main_v58 : StableHlo.TRef sig ⟨S128, .f32⟩) (fun p a b => select (broadcastInDim S128 ![] bcast_S_S128 p) a b),
    StableHlo.unary main_v57 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S8192x128 ![0, 1] bcast_S1x128_S8192x128_0_1 : (⟨S1x128, .f32⟩ : BufTy).Contents (Elt F) → (⟨S8192x128, .f32⟩ : BufTy).Contents (Elt F)),
    StableHlo.binary main_v54 main_v60 main_v61 (subf : (⟨S8192x128, .f32⟩ : BufTy).Contents (Elt F) → (⟨S8192x128, .f32⟩ : BufTy).Contents (Elt F) → (⟨S8192x128, .f32⟩ : BufTy).Contents (Elt F)),
    StableHlo.unary main_arg11 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S8192x128 ![0, 1] bcast_S1x128_S8192x128_0_1 : (⟨S1x128, .f32⟩ : BufTy).Contents (Elt F) → (⟨S8192x128, .f32⟩ : BufTy).Contents (Elt F)),
    StableHlo.binary main_v63 main_v61 main_v64 (mulf : (⟨S8192x128, .f32⟩ : BufTy).Contents (Elt F) → (⟨S8192x128, .f32⟩ : BufTy).Contents (Elt F) → (⟨S8192x128, .f32⟩ : BufTy).Contents (Elt F)),
    StableHlo.nullary main_cst_10 (constant S_ .f32 0x3727C5AC#32),
    StableHlo.unary main_cst_10 main_v65 (broadcastInDim S128 ![] bcast_S_S128 : (⟨S_, .f32⟩ : BufTy).Contents (Elt F) → (⟨S128, .f32⟩ : BufTy).Contents (Elt F)),
    StableHlo.binary main_v58 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S8192x128 ![0, 1] bcast_S1x128_S8192x128_0_1 : (⟨S1x128, .f32⟩ : BufTy).Contents (Elt F) → (⟨S8192x128, .f32⟩ : BufTy).Contents (Elt F)),
    StableHlo.binary main_v64 main_v69 main_v70 (mulf : (⟨S8192x128, .f32⟩ : BufTy).Contents (Elt F) → (⟨S8192x128, .f32⟩ : BufTy).Contents (Elt F) → (⟨S8192x128, .f32⟩ : BufTy).Contents (Elt F)),
    StableHlo.unary main_arg12 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S8192x128 ![0, 1] bcast_S1x128_S8192x128_0_1 : (⟨S1x128, .f32⟩ : BufTy).Contents (Elt F) → (⟨S8192x128, .f32⟩ : BufTy).Contents (Elt F)),
    StableHlo.binary main_v70 main_v72 main_v73 (addf : (⟨S8192x128, .f32⟩ : BufTy).Contents (Elt F) → (⟨S8192x128, .f32⟩ : BufTy).Contents (Elt F) → (⟨S8192x128, .f32⟩ : BufTy).Contents (Elt F)),
    StableHlo.unary main_arg13 main_v74 ((transpose S128x150 [1, 0] · transposes_S150x128_S128x150_1_0) : (⟨S150x128, .f32⟩ : BufTy).Contents (Elt F) → (⟨S128x150, .f32⟩ : BufTy).Contents (Elt F)),
    StableHlo.binary main_v73 main_v74 main_v75 ((fun l r => Host.dotGeneral dot_S8192x128_S128x150_S8192x150_1_0_0_1_n_n none l r) : (⟨S8192x128, .f32⟩ : BufTy).Contents (Elt F) → (⟨S128x150, .f32⟩ : BufTy).Contents (Elt F) → (⟨S8192x150, .f32⟩ : BufTy).Contents (Elt F)),
    StableHlo.unary main_arg14 main_v76 (broadcastInDim S1x150 ![1] bcast_S150_S1x150_1 : (⟨S150, .f32⟩ : BufTy).Contents (Elt F) → (⟨S1x150, .f32⟩ : BufTy).Contents (Elt F)),
    StableHlo.unary main_v76 main_v77 (broadcastInDim S8192x150 ![0, 1] bcast_S1x150_S8192x150_0_1 : (⟨S1x150, .f32⟩ : BufTy).Contents (Elt F) → (⟨S8192x150, .f32⟩ : BufTy).Contents (Elt F)),
    StableHlo.binary main_v75 main_v77 main_v78 (addf : (⟨S8192x150, .f32⟩ : BufTy).Contents (Elt F) → (⟨S8192x150, .f32⟩ : BufTy).Contents (Elt F) → (⟨S8192x150, .f32⟩ : BufTy).Contents (Elt F)) ]

/-- `@main`'s operations in order, the callees' operations inline at their call sites. -/
abbrev ops : List (HloOp τ sig (Elt F)) := ops0 ++ ops1

set_option maxRecDepth 8192 in
/-- The first window of `@main` is the first piece run in order: unfolding the called functions at
    their calls and reassociating the sequencing, both sides are one chain of steps. -/
theorem main_part0_eq (c : Dev nD) : main_part0 (F := F) c = seq ops0 := by
  simp only [main_part0, fn_relu.body, fn_var.body, fn_where.body, seq, bind_assoc, pure_bind]
  rfl

set_option maxRecDepth 8192 in
/-- The second window of `@main` is the second piece run in order. -/
theorem main_part1_eq (c : Dev nD) : main_part1 (F := F) c = seq ops1 := by
  simp only [main_part1, fn_relu_0.body, fn_var_1.body, fn_where_2.body, seq, bind_assoc, pure_bind]

/-- `@main` is the whole line: two lines run one after the other are their concatenation. -/
theorem main_eq (c : Dev nD) : main (F := F) c = seq ops := by
  show (main_part0 (F := F) c >>= fun _ => main_part1 (F := F) c) = _
  rw [main_part0_eq, main_part1_eq, seq_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨reshape_bufs_sub .., nullary_bufs_sub .., binary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub ..⟩

theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub ..⟩

/-- Every operation touches TensorCore buffers only. -/
theorem ops_sub : (ops : List (HloOp τ sig (Elt F))).Forall fun op => op.bufs ⊆ tcRefs τ sig :=
  List.forall_append.mpr ⟨ops0_sub, ops1_sub⟩

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- Every operation determines its result: none allocates. -/
theorem ops_fresh : ∀ op ∈ (ops : List (HloOp τ sig (Elt F))), op.fresh = ∅ := fun op h =>
  (List.mem_append.mp h).elim (ops0_fresh op) (ops1_fresh op)

/-- At the compiled mesh, for any float values, from any memory with zero counters: every weakly
    fair execution of `@main` terminates, and every final state has each buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

/-! ## The arguments are never written -/

/-- The buffers the first piece writes, one per operation. -/
abbrev written0 : List (Ref sig .tc) :=
  [main_v0, main_cst, main_v1, main_v2, main_v3, main_v4, main_v5, main_v6, main_v7, main_v8, main_v9, main_v10, main_cst_0, main_v11, main_cst_1, main_v12, main_v13, main_v14, main_v15, main_v16, main_v17, main_cst_2, main_v18, main_v19, main_v20, main_v21, main_v22, main_cst_3, main_v23, main_v24, main_v25, main_v26, main_v27, main_v28, main_call0_cst, main_call0_v0, main_v29, main_cst_4, main_v30, main_cst_5, main_v31, main_v32, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v33, main_v34, main_v35, main_v36, main_v37, main_v38, main_v39, main_cst_6, main_v40, main_v41, main_v42, main_v43, main_v44, main_v45, main_v46, main_v47, main_v48, main_v49, main_v50]

/-- The buffers the second piece writes, one per operation. -/
abbrev written1 : List (Ref sig .tc) :=
  [main_v51, main_v52, main_v53, main_call2_cst, main_call2_v0, main_v54, main_cst_7, main_v55, main_cst_8, main_v56, main_v57, main_c_9, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v58, main_v59, main_v60, main_v61, main_v62, main_v63, main_v64, main_cst_10, main_v65, main_v66, main_v67, main_v68, main_v69, main_v70, main_v71, main_v72, main_v73, main_v74, main_v75, main_v76, main_v77, main_v78]

/-- Every buffer the line writes. -/
abbrev written : List (Ref sig .tc) := written0 ++ written1

theorem ops0_writes : (ops0 : List (HloOp τ sig (Elt F))).Forall fun op =>
    op.writes ⊆ ((written0.map (Proc.devRef (τ := τ) .tc)).toFinset : Finset (DevRef τ sig)) := by
  simp only [List.Forall, nullary_writes, unary_writes, binary_writes, ternary_writes, reshape_writes,
    Finset.singleton_subset_iff, List.mem_toFinset]
  repeat' apply And.intro
  all_goals exact List.mem_map.mpr ⟨_, by decide, rfl⟩

theorem ops1_writes : (ops1 : List (HloOp τ sig (Elt F))).Forall fun op =>
    op.writes ⊆ ((written1.map (Proc.devRef (τ := τ) .tc)).toFinset : Finset (DevRef τ sig)) := by
  simp only [List.Forall, nullary_writes, unary_writes, binary_writes, ternary_writes, reshape_writes,
    Finset.singleton_subset_iff, List.mem_toFinset]
  repeat' apply And.intro
  all_goals exact List.mem_map.mpr ⟨_, by decide, rfl⟩

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A buffer outside the written ones holds, after the whole line, what it held before. -/
theorem after_of_not_written (V : Valuation τ sig (Elt F)) {r : Ref sig .tc} (h0 : r ∉ written0) (h1 : r ∉ written1) :
    after ops V (Proc.devRef .tc r) = V (Proc.devRef .tc r) := by
  rw [after_append, after_of_writes_sub ops1 _ ops1_writes h1, after_of_writes_sub ops0 _ ops0_writes h0]

theorem arg0_eq (V : Valuation τ sig (Elt F)) : after ops V (main_arg0 : DevRef τ sig) = V (main_arg0 : DevRef τ sig) :=
  after_of_not_written V (by decide) (by decide)
theorem arg1_eq (V : Valuation τ sig (Elt F)) : after ops V (main_arg1 : DevRef τ sig) = V (main_arg1 : DevRef τ sig) :=
  after_of_not_written V (by decide) (by decide)
theorem arg2_eq (V : Valuation τ sig (Elt F)) : after ops V (main_arg2 : DevRef τ sig) = V (main_arg2 : DevRef τ sig) :=
  after_of_not_written V (by decide) (by decide)
theorem arg3_eq (V : Valuation τ sig (Elt F)) : after ops V (main_arg3 : DevRef τ sig) = V (main_arg3 : DevRef τ sig) :=
  after_of_not_written V (by decide) (by decide)
theorem arg4_eq (V : Valuation τ sig (Elt F)) : after ops V (main_arg4 : DevRef τ sig) = V (main_arg4 : DevRef τ sig) :=
  after_of_not_written V (by decide) (by decide)
theorem arg5_eq (V : Valuation τ sig (Elt F)) : after ops V (main_arg5 : DevRef τ sig) = V (main_arg5 : DevRef τ sig) :=
  after_of_not_written V (by decide) (by decide)
theorem arg6_eq (V : Valuation τ sig (Elt F)) : after ops V (main_arg6 : DevRef τ sig) = V (main_arg6 : DevRef τ sig) :=
  after_of_not_written V (by decide) (by decide)
theorem arg7_eq (V : Valuation τ sig (Elt F)) : after ops V (main_arg7 : DevRef τ sig) = V (main_arg7 : DevRef τ sig) :=
  after_of_not_written V (by decide) (by decide)
theorem arg8_eq (V : Valuation τ sig (Elt F)) : after ops V (main_arg8 : DevRef τ sig) = V (main_arg8 : DevRef τ sig) :=
  after_of_not_written V (by decide) (by decide)
theorem arg9_eq (V : Valuation τ sig (Elt F)) : after ops V (main_arg9 : DevRef τ sig) = V (main_arg9 : DevRef τ sig) :=
  after_of_not_written V (by decide) (by decide)
theorem arg10_eq (V : Valuation τ sig (Elt F)) : after ops V (main_arg10 : DevRef τ sig) = V (main_arg10 : DevRef τ sig) :=
  after_of_not_written V (by decide) (by decide)
theorem arg11_eq (V : Valuation τ sig (Elt F)) : after ops V (main_arg11 : DevRef τ sig) = V (main_arg11 : DevRef τ sig) :=
  after_of_not_written V (by decide) (by decide)
theorem arg12_eq (V : Valuation τ sig (Elt F)) : after ops V (main_arg12 : DevRef τ sig) = V (main_arg12 : DevRef τ sig) :=
  after_of_not_written V (by decide) (by decide)
theorem arg13_eq (V : Valuation τ sig (Elt F)) : after ops V (main_arg13 : DevRef τ sig) = V (main_arg13 : DevRef τ sig) :=
  after_of_not_written V (by decide) (by decide)
theorem arg14_eq (V : Valuation τ sig (Elt F)) : after ops V (main_arg14 : DevRef τ sig) = V (main_arg14 : DevRef τ sig) :=
  after_of_not_written V (by decide) (by decide)

end Cert.ReferenceIdeal.Hand

end
-- ==== Proof.RefFrame.lean ====
import proofs.«142875_j90099823936041_2_alg».proof.Defs
import proofs.«142875_j90099823936041_2_alg».proof.Proof.Gen.Pre_finite_inputs
import proofs.«142875_j90099823936041_2_alg».proof.Proof.RefRun

/-!
# The reference runs and leaves its arguments as they were

The run of the reference (every execution terminates, each buffer ending at the fold of the
operations over the launch contents), read at the fifteen argument buffers: none of them is written
by any operation, so each ends at its launch contents.
-/

noncomputable section

namespace Cert.ReferenceIdeal.Hand

open Cert.ReferenceIdeal Idealize.ShloMosaic Idealize.SL.Sem

theorem frame_ri : Cert.frame_ReferenceIdeal := by
  intro m ρ _
  exact (θ_run Cert.ReferenceIdeal.defs _ _).mono
    (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_main (F := Ideal) m ρ)

end Cert.ReferenceIdeal.Hand

end
-- ==== Proof.RefValue.lean ====
import proofs.«142875_j90099823936041_2_alg».proof.Proof.RefRun
import proofs.«142875_j90099823936041_2_alg».proof.Proof.SkTail
import Idealize.ShloMosaic.PureOps.Ideal

/-!
# The reference's result as a function of its arguments

The reference's result buffer, after the whole line of operations, is the classifier head applied
to the attended feature. The feature is stated here stage by stage, each stage the composed
term of the operations that produce it:

* the input row cut into its 19 branches of 768 channels;
* the branches summed;
* the squeeze to 384 channels (a product with the transposed weight, plus the bias);
* one score per branch and channel (a product contracting the 384 channels, plus the bias);
* the largest score over the branches;
* the exponential of each score less the largest, and the sum of these over the branches;
* the branches weighted by the normalised exponentials, summed.

The line is read back in three consecutive parts — the feature; the first layer with its
normalisation and the second layer's product; the rest — each part's result a small term of
what the part before it left.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The feature, stage by stage -/

/-- The input row of 14592 = 19 · 768 entries cut into 19 branches of 768 channels. -/
def rX (x : FVec F S8192x14592 .f32) : FVec F S8192x19x768 .f32 :=
  fun i => shapeCast S8192x19x768 x shapeCasts_S8192x14592_S8192x19x768 i

/-- The branches summed. -/
def rU (x : FVec F S8192x14592 .f32) : FVec F S8192x768 .f32 :=
  Host.reduceAdd (rX x) (constant S_ .f32 0x00000000#32) reducesTo_S8192x19x768_S8192x768_d1 h_S_

/-- The squeeze: the summed branches times the transposed weight, plus the bias on every row. -/
def rZ (x : FVec F S8192x14592 .f32) (wfc : FVec F S384x768 .f32) (bfc : FVec F S384 .f32) : FVec F S8192x384 .f32 :=
  addf (Host.dotGeneral dot_S8192x768_S768x384_S8192x384_1_0_0_1_n_n none (rU x) (transpose S768x384 [1, 0] wfc transposes_S384x768_S768x384_1_0))
    (broadcastInDim S8192x384 ![0, 1] bcast_S1x384_S8192x384_0_1 (broadcastInDim S1x384 ![1] bcast_S384_S1x384_1 bfc))

/-- The scores: the squeezed row against each branch's weight, contracting the 384 channels, plus the bias. -/
def rS (x : FVec F S8192x14592 .f32) (wfc : FVec F S384x768 .f32) (bfc : FVec F S384 .f32) (wbr : FVec F S19x768x384 .f32)
    (bbr : FVec F S19x768 .f32) : FVec F S8192x19x768 .f32 :=
  addf (Host.dotGeneral dot_S8192x384_S19x768x384_S8192x19x768_1_2_0_01_n_n none (rZ x wfc bfc) wbr)
    (broadcastInDim S8192x19x768 ![0, 1, 2] bcast_S1x19x768_S8192x19x768_0_1_2 (broadcastInDim S1x19x768 ![1, 2] bcast_S19x768_S1x19x768_1_2 bbr))

/-- The largest score over the branches (the maximum with minus infinity changes nothing). -/
def rM (x : FVec F S8192x14592 .f32) (wfc : FVec F S384x768 .f32) (bfc : FVec F S384 .f32) (wbr : FVec F S19x768x384 .f32)
    (bbr : FVec F S19x768 .f32) : FVec F S8192x768 .f32 :=
  maximumf (broadcastInDim S8192x768 ![] bcast_S_S8192x768 (constant S_ .f32 0xFF800000#32))
    (Host.reduce FloatOps.maximumf (rS x wfc bfc wbr bbr) (constant S_ .f32 0xFF800000#32) reducesTo_S8192x19x768_S8192x768_d1 h_S_)

/-- A per-row, per-channel value repeated over the 19 branches. -/
def rSpread (v : FVec F S8192x768 .f32) : FVec F S8192x19x768 .f32 :=
  broadcastInDim S8192x19x768 ![0, 1, 2] bcast_S8192x1x768_S8192x19x768_0_1_2 (broadcastInDim S8192x1x768 ![0, 2] bcast_S8192x768_S8192x1x768_0_2 v)

/-- The exponential of each score less the largest. -/
def rE (x : FVec F S8192x14592 .f32) (wfc : FVec F S384x768 .f32) (bfc : FVec F S384 .f32) (wbr : FVec F S19x768x384 .f32)
    (bbr : FVec F S19x768 .f32) : FVec F S8192x19x768 .f32 :=
  Host.exp (subf (rS x wfc bfc wbr bbr) (rSpread (rM x wfc bfc wbr bbr)))

/-- The softmax denominator: those exponentials summed over the branches. -/
def rD (x : FVec F S8192x14592 .f32) (wfc : FVec F S384x768 .f32) (bfc : FVec F S384 .f32) (wbr : FVec F S19x768x384 .f32)
    (bbr : FVec F S19x768 .f32) : FVec F S8192x768 .f32 :=
  Host.reduceAdd (rE x wfc bfc wbr bbr) (constant S_ .f32 0x00000000#32) reducesTo_S8192x19x768_S8192x768_d1 h_S_

/-- The attended feature: each branch times its normalised weight, summed over the branches. -/
def refFea (x : FVec F S8192x14592 .f32) (wfc : FVec F S384x768 .f32) (bfc : FVec F S384 .f32) (wbr : FVec F S19x768x384 .f32)
    (bbr : FVec F S19x768 .f32) : FVec F S8192x768 .f32 :=
  Host.reduceAdd (mulf (rX x) (Host.divf (rE x wfc bfc wbr bbr) (rSpread (rD x wfc bfc wbr bbr))))
    (constant S_ .f32 0x00000000#32) reducesTo_S8192x19x768_S8192x768_d1 h_S_

/-! ## The line in three parts -/

/-- The operations that produce the feature. -/
abbrev opsA : List (HloOp τ sig (Elt F)) :=
  [ StableHlo.reshape main_arg0 main_v0 rfl shapeCasts_S8192x14592_S8192x19x768,
    StableHlo.nullary main_cst (constant S_ .f32 0x00000000#32),
    StableHlo.binary main_v0 main_cst main_v1 ((fun x v => Host.reduceAdd x v reducesTo_S8192x19x768_S8192x768_d1 h_S_) : (⟨S8192x19x768, .f32⟩ : BufTy).Contents (Elt F) → (⟨S_, .f32⟩ : BufTy).Contents (Elt F) → (⟨S8192x768, .f32⟩ : BufTy).Contents (Elt F)),
    StableHlo.unary main_arg1 main_v2 ((transpose S768x384 [1, 0] · transposes_S384x768_S768x384_1_0) : (⟨S384x768, .f32⟩ : BufTy).Contents (Elt F) → (⟨S768x384, .f32⟩ : BufTy).Contents (Elt F)),
    StableHlo.binary main_v1 main_v2 main_v3 ((fun l r => Host.dotGeneral dot_S8192x768_S768x384_S8192x384_1_0_0_1_n_n none l r) : (⟨S8192x768, .f32⟩ : BufTy).Contents (Elt F) → (⟨S768x384, .f32⟩ : BufTy).Contents (Elt F) → (⟨S8192x384, .f32⟩ : BufTy).Contents (Elt F)),
    StableHlo.unary main_arg2 main_v4 (broadcastInDim S1x384 ![1] bcast_S384_S1x384_1 : (⟨S384, .f32⟩ : BufTy).Contents (Elt F) → (⟨S1x384, .f32⟩ : BufTy).Contents (Elt F)),
    StableHlo.unary main_v4 main_v5 (broadcastInDim S8192x384 ![0, 1] bcast_S1x384_S8192x384_0_1 : (⟨S1x384, .f32⟩ : BufTy).Contents (Elt F) → (⟨S8192x384, .f32⟩ : BufTy).Contents (Elt F)),
    StableHlo.binary main_v3 main_v5 main_v6 (addf : (⟨S8192x384, .f32⟩ : BufTy).Contents (Elt F) → (⟨S8192x384, .f32⟩ : BufTy).Contents (Elt F) → (⟨S8192x384, .f32⟩ : BufTy).Contents (Elt F)),
    StableHlo.binary main_v6 main_arg3 main_v7 ((fun l r => Host.dotGeneral dot_S8192x384_S19x768x384_S8192x19x768_1_2_0_01_n_n none l r) : (⟨S8192x384, .f32⟩ : BufTy).Contents (Elt F) → (⟨S19x768x384, .f32⟩ : BufTy).Contents (Elt F) → (⟨S8192x19x768, .f32⟩ : BufTy).Contents (Elt F)),
    StableHlo.unary main_arg4 main_v8 (broadcastInDim S1x19x768 ![1, 2] bcast_S19x768_S1x19x768_1_2 : (⟨S19x768, .f32⟩ : BufTy).Contents (Elt F) → (⟨S1x19x768, .f32⟩ : BufTy).Contents (Elt F)),
    StableHlo.unary main_v8 main_v9 (broadcastInDim S8192x19x768 ![0, 1, 2] bcast_S1x19x768_S8192x19x768_0_1_2 : (⟨S1x19x768, .f32⟩ : BufTy).Contents (Elt F) → (⟨S8192x19x768, .f32⟩ : BufTy).Contents (Elt F)),
    StableHlo.binary main_v7 main_v9 main_v10 (addf : (⟨S8192x19x768, .f32⟩ : BufTy).Contents (Elt F) → (⟨S8192x19x768, .f32⟩ : BufTy).Contents (Elt F) → (⟨S8192x19x768, .f32⟩ : BufTy).Contents (Elt F)),
    StableHlo.nullary main_cst_0 (constant S_ .f32 0xFF800000#32),
    StableHlo.binary main_v10 main_cst_0 main_v11 ((fun x v => Host.reduce FloatOps.maximumf x v reducesTo_S8192x19x768_S8192x768_d1 h_S_) : (⟨S8192x19x768, .f32⟩ : BufTy).Contents (Elt F) → (⟨S_, .f32⟩ : BufTy).Contents (Elt F) → (⟨S8192x768, .f32⟩ : BufTy).Contents (Elt F)),
    StableHlo.nullary main_cst_1 (constant S_ .f32 0xFF800000#32),
    StableHlo.unary main_cst_1 main_v12 (broadcastInDim S8192x768 ![] bcast_S_S8192x768 : (⟨S_, .f32⟩ : BufTy).Contents (Elt F) → (⟨S8192x768, .f32⟩ : BufTy).Contents (Elt F)),
    StableHlo.binary main_v12 main_v11 main_v13 (maximumf : (⟨S8192x768, .f32⟩ : BufTy).Contents (Elt F) → (⟨S8192x768, .f32⟩ : BufTy).Contents (Elt F) → (⟨S8192x768, .f32⟩ : BufTy).Contents (Elt F)),
    StableHlo.unary main_v13 main_v14 (broadcastInDim S8192x1x768 ![0, 2] bcast_S8192x768_S8192x1x768_0_2 : (⟨S8192x768, .f32⟩ : BufTy).Contents (Elt F) → (⟨S8192x1x768, .f32⟩ : BufTy).Contents (Elt F)),
    StableHlo.unary main_v14 main_v15 (broadcastInDim S8192x19x768 ![0, 1, 2] bcast_S8192x1x768_S8192x19x768_0_1_2 : (⟨S8192x1x768, .f32⟩ : BufTy).Contents (Elt F) → (⟨S8192x19x768, .f32⟩ : BufTy).Contents (Elt F)),
    StableHlo.binary main_v10 main_v15 main_v16 (subf : (⟨S8192x19x768, .f32⟩ : BufTy).Contents (Elt F) → (⟨S8192x19x768, .f32⟩ : BufTy).Contents (Elt F) → (⟨S8192x19x768, .f32⟩ : BufTy).Contents (Elt F)),
    StableHlo.unary main_v16 main_v17 (Host.exp : (⟨S8192x19x768, .f32⟩ : BufTy).Contents (Elt F) → (⟨S8192x19x768, .f32⟩ : BufTy).Contents (Elt F)),
    StableHlo.nullary main_cst_2 (constant S_ .f32 0x00000000#32),
    StableHlo.binary main_v17 main_cst_2 main_v18 ((fun x v => Host.reduceAdd x v reducesTo_S8192x19x768_S8192x768_d1 h_S_) : (⟨S8192x19x768, .f32⟩ : BufTy).Contents (Elt F) → (⟨S_, .f32⟩ : BufTy).Contents (Elt F) → (⟨S8192x768, .f32⟩ : BufTy).Contents (Elt F)),
    StableHlo.unary main_v18 main_v19 (broadcastInDim S8192x1x768 ![0, 2] bcast_S8192x768_S8192x1x768_0_2 : (⟨S8192x768, .f32⟩ : BufTy).Contents (Elt F) → (⟨S8192x1x768, .f32⟩ : BufTy).Contents (Elt F)),
    StableHlo.unary main_v19 main_v20 (broadcastInDim S8192x19x768 ![0, 1, 2] bcast_S8192x1x768_S8192x19x768_0_1_2 : (⟨S8192x1x768, .f32⟩ : BufTy).Contents (Elt F) → (⟨S8192x19x768, .f32⟩ : BufTy).Contents (Elt F)),
    StableHlo.binary main_v17 main_v20 main_v21 (Host.divf : (⟨S8192x19x768, .f32⟩ : BufTy).Contents (Elt F) → (⟨S8192x19x768, .f32⟩ : BufTy).Contents (Elt F) → (⟨S8192x19x768, .f32⟩ : BufTy).Contents (Elt F)),
    StableHlo.binary main_v0 main_v21 main_v22 (mulf : (⟨S8192x19x768, .f32⟩ : BufTy).Contents (Elt F) → (⟨S8192x19x768, .f32⟩ : BufTy).Contents (Elt F) → (⟨S8192x19x768, .f32⟩ : BufTy).Contents (Elt F)),
    StableHlo.nullary main_cst_3 (constant S_ .f32 0x00000000#32),
    StableHlo.binary main_v22 main_cst_3 main_v23 ((fun x v => Host.reduceAdd x v reducesTo_S8192x19x768_S8192x768_d1 h_S_) : (⟨S8192x19x768, .f32⟩ : BufTy).Contents (Elt F) → (⟨S_, .f32⟩ : BufTy).Contents (Elt F) → (⟨S8192x768, .f32⟩ : BufTy).Contents (Elt F)) ]

/-- The first layer, its normalisation, and the second layer's product. -/
abbrev opsB : List (HloOp τ sig (Elt F)) :=
  [ StableHlo.unary main_arg5 main_v24 ((transpose S768x256 [1, 0] · transposes_S256x768_S768x256_1_0) : (⟨S256x768, .f32⟩ : BufTy).Contents (Elt F) → (⟨S768x256, .f32⟩ : BufTy).Contents (Elt F)),
    StableHlo.binary main_v23 main_v24 main_v25 ((fun l r => Host.dotGeneral dot_S8192x768_S768x256_S8192x256_1_0_0_1_n_n none l r) : (⟨S8192x768, .f32⟩ : BufTy).Contents (Elt F) → (⟨S768x256, .f32⟩ : BufTy).Contents (Elt F) → (⟨S8192x256, .f32⟩ : BufTy).Contents (Elt F)),
    StableHlo.unary main_arg6 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S8192x256 ![0, 1] bcast_S1x256_S8192x256_0_1 : (⟨S1x256, .f32⟩ : BufTy).Contents (Elt F) → (⟨S8192x256, .f32⟩ : BufTy).Contents (Elt F)),
    StableHlo.binary main_v25 main_v27 main_v28 (addf : (⟨S8192x256, .f32⟩ : BufTy).Contents (Elt F) → (⟨S8192x256, .f32⟩ : BufTy).Contents (Elt F) → (⟨S8192x256, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S8192x256, .f32⟩) (broadcastInDim S8192x256 ![] bcast_S_S8192x256),
    StableHlo.TRef.binary (.of main_v28 : StableHlo.TRef sig ⟨S8192x256, .f32⟩) (.of main_call0_v0 : StableHlo.TRef sig ⟨S8192x256, .f32⟩) (.of main_v29 : StableHlo.TRef sig ⟨S8192x256, .f32⟩) maximumf,
    StableHlo.nullary main_cst_4 (constant S_ .f32 0x00000000#32),
    StableHlo.binary main_v29 main_cst_4 main_v30 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_5 (constant S_ .f32 0x46000000#32),
    StableHlo.unary main_cst_5 main_v31 (broadcastInDim S256 ![] bcast_S_S256 : (⟨S_, .f32⟩ : BufTy).Contents (Elt F) → (⟨S256, .f32⟩ : BufTy).Contents (Elt F)),
    StableHlo.binary main_v30 main_v31 main_v32 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary (.of main_call1_cst : StableHlo.TRef sig ⟨S_, .f32⟩) (constant S_ .f32 0x00000000#32),
    StableHlo.TRef.binary (.of main_v29 : StableHlo.TRef sig ⟨S8192x256, .f32⟩) (.of main_call1_cst : StableHlo.TRef sig ⟨S_, .f32⟩) (.of main_call1_v0 : StableHlo.TRef sig ⟨S256, .f32⟩) (fun x v => Host.reduceAdd x v reducesTo_S8192x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x46000000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S8192x256, .f32⟩) (broadcastInDim S8192x256 ![0, 1] bcast_S1x256_S8192x256_0_1),
    StableHlo.TRef.binary (.of main_v29 : StableHlo.TRef sig ⟨S8192x256, .f32⟩) (.of main_call1_v4 : StableHlo.TRef sig ⟨S8192x256, .f32⟩) (.of main_call1_v5 : StableHlo.TRef sig ⟨S8192x256, .f32⟩) subf,
    StableHlo.TRef.binary (.of main_call1_v5 : StableHlo.TRef sig ⟨S8192x256, .f32⟩) (.of main_call1_v5 : StableHlo.TRef sig ⟨S8192x256, .f32⟩) (.of main_call1_v6 : StableHlo.TRef sig ⟨S8192x256, .f32⟩) mulf,
    StableHlo.TRef.unary (.of main_c : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x46000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8192x256, .f32⟩) (.of main_call1_cst_2 : StableHlo.TRef sig ⟨S_, .f32⟩) (.of main_call1_v9 : StableHlo.TRef sig ⟨S256, .f32⟩) (fun x v => Host.reduceAdd x v reducesTo_S8192x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v33 : StableHlo.TRef sig ⟨S256, .f32⟩) (fun p a b => select (broadcastInDim S256 ![] bcast_S_S256 p) a b),
    StableHlo.unary main_v32 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S8192x256 ![0, 1] bcast_S1x256_S8192x256_0_1 : (⟨S1x256, .f32⟩ : BufTy).Contents (Elt F) → (⟨S8192x256, .f32⟩ : BufTy).Contents (Elt F)),
    StableHlo.binary main_v29 main_v35 main_v36 (subf : (⟨S8192x256, .f32⟩ : BufTy).Contents (Elt F) → (⟨S8192x256, .f32⟩ : BufTy).Contents (Elt F) → (⟨S8192x256, .f32⟩ : BufTy).Contents (Elt F)),
    StableHlo.unary main_arg7 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S8192x256 ![0, 1] bcast_S1x256_S8192x256_0_1 : (⟨S1x256, .f32⟩ : BufTy).Contents (Elt F) → (⟨S8192x256, .f32⟩ : BufTy).Contents (Elt F)),
    StableHlo.binary main_v38 main_v36 main_v39 (mulf : (⟨S8192x256, .f32⟩ : BufTy).Contents (Elt F) → (⟨S8192x256, .f32⟩ : BufTy).Contents (Elt F) → (⟨S8192x256, .f32⟩ : BufTy).Contents (Elt F)),
    StableHlo.nullary main_cst_6 (constant S_ .f32 0x3727C5AC#32),
    StableHlo.unary main_cst_6 main_v40 (broadcastInDim S256 ![] bcast_S_S256 : (⟨S_, .f32⟩ : BufTy).Contents (Elt F) → (⟨S256, .f32⟩ : BufTy).Contents (Elt F)),
    StableHlo.binary main_v33 main_v40 main_v41 (addf : (⟨S256, .f32⟩ : BufTy).Contents (Elt F) → (⟨S256, .f32⟩ : BufTy).Contents (Elt F) → (⟨S256, .f32⟩ : BufTy).Contents (Elt F)),
    StableHlo.unary main_v41 main_v42 (Host.rsqrt : (⟨S256, .f32⟩ : BufTy).Contents (Elt F) → (⟨S256, .f32⟩ : BufTy).Contents (Elt F)),
    StableHlo.unary main_v42 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S8192x256 ![0, 1] bcast_S1x256_S8192x256_0_1 : (⟨S1x256, .f32⟩ : BufTy).Contents (Elt F) → (⟨S8192x256, .f32⟩ : BufTy).Contents (Elt F)),
    StableHlo.binary main_v39 main_v44 main_v45 (mulf : (⟨S8192x256, .f32⟩ : BufTy).Contents (Elt F) → (⟨S8192x256, .f32⟩ : BufTy).Contents (Elt F) → (⟨S8192x256, .f32⟩ : BufTy).Contents (Elt F)),
    StableHlo.unary main_arg8 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S8192x256 ![0, 1] bcast_S1x256_S8192x256_0_1 : (⟨S1x256, .f32⟩ : BufTy).Contents (Elt F) → (⟨S8192x256, .f32⟩ : BufTy).Contents (Elt F)),
    StableHlo.binary main_v45 main_v47 main_v48 (addf : (⟨S8192x256, .f32⟩ : BufTy).Contents (Elt F) → (⟨S8192x256, .f32⟩ : BufTy).Contents (Elt F) → (⟨S8192x256, .f32⟩ : BufTy).Contents (Elt F)),
    StableHlo.unary main_arg9 main_v49 ((transpose S256x128 [1, 0] · transposes_S128x256_S256x128_1_0) : (⟨S128x256, .f32⟩ : BufTy).Contents (Elt F) → (⟨S256x128, .f32⟩ : BufTy).Contents (Elt F)),
    StableHlo.binary main_v48 main_v49 main_v50 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)) ]

theorem ops0_split : (ops0 : List (HloOp τ sig (Elt F))) = opsA ++ opsB := rfl

theorem opsA_writes : (opsA : List (HloOp τ sig (Elt F))).Forall fun op =>
    op.writes ⊆ ((written0.map (Proc.devRef (τ := τ) .tc)).toFinset : Finset (DevRef τ sig)) := by
  have h := ops0_writes (F := F); rw [ops0_split] at h; exact (List.forall_append.mp h).1

theorem keepA_5 (V : Valuation τ sig (Elt F)) : after opsA V (main_arg5 : DevRef τ sig) = V (main_arg5 : DevRef τ sig) :=
  after_of_writes_sub opsA V opsA_writes (by decide)
theorem keepA_6 (V : Valuation τ sig (Elt F)) : after opsA V (main_arg6 : DevRef τ sig) = V (main_arg6 : DevRef τ sig) :=
  after_of_writes_sub opsA V opsA_writes (by decide)
theorem keepA_7 (V : Valuation τ sig (Elt F)) : after opsA V (main_arg7 : DevRef τ sig) = V (main_arg7 : DevRef τ sig) :=
  after_of_writes_sub opsA V opsA_writes (by decide)
theorem keepA_8 (V : Valuation τ sig (Elt F)) : after opsA V (main_arg8 : DevRef τ sig) = V (main_arg8 : DevRef τ sig) :=
  after_of_writes_sub opsA V opsA_writes (by decide)
theorem keepA_9 (V : Valuation τ sig (Elt F)) : after opsA V (main_arg9 : DevRef τ sig) = V (main_arg9 : DevRef τ sig) :=
  after_of_writes_sub opsA V opsA_writes (by decide)
theorem keep0_10 (V : Valuation τ sig (Elt F)) : after ops0 V (main_arg10 : DevRef τ sig) = V (main_arg10 : DevRef τ sig) :=
  after_of_writes_sub ops0 V ops0_writes (by decide)
theorem keep0_11 (V : Valuation τ sig (Elt F)) : after ops0 V (main_arg11 : DevRef τ sig) = V (main_arg11 : DevRef τ sig) :=
  after_of_writes_sub ops0 V ops0_writes (by decide)
theorem keep0_12 (V : Valuation τ sig (Elt F)) : after ops0 V (main_arg12 : DevRef τ sig) = V (main_arg12 : DevRef τ sig) :=
  after_of_writes_sub ops0 V ops0_writes (by decide)
theorem keep0_13 (V : Valuation τ sig (Elt F)) : after ops0 V (main_arg13 : DevRef τ sig) = V (main_arg13 : DevRef τ sig) :=
  after_of_writes_sub ops0 V ops0_writes (by decide)
theorem keep0_14 (V : Valuation τ sig (Elt F)) : after ops0 V (main_arg14 : DevRef τ sig) = V (main_arg14 : DevRef τ sig) :=
  after_of_writes_sub ops0 V ops0_writes (by decide)

attribute [local irreducible] Host.reduce Host.reduceAdd Host.divf Host.rsqrt Host.exp in
set_option maxRecDepth 8192 in
/-- After the first part the feature's buffer holds the feature of the arguments. -/
theorem feaA (V : Valuation τ sig (Elt F)) :
    after opsA V (main_v23 : DevRef τ sig) = refFea (V (main_arg0 : DevRef τ sig)) (V (main_arg1 : DevRef τ sig)) (V (main_arg2 : DevRef τ sig)) (V (main_arg3 : DevRef τ sig)) (V (main_arg4 : DevRef τ sig)) := by
  after_results_simp
  rfl

attribute [local irreducible] Host.reduce Host.reduceAdd Host.divf Host.rsqrt Host.exp in
set_option maxRecDepth 8192 in
/-- After the second part: the second layer's product of the normalised first layer, from what the first part left. -/
theorem midB (W : Valuation τ sig (Elt F)) :
    after opsB W (main_v50 : DevRef τ sig)
      = Host.dotGeneral dot_S8192x256_S256x128_S8192x128_1_0_0_1_n_n none
          (Cert.SkTail.bn256 (Cert.SkTail.lin1 (W (main_v23 : DevRef τ sig)) (W (main_arg5 : DevRef τ sig)) (W (main_arg6 : DevRef τ sig))) (W (main_arg7 : DevRef τ sig)) (W (main_arg8 : DevRef τ sig)))
          (transpose S256x128 [1, 0] (W (main_arg9 : DevRef τ sig)) transposes_S128x256_S256x128_1_0) := by
  after_results_simp
  rfl

attribute [local irreducible] Host.reduce Host.reduceAdd Host.divf Host.rsqrt Host.exp in
set_option maxRecDepth 8192 in
/-- After the third part: the rest of the classifier head, from what the second part left. -/
theorem endC (W : Valuation τ sig (Elt F)) :
    after ops1 W (main_v78 : DevRef τ sig)
      = Cert.SkTail.lin3 (Cert.SkTail.bn128
          (maximumf (addf (W (main_v50 : DevRef τ sig)) (broadcastInDim S8192x128 ![0, 1] bcast_S1x128_S8192x128_0_1 (broadcastInDim S1x128 ![1] bcast_S128_S1x128_1 (W (main_arg10 : DevRef τ sig)))))
            (broadcastInDim S8192x128 ![] bcast_S_S8192x128 (constant S_ .f32 0x00000000#32)))
          (W (main_arg11 : DevRef τ sig)) (W (main_arg12 : DevRef τ sig))) (W (main_arg13 : DevRef τ sig)) (W (main_arg14 : DevRef τ sig)) := by
  after_results_simp
  rfl

/-- THE RESULT: after the whole line the result buffer holds the classifier head of the feature of the
    first five arguments and the ten classifier parameters. -/
theorem result_eq (V : Valuation τ sig (Elt F)) :
    after ops V (main_v78 : DevRef τ sig)
      = Cert.SkTail.tail (refFea (V (main_arg0 : DevRef τ sig)) (V (main_arg1 : DevRef τ sig)) (V (main_arg2 : DevRef τ sig)) (V (main_arg3 : DevRef τ sig)) (V (main_arg4 : DevRef τ sig)))
          (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_append, endC, keep0_10, keep0_11, keep0_12, keep0_13, keep0_14, ops0_split, after_append, midB, feaA,
    keepA_5, keepA_6, keepA_7, keepA_8, keepA_9]
  rfl

/-- The run read at the result and at the arguments: every execution of the reference at the ideal
    values terminates with the result buffer at the classifier head of the feature of the launch contents
    and the fifteen arguments as launched. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78)
        = Cert.SkTail.tail (F := Ideal) (refFea (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono
    (fun _ h c => ⟨(h c main_v78).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_main (F := Ideal) m ρ)

end Cert.ReferenceIdeal.Hand

end
-- ==== Proof.LibRank3Middle.lean ====
import Idealize.ShloMosaic.Lib.ValueIdx
import Idealize.ShloMosaic.Lib.Pipeline.Value
import Idealize.ShloMosaic.PureOps.Ideal.Laws

/-!
# Rank-3 arrays along their middle axis, and a running maximum of real numbers

Three facts that hold for any sizes.

* A reduction of a rank-3 array `[n0, n1, n2]` along its middle axis to `[n0, n2]`: over a result index `(p, q)`
  the source index whose reduced coordinate is `k` is `(p, k, q)`. With it a lane sum or a lane maximum along the
  middle axis reads, on the extended reals, as the sum or the fold of max over `k` of the source at `(p, k, q)`.
* A broadcast between two rank-3 shapes read at `(p, q, r)`: the operand at the same coordinates, `0` on each of
  its unit axes.
* Folding `max` from minus infinity over a nonempty finite family of coerced real numbers gives the coercion of
  the family's supremum: a running maximum started at minus infinity is a real number as soon as one real has
  been seen.
-/

noncomputable section

namespace Cert.Lib.Rank3Middle

open Idealize.ShloMosaic Idealize.ShloMosaic.ValueIdx

/-- Over a result index `(p, q)` of a reduction along the middle axis, the source index with coordinate `k` on
    the reduced axis is `(p, k, q)`. -/
theorem lift_mid {n0 n1 n2 : ℕ} (h : (⟨3, ![n0, n1, n2]⟩ : Shape).Reduces [(1 : Fin 3)] ⟨2, ![n0, n2]⟩) (p : Fin n0) (q : Fin n2)
    (k : Fin ((⟨3, ![n0, n1, n2]⟩ : Shape).size 1)) : h.lift (ix2 p q) k = ix3 p (k : Fin n1) q := by
  funext c; apply Fin.ext; rw [h.lift_val]
  match c with
  | ⟨0, _⟩ => rfl
  | ⟨1, _⟩ => rfl
  | ⟨2, _⟩ => rfl

/-- A rank-3 broadcast read at `(p, q, r)`: the operand at the same coordinates, zero on its unit axes. -/
theorem bcast3_apply {α : Type} {a b c a' b' c' : ℕ} (v : (⟨3, ![a, b, c]⟩ : Shape).Idx → α)
    (h : (⟨3, ![a, b, c]⟩ : Shape).Broadcasts ⟨3, ![a', b', c']⟩) (p : Fin a') (q : Fin b') (r : Fin c')
    (p0 : Fin a) (q0 : Fin b) (r0 : Fin c) (hp : p0.val = if a = 1 then 0 else p.val) (hq : q0.val = if b = 1 then 0 else q.val)
    (hr : r0.val = if c = 1 then 0 else r.val) :
    broadcastTo ⟨3, ![a', b', c']⟩ v h (ix3 p q r) = v (ix3 p0 q0 r0) := by
  refine broadcastTo_apply v h (ix3 p q r) (ix3 p0 q0 r0) fun ax => ?_
  match ax with
  | ⟨0, _⟩ => exact hp
  | ⟨1, _⟩ => exact hq
  | ⟨2, _⟩ => exact hr

/-- Folding `max` from minus infinity over a nonempty family of coerced reals gives the coerced supremum. -/
theorem fold_max_coe {ι : Type} (s : Finset ι) (hs : s.Nonempty) (f : ι → ℝ) :
    s.fold max (⊥ : EReal) (fun i => ((f i : ℝ) : EReal)) = ((s.sup' hs f : ℝ) : EReal) := by
  rw [Finset.comp_sup'_eq_sup'_comp hs (fun x : ℝ => (x : EReal)) (fun x y => EReal.coe_strictMono.monotone.map_max),
    Finset.sup'_eq_sup]
  rfl

end Cert.Lib.Rank3Middle

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.RefFea.lean ====
import proofs.«142875_j90099823936041_2_alg».proof.Proof.RefValue
import proofs.«142875_j90099823936041_2_alg».proof.Proof.SkSpec
import proofs.«142875_j90099823936041_2_alg».proof.Proof.LibRank3Middle
import proofs.«142875_j90099823936041_2_alg».proof.Proof.LibPlainDot
import proofs.«142875_j90099823936041_2_alg».proof.Proof.LibBroadcastInDim2
import Idealize.ShloMosaic.Lib.ValueIdx
import Idealize.ShloMosaic.Lib.Pipeline.Value
import Idealize.ShloMosaic.PureOps.Ideal.Laws

/-!
# The reference's feature read at an index, on the extended reals

Each stage of the reference's feature, read at a batch row `b`, a branch `m` and a channel `o`:

* the cut row at `(b, m, o)` is the input at column `768·m + o` (equal row-major positions);
* a sum over the branch axis at `(b, o)` is the sum over `m` of the operand at `(b, m, o)`
  (the initial value is zero);
* the squeeze at `(b, d)` is `∑ₖ U(b, k) · Wfc(d, k) + bfc(d)` (a plain product with the transposed weight);
* the score at `(b, m, o)` is `∑_d Z(b, d) · Wbr(m, o, d) + bbr(m, o)` (the contraction has one axis, of extent 384);
* the running maximum from minus infinity over the 19 branches is their supremum, and the further
  maximum with minus infinity changes nothing;
* the exponential, the denominator and the weighted sum follow pointwise.

Together: the feature at `(b, o)` is `∑ₘ x(b, 768·m + o) · (pexp(b, m, o) / den(b, o))`.
-/

noncomputable section

open scoped BigOperators

namespace Cert.ReferenceIdeal.Hand

open Cert.ReferenceIdeal Cert.ReferenceIdeal.Gen Idealize.ShloMosaic Idealize.ShloMosaic.ValueIdx

variable (x : FVec Ideal S8192x14592 .f32) (wfc : FVec Ideal S384x768 .f32) (bfc : FVec Ideal S384 .f32)
  (wbr : FVec Ideal S19x768x384 .f32) (bbr : FVec Ideal S19x768 .f32)

/-! ## Layout -/

/-- The cut row at `(b, m, o)` is the input at column `768·m + o`: the two indices have the same
    row-major position, `b·14592 + 768·m + o = (b·19 + m)·768 + o`. -/
theorem rX_apply (b : Fin 8192) (m : Fin 19) (o : Fin 768) : rX x (ix3 b m o) = x (ix2 b (Cert.SkSpec.col m o)) := by
  unfold rX
  refine shapeCast_apply x _ (ix3 b m o) (ix2 b (Cert.SkSpec.col m o)) ?_
  rw [Shape.rowMajor_val_two, Shape.rowMajor_val_three]
  show b.val * 14592 + (768 * m.val + o.val) = (b.val * 19 + m.val) * 768 + o.val
  omega

/-- Dropping the branch axis of `[8192, 19, 768]` leaves `[8192, 768]`. -/
theorem reducesMid : S8192x19x768.Reduces [(1 : Fin 3)] S8192x768 := by decide

/-- A sum over the branch axis from zero, at `(b, o)`: the sum over the branches of the operand at `(b, m, o)`. -/
theorem sumMid_apply (v : FVec Ideal S8192x19x768 .f32) (b : Fin 8192) (o : Fin 768) :
    Host.reduceAdd v (constant S_ .f32 0x00000000#32) reducesTo_S8192x19x768_S8192x768_d1 h_S_ (ix2 b o)
      = ∑ m : Fin 19, v (ix3 b m o) := by
  unfold Host.reduceAdd
  show Ideal.hostReduceAdd reducesTo_S8192x19x768_S8192x768_d1 v _ (ix2 b o) = _
  rw [Ideal.hostReduceAdd_single reducesTo_S8192x19x768_S8192x768_d1 reducesMid, constant_apply, Ideal.ofBits_zero_f32, zero_add]
  exact Finset.sum_congr rfl fun k _ => congrArg v (Cert.Lib.Rank3Middle.lift_mid reducesMid b o k)

/-- A per-row, per-channel value repeated over the branches, read at `(b, m, o)`. -/
theorem rSpread_apply (v : FVec Ideal S8192x768 .f32) (b : Fin 8192) (m : Fin 19) (o : Fin 768) :
    rSpread v (ix3 b m o) = v (ix2 b o) := by
  unfold rSpread
  refine (broadcastInDim_apply _ _ _ (ix3 b m o) (ix3 b (0 : Fin 1) o) ?_).trans
    (broadcastInDim_apply _ _ _ (ix3 b (0 : Fin 1) o) (ix2 b o) ?_)
  · intro a
    match a with
    | ⟨0, _⟩ => rfl
    | ⟨1, _⟩ => rfl
    | ⟨2, _⟩ => rfl
  · intro a
    match a with
    | ⟨0, _⟩ => rfl
    | ⟨1, _⟩ => rfl

/-- The bit pattern of minus infinity is the least extended real. -/
theorem ofBits_neg_inf : Ideal.ofBits .f32 0xFF800000#32 = (⊥ : EReal) := by
  simp [Ideal.ofBits, Ideal.ieee]

/-! ## The stages at an index -/

/-- The squeeze at `(b, d)`. -/
theorem rZ_apply (b : Fin 8192) (d : Fin 384) :
    rZ x wfc bfc (ix2 b d) = (∑ k : Fin 768, rU x (ix2 b k) * wfc (ix2 d k)) + bfc (ix1 d) := by
  unfold rZ
  rw [addf_apply]
  congr 1
  · simp only [Host.dotGeneral]
    rw [Cert.Bridge.dotGeneral_plain _ rfl rfl rfl rfl rfl rfl]
    refine Finset.sum_congr rfl fun k _ => ?_
    rw [transpose_apply [1, 0] wfc _ (ix2 k d) (ix2 d k) (fun a => by
      match a with
      | ⟨0, _⟩ => rfl
      | ⟨1, _⟩ => rfl)]
  · rw [BroadcastInDim2.rowToMat_apply, BroadcastInDim2.vecToRow_apply]

/-- The score product contracts one axis, of extent 384; at output index `(b, m, o)` and contraction
    coordinate `k` the operands are read at `(b, k)` and `(m, o, k)`. -/
theorem dot2_idx (b : Fin 8192) (m : Fin 19) (o : Fin 768) :
    ∃ (hr : dot_S8192x384_S19x768x384_S8192x19x768_1_2_0_01_n_n.contr.rank = 1)
      (hs : dot_S8192x384_S19x768x384_S8192x19x768_1_2_0_01_n_n.contr.size ⟨0, by omega⟩ = 384), ∀ k : Fin 384,
      dot_S8192x384_S19x768x384_S8192x19x768_1_2_0_01_n_n.lhsIdx (ix3 b m o)
          ((contrEquiv1 dot_S8192x384_S19x768x384_S8192x19x768_1_2_0_01_n_n 384 hr hs).symm k) = ix2 b k ∧
      dot_S8192x384_S19x768x384_S8192x19x768_1_2_0_01_n_n.rhsIdx (ix3 b m o)
          ((contrEquiv1 dot_S8192x384_S19x768x384_S8192x19x768_1_2_0_01_n_n 384 hr hs).symm k) = ix3 m o k := by
  refine ⟨rfl, rfl, fun k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl
    | ⟨2, _⟩ => exact Fin.ext rfl

/-- The score at `(b, m, o)`. -/
theorem rS_apply (b : Fin 8192) (m : Fin 19) (o : Fin 768) :
    rS x wfc bfc wbr bbr (ix3 b m o) = (∑ d : Fin 384, rZ x wfc bfc (ix2 b d) * wbr (ix3 m o d)) + bbr (ix2 m o) := by
  unfold rS
  rw [addf_apply]
  congr 1
  · simp only [Host.dotGeneral]
    rw [Ideal.dotGeneral_apply]
    obtain ⟨hr, hs, h⟩ := dot2_idx b m o
    rw [← Equiv.sum_comp (contrEquiv1 _ 384 hr hs).symm]
    exact Finset.sum_congr rfl fun k _ => by rw [(h k).1, (h k).2]
  · refine (broadcastInDim_apply _ _ _ (ix3 b m o) (ix3 (0 : Fin 1) m o) ?_).trans
      (broadcastInDim_apply _ _ _ (ix3 (0 : Fin 1) m o) (ix2 m o) ?_)
    · intro a
      match a with
      | ⟨0, _⟩ => rfl
      | ⟨1, _⟩ => rfl
      | ⟨2, _⟩ => rfl
    · intro a
      match a with
      | ⟨0, _⟩ => rfl
      | ⟨1, _⟩ => rfl

/-- The largest score at `(b, o)`: the supremum over the branches. -/
theorem rM_apply (b : Fin 8192) (o : Fin 768) :
    rM x wfc bfc wbr bbr (ix2 b o) = Finset.univ.sup fun m : Fin 19 => rS x wfc bfc wbr bbr (ix3 b m o) := by
  unfold rM
  rw [maximumf_apply]
  have hbot : broadcastInDim S8192x768 ![] bcast_S_S8192x768 (constant (F := Ideal) S_ .f32 0xFF800000#32) (ix2 b o) = (⊥ : EReal) := by
    rw [broadcastInDim_apply (![] : Fin 0 → Fin 2) bcast_S_S8192x768 _ (ix2 b o) ix0 (fun a => a.elim0), constant_apply, ofBits_neg_inf]
  rw [hbot, max_eq_right bot_le,
    Host.reduce_eq_fold_single FloatOps.maximumf _ _ reducesTo_S8192x19x768_S8192x768_d1 reducesMid h_S_, constant_apply, ofBits_neg_inf]
  have hf : (rS x wfc bfc wbr bbr ∘ reducesMid.lift (ix2 b o)) = fun k : Fin 19 => rS x wfc bfc wbr bbr (ix3 b k o) :=
    funext fun k => congrArg (rS x wfc bfc wbr bbr) (Cert.Lib.Rank3Middle.lift_mid reducesMid b o k)
  rw [hf]
  rfl

/-- The exponential at `(b, m, o)`. -/
theorem rE_apply (b : Fin 8192) (m : Fin 19) (o : Fin 768) :
    rE x wfc bfc wbr bbr (ix3 b m o) = Ideal.exp (rS x wfc bfc wbr bbr (ix3 b m o) - rM x wfc bfc wbr bbr (ix2 b o)) := by
  unfold rE
  show Ideal.exp (subf (rS x wfc bfc wbr bbr) (rSpread (rM x wfc bfc wbr bbr)) (ix3 b m o)) = _
  rw [subf_apply, rSpread_apply]

/-- The feature at `(b, o)`: each branch times its normalised weight, summed. -/
theorem refFea_apply_stages (b : Fin 8192) (o : Fin 768) :
    refFea x wfc bfc wbr bbr (ix2 b o)
      = ∑ m : Fin 19, rX x (ix3 b m o) * Ideal.div (rE x wfc bfc wbr bbr (ix3 b m o)) (rD x wfc bfc wbr bbr (ix2 b o)) := by
  unfold refFea
  rw [sumMid_apply]
  refine Finset.sum_congr rfl fun m _ => ?_
  rw [mulf_apply]
  show _ * Ideal.div (rE x wfc bfc wbr bbr (ix3 b m o)) (rSpread (rD x wfc bfc wbr bbr) (ix3 b m o)) = _
  rw [rSpread_apply]

/-! ## The stages are the specification's -/

theorem rU_eq (b : Fin 8192) (o : Fin 768) : rU x (ix2 b o) = Cert.SkSpec.feaU x b o := by
  unfold rU Cert.SkSpec.feaU Cert.SkSpec.xm
  rw [sumMid_apply]
  exact Finset.sum_congr rfl fun m _ => rX_apply x b m o

theorem rZ_eq (b : Fin 8192) (d : Fin 384) : rZ x wfc bfc (ix2 b d) = Cert.SkSpec.feaZ x wfc bfc b d := by
  rw [rZ_apply]
  unfold Cert.SkSpec.feaZ
  simp only [rU_eq]

theorem rS_eq (b : Fin 8192) (m : Fin 19) (o : Fin 768) :
    rS x wfc bfc wbr bbr (ix3 b m o) = Cert.SkSpec.score x wfc bfc wbr bbr b m o := by
  rw [rS_apply]
  unfold Cert.SkSpec.score
  simp only [rZ_eq]

theorem rM_eq (b : Fin 8192) (o : Fin 768) : rM x wfc bfc wbr bbr (ix2 b o) = Cert.SkSpec.smax x wfc bfc wbr bbr b o := by
  rw [rM_apply]
  unfold Cert.SkSpec.smax
  simp only [rS_eq]

theorem rE_eq (b : Fin 8192) (m : Fin 19) (o : Fin 768) :
    rE x wfc bfc wbr bbr (ix3 b m o) = Cert.SkSpec.pexp x wfc bfc wbr bbr b m o := by
  rw [rE_apply, rS_eq, rM_eq]
  rfl

theorem rD_eq (b : Fin 8192) (o : Fin 768) : rD x wfc bfc wbr bbr (ix2 b o) = Cert.SkSpec.den x wfc bfc wbr bbr b o := by
  unfold rD Cert.SkSpec.den
  rw [sumMid_apply]
  simp only [rE_eq]

/-- THE FEATURE AT AN INDEX: the reference's feature at `(b, o)` is the specification's
    "normalise each weight, then sum". -/
theorem refFea_apply (b : Fin 8192) (o : Fin 768) :
    refFea (F := Ideal) x wfc bfc wbr bbr (ix2 b o) = Cert.SkSpec.feaVR x wfc bfc wbr bbr b o := by
  rw [refFea_apply_stages]
  unfold Cert.SkSpec.feaVR Cert.SkSpec.xm
  simp only [rX_apply, rE_eq, rD_eq]

/-- The same as an equation of whole arrays: an array that reads as the specification's feature at every
    row and channel is the reference's feature (every index of a rank-2 shape is a pair of coordinates). -/
theorem refFea_eq_of_apply (g : FVec Ideal S8192x768 .f32)
    (h : ∀ (b : Fin 8192) (o : Fin 768), g (ix2 b o) = Cert.SkSpec.feaVR x wfc bfc wbr bbr b o) :
    refFea (F := Ideal) x wfc bfc wbr bbr = g := by
  funext (j : (⟨2, ![8192, 768]⟩ : Shape).Idx)
  have hj : j = ix2 (j 0 : Fin 8192) (j 1 : Fin 768) := eq_ix2 j
  calc refFea (F := Ideal) x wfc bfc wbr bbr j
      = refFea (F := Ideal) x wfc bfc wbr bbr (ix2 (j 0 : Fin 8192) (j 1 : Fin 768)) := congrArg _ hj
    _ = Cert.SkSpec.feaVR x wfc bfc wbr bbr (j 0) (j 1) := refFea_apply x wfc bfc wbr bbr (j 0) (j 1)
    _ = g (ix2 (j 0 : Fin 8192) (j 1 : Fin 768)) := (h (j 0) (j 1)).symm
    _ = g j := congrArg g hj.symm

end Cert.ReferenceIdeal.Hand

end
-- ==== Proof.SkLaw.lean ====
/-
  The two orders of the softmax-weighted sum agree on finite inputs.

  Every quantity of the specification is built from the inputs by finite sums, products, a maximum
  over a nonempty finite set, a difference and an exponential. On real inputs each of these is again
  a real (the exponential a positive one), so the denominator, a sum of 19 positive reals, is a
  positive real. Dividing by a nonzero real is multiplying by its reciprocal, and over the reals
      (∑ₘ pₘ · xₘ) · l⁻¹ = ∑ₘ xₘ · (pₘ · l⁻¹)
  is distributivity of the product over the finite sum.
-/
import proofs.«142875_j90099823936041_2_alg».proof.Proof.SkSpec

noncomputable section

namespace Cert.SkSpec

open Idealize.ShloMosaic Idealize.ShloMosaic.ValueIdx

/-- An extended real that is (the coercion of) a real. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

/-- A finite sum of coerced reals is the coercion of the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i, IsReal (f i)) : IsReal (∑ i ∈ s, f i) := by
  choose g hg using hf
  exact ⟨∑ i ∈ s, g i, (Finset.sum_congr rfl fun i _ => hg i).trans (coe_sum _ _)⟩

/-- The supremum of finitely many reals over a nonempty index set is a real. -/
theorem IsReal.sup {ι : Type*} {s : Finset ι} (hs : s.Nonempty) {f : ι → EReal} (hf : ∀ i, IsReal (f i)) :
    IsReal (s.sup f) := by
  classical
  induction hs using Finset.Nonempty.cons_induction with
  | singleton a => rw [Finset.sup_singleton]; exact hf a
  | cons a s ha hs ih =>
    rw [Finset.sup_cons]
    obtain ⟨r, hr⟩ := hf a
    obtain ⟨t, ht⟩ := ih
    exact ⟨max r t, by rw [hr, ht]; exact (EReal.coe_strictMono.monotone.map_max).symm⟩

/-- The exponential of a real is a positive real. -/
theorem exp_pos_real {a : EReal} (ha : IsReal a) : ∃ r : ℝ, 0 < r ∧ Ideal.exp a = (r : EReal) := by
  obtain ⟨r, rfl⟩ := ha
  exact ⟨Real.exp r, Real.exp_pos r, rfl⟩

/-- Weight, sum and divide once, against normalise each weight and sum: equal when the weights are
    positive reals and the values are reals. -/
theorem div_sum_eq_sum_div {ι : Type*} [Fintype ι] [Nonempty ι] (p v : ι → EReal)
    (hp : ∀ i, ∃ r : ℝ, 0 < r ∧ p i = (r : EReal)) (hv : ∀ i, IsReal (v i)) :
    Ideal.div (∑ i, p i * v i) (∑ i, p i) = ∑ i, v i * Ideal.div (p i) (∑ i, p i) := by
  choose pr hpos hpr using hp
  choose vr hvr using hv
  have hden : (∑ i, p i) = ((∑ i, pr i : ℝ) : EReal) :=
    (Finset.sum_congr rfl fun i _ => hpr i).trans (coe_sum _ _)
  have hl : (∑ i, pr i) ≠ 0 := (Finset.sum_pos (fun i _ => hpos i) Finset.univ_nonempty).ne'
  rw [hden, Ideal.div_coe hl]
  have hL : (∑ i, p i * v i) = ((∑ i, pr i * vr i : ℝ) : EReal) :=
    (Finset.sum_congr rfl fun i _ => by rw [hpr i, hvr i, EReal.coe_mul]).trans (coe_sum _ _)
  have hR : (∑ i, v i * Ideal.div (p i) ((∑ i, pr i : ℝ) : EReal))
      = ((∑ i, vr i * (pr i * (1 / ∑ i, pr i)) : ℝ) : EReal) :=
    (Finset.sum_congr rfl fun i _ => by
      rw [Ideal.div_coe hl, hpr i, hvr i, ← EReal.coe_mul, ← EReal.coe_mul]).trans (coe_sum _ _)
  rw [hL, hR, ← EReal.coe_mul, Finset.sum_mul]
  congr 1
  exact Finset.sum_congr rfl fun i _ => by ring

variable (x : (⟨2, ![8192, 14592]⟩ : Shape).Idx → EReal) (wfc : (⟨2, ![384, 768]⟩ : Shape).Idx → EReal)
  (bfc : (⟨1, ![384]⟩ : Shape).Idx → EReal) (wbr : (⟨3, ![19, 768, 384]⟩ : Shape).Idx → EReal)
  (bbr : (⟨2, ![19, 768]⟩ : Shape).Idx → EReal)

/-- On real inputs every score is a real. -/
theorem score_isReal (hx : ∀ i, IsReal (x i)) (hwfc : ∀ i, IsReal (wfc i)) (hbfc : ∀ i, IsReal (bfc i))
    (hwbr : ∀ i, IsReal (wbr i)) (hbbr : ∀ i, IsReal (bbr i)) (b : Fin 8192) (m : Fin 19) (o : Fin 768) :
    IsReal (score x wfc bfc wbr bbr b m o) := by
  have hU : ∀ k, IsReal (feaU x b k) := fun k => IsReal.sum _ fun m => hx _
  have hZ : ∀ d, IsReal (feaZ x wfc bfc b d) := fun d =>
    (IsReal.sum _ fun k => (hU k).mul (hwfc _)).add (hbfc _)
  exact (IsReal.sum _ fun d => (hZ d).mul (hwbr _)).add (hbbr _)

theorem feaVK_eq_feaVR
    (hx : ∀ i, ∃ r : ℝ, x i = (r : EReal)) (hwfc : ∀ i, ∃ r : ℝ, wfc i = (r : EReal))
    (hbfc : ∀ i, ∃ r : ℝ, bfc i = (r : EReal))
    (hwbr : ∀ i, ∃ r : ℝ, wbr i = (r : EReal)) (hbbr : ∀ i, ∃ r : ℝ, bbr i = (r : EReal))
    (b : Fin 8192) (o : Fin 768) :
    feaVK x wfc bfc wbr bbr b o = feaVR x wfc bfc wbr bbr b o := by
  have hs : ∀ m, IsReal (score x wfc bfc wbr bbr b m o) :=
    fun m => score_isReal x wfc bfc wbr bbr hx hwfc hbfc hwbr hbbr b m o
  have hmax : IsReal (smax x wfc bfc wbr bbr b o) := IsReal.sup Finset.univ_nonempty hs
  have hp : ∀ m, ∃ r : ℝ, 0 < r ∧ pexp x wfc bfc wbr bbr b m o = (r : EReal) :=
    fun m => exp_pos_real ((hs m).sub hmax)
  exact div_sum_eq_sum_div (fun m => pexp x wfc bfc wbr bbr b m o) (fun m => xm x b m o) hp (fun m => hx _)

end Cert.SkSpec

end
-- ==== Proof.SkFinite.lean ====
/-
  From the finiteness precondition to "every entry is a real".

  The precondition is the conjunction, over the fifteen float inputs, of "all entries have absolute
  value below +∞". Its value being true gives each conjunct; a conjunct is a reduction by "and" over
  all axes, so every entry's comparison is true; and an extended real x with max x (−x) < ⊤ is
  neither ⊥ (where −x = ⊤) nor ⊤, so it is a real.
-/
import proofs.«142875_j90099823936041_2_alg».proof.Pre_finite_inputs
import Idealize.ShloMosaic.Lib.ReduceAll
import Idealize.ShloMosaic.Lib.IdealHost
import Idealize.ShloMosaic.Lib.ValueIdx

noncomputable section

namespace Cert.SkFinite

open Idealize.ShloMosaic Idealize.ShloMosaic.ValueIdx Cert.Pre_finite_inputs

/-- The result shape of a reduction over all axes has one index. -/
instance : Subsingleton S_.Idx := ⟨fun a b => funext fun d => d.elim0⟩

/-- The f32 pattern with all exponent bits set and no fraction bit is +∞. -/
theorem ofBits_inf : Ideal.ofBits .f32 0x7F800000#32 = (⊤ : EReal) := by simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    have h' : BitVec.ofBool (decide (max x (-x) < ⊤)) = 1#1 := h
    cases hd : decide (max x (-x) < ⊤) with
    | true => exact of_decide_eq_true hd
    | false => rw [hd] at h'; exact absurd h' (by decide)
  induction x using EReal.rec with
  | bot => simp at hlt
  | top => simp at hlt
  | coe r => exact ⟨r, rfl⟩

/-- One conjunct of the precondition: if "all |x| < +∞" is true, every entry of x is a real. -/
theorem real_of_all {s : Shape} {axes : List (Fin s.rank)} (x : s.Idx → EReal)
    (hb : S_.BroadcastsInDim s (![] : Fin 0 → Fin s.rank)) (hr : s.ReducesTo axes S_) (hu : 0 < S_.numel)
    (init : IVec S_ 1)
    (e : Host.reduce IntOp.andi
          (cmpf .olt (Host.absf (F := Ideal) (φ := .f32) x)
            (broadcastInDim s ![] hb (constant (F := Ideal) S_ .f32 0x7F800000#32))) init hr hu ix0 = 1#1)
    (i : s.Idx) : ∃ r : ℝ, x i = (r : EReal) := by
  have h := Host.reduce_andi_all _ _ hr hu ix0 e i
  rw [cmpf_apply, broadcastInDim_scalar_apply, constant_apply] at h
  exact real_of_abs_lt_inf (x i) h

/-- A true conjunction of two rank-0 truth values: both are true. -/
theorem andi_ix0 {A B : IVec S_ 1} (h : andi A B ix0 = 1#1) : A ix0 = 1#1 ∧ B ix0 = 1#1 := IntOp.andi_eq_one.1 h

variable [Facts]

theorem real_of_pre
    (a0 : (⟨2, ![8192, 14592]⟩ : Shape).Idx → EReal) (a1 : (⟨2, ![384, 768]⟩ : Shape).Idx → EReal)
    (a2 : (⟨1, ![384]⟩ : Shape).Idx → EReal) (a3 : (⟨3, ![19, 768, 384]⟩ : Shape).Idx → EReal)
    (a4 : (⟨2, ![19, 768]⟩ : Shape).Idx → EReal) (a5 : (⟨2, ![256, 768]⟩ : Shape).Idx → EReal)
    (a6 : (⟨1, ![256]⟩ : Shape).Idx → EReal) (a7 : (⟨1, ![256]⟩ : Shape).Idx → EReal)
    (a8 : (⟨1, ![256]⟩ : Shape).Idx → EReal) (a9 : (⟨2, ![128, 256]⟩ : Shape).Idx → EReal)
    (a10 : (⟨1, ![128]⟩ : Shape).Idx → EReal) (a11 : (⟨1, ![128]⟩ : Shape).Idx → EReal)
    (a12 : (⟨1, ![128]⟩ : Shape).Idx → EReal) (a13 : (⟨2, ![150, 128]⟩ : Shape).Idx → EReal)
    (a14 : (⟨1, ![150]⟩ : Shape).Idx → EReal)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ix0
  dsimp only [fn, fn_part1, fn_part2, fn_part3, fn_part4] at e
  -- the conjuncts of inputs 14 down to 5 are not needed
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, -⟩ := andi_ix0 e
  obtain ⟨e, e4⟩ := andi_ix0 e
  obtain ⟨e, e3⟩ := andi_ix0 e
  obtain ⟨e, e2⟩ := andi_ix0 e
  obtain ⟨e0, e1⟩ := andi_ix0 e
  exact ⟨real_of_all a0 _ _ _ _ e0, real_of_all a1 _ _ _ _ e1, real_of_all a2 _ _ _ _ e2,
    real_of_all a3 _ _ _ _ e3, real_of_all a4 _ _ _ _ e4⟩

end Cert.SkFinite

end
-- ==== Proof.RefBridge.lean ====
import proofs.«142875_j90099823936041_2_alg».proof.Proof.RefFea
import proofs.«142875_j90099823936041_2_alg».proof.Proof.SkLaw
import proofs.«142875_j90099823936041_2_alg».proof.Proof.SkFinite

/-!
# On real inputs the reference's feature is "weight, sum, then divide once"

The reference's feature reads, at every row and channel, as the softmax-weighted sum with each weight
normalised before the sum. When every entry of the five feature inputs is a real number the
denominator is a positive real, division distributes over the finite sum, and the same value is the
weighted sum divided once. The finiteness precondition on the inputs gives exactly that every entry is real.
-/

noncomputable section

namespace Cert.ReferenceIdeal.Hand

open Cert.ReferenceIdeal Idealize.ShloMosaic Idealize.ShloMosaic.ValueIdx

/-- On real inputs the reference's feature is, as a whole array, the weighted sum divided once. -/
theorem refFea_eq_feaVK
    (x : (⟨2, ![8192, 14592]⟩ : Shape).Idx → EReal) (wfc : (⟨2, ![384, 768]⟩ : Shape).Idx → EReal)
    (bfc : (⟨1, ![384]⟩ : Shape).Idx → EReal) (wbr : (⟨3, ![19, 768, 384]⟩ : Shape).Idx → EReal)
    (bbr : (⟨2, ![19, 768]⟩ : Shape).Idx → EReal)
    (hx : ∀ i, ∃ r : ℝ, x i = (r : EReal)) (hwfc : ∀ i, ∃ r : ℝ, wfc i = (r : EReal))
    (hbfc : ∀ i, ∃ r : ℝ, bfc i = (r : EReal))
    (hwbr : ∀ i, ∃ r : ℝ, wbr i = (r : EReal)) (hbbr : ∀ i, ∃ r : ℝ, bbr i = (r : EReal)) :
    refFea (F := Ideal) x wfc bfc wbr bbr
      = fun (j : (⟨2, ![8192, 768]⟩ : Shape).Idx) => Cert.SkSpec.feaVK x wfc bfc wbr bbr (j 0) (j 1) :=
  refFea_eq_of_apply x wfc bfc wbr bbr
    (fun (j : (⟨2, ![8192, 768]⟩ : Shape).Idx) => Cert.SkSpec.feaVK x wfc bfc wbr bbr (j 0) (j 1))
    (fun b o => Cert.SkSpec.feaVK_eq_feaVR x wfc bfc wbr bbr hx hwfc hbfc hwbr hbbr b o)

/-- The same from the finiteness precondition on the fifteen inputs: it makes every entry of the
    five feature inputs a real number. -/
theorem refFea_eq_feaVK_of_pre [Cert.Pre_finite_inputs.Facts]
    (a0 : (⟨2, ![8192, 14592]⟩ : Shape).Idx → EReal)
    (a1 : (⟨2, ![384, 768]⟩ : Shape).Idx → EReal)
    (a2 : (⟨1, ![384]⟩ : Shape).Idx → EReal)
    (a3 : (⟨3, ![19, 768, 384]⟩ : Shape).Idx → EReal)
    (a4 : (⟨2, ![19, 768]⟩ : Shape).Idx → EReal)
    (a5 : (⟨2, ![256, 768]⟩ : Shape).Idx → EReal)
    (a6 : (⟨1, ![256]⟩ : Shape).Idx → EReal)
    (a7 : (⟨1, ![256]⟩ : Shape).Idx → EReal)
    (a8 : (⟨1, ![256]⟩ : Shape).Idx → EReal)
    (a9 : (⟨2, ![128, 256]⟩ : Shape).Idx → EReal)
    (a10 : (⟨1, ![128]⟩ : Shape).Idx → EReal)
    (a11 : (⟨1, ![128]⟩ : Shape).Idx → EReal)
    (a12 : (⟨1, ![128]⟩ : Shape).Idx → EReal)
    (a13 : (⟨2, ![150, 128]⟩ : Shape).Idx → EReal)
    (a14 : (⟨1, ![150]⟩ : Shape).Idx → EReal)
    (h : Cert.Pre_finite_inputs.fn (F := Ideal) a0 a1 a2 a3 a4 a5 a6 a7 a8 a9 a10 a11 a12 a13 a14 = fun _ => 1#1) :
    refFea (F := Ideal) a0 a1 a2 a3 a4
      = fun (j : (⟨2, ![8192, 768]⟩ : Shape).Idx) => Cert.SkSpec.feaVK a0 a1 a2 a3 a4 (j 0) (j 1) := by
  obtain ⟨h0, h1, h2, h3, h4⟩ := Cert.SkFinite.real_of_pre a0 a1 a2 a3 a4 a5 a6 a7 a8 a9 a10 a11 a12 a13 a14 h
  exact refFea_eq_feaVK a0 a1 a2 a3 a4 h0 h1 h2 h3 h4

end Cert.ReferenceIdeal.Hand

end
-- ==== Proof.lean ====
/-
  Selective-kernel attention over 19 branches, followed by a three-layer classifier with batch
  normalisation: the Pallas kernel against its jnp reference, on the extended reals.

  Both programs compute, per batch row b and channel o, with the row cut into 19 slices of 768
  entries, the branches summed, squeezed to 384 channels, expanded to one score per branch and
  channel, and turned into softmax weights over the branches. The kernel forms the weighted sum
  of the branches and divides once by the softmax denominator; the reference normalises each
  weight and then sums. On finite inputs the denominator is a positive real and the division
  distributes over the finite sum, so the two attended features agree entry by entry
  (SkLaw.lean). The classifier head after the feature is the same function in both programs
  (SkTail.lean) and is never opened.

  The kernel program's run: KiBody.lean (the body at a grid point, its three loops by their
  invariants), KiHost.lean and KiFrame.lean (the host operations around the region and the run
  of the whole program), KiTrips.lean, KiBlock.lean, KiBridge.lean, KiWindows.lean and
  KiArray.lean (what the output array holds, entry by entry), KiTail.lean (the result as the
  head of that array); the Kb… modules are the same run for the program read at the bit level,
  where only the frame is claimed. The reference's run: RefRun.lean, RefFrame.lean,
  RefValue.lean, RefFea.lean, RefBridge.lean.
-/
import proofs.«142875_j90099823936041_2_alg».proof.Defs
import proofs.«142875_j90099823936041_2_alg».proof.Proof.Gen.Kernel
import proofs.«142875_j90099823936041_2_alg».proof.Proof.Gen.KernelIdeal
import proofs.«142875_j90099823936041_2_alg».proof.Proof.Gen.ReferenceIdeal
import proofs.«142875_j90099823936041_2_alg».proof.Proof.Gen.Pre_finite_inputs
import proofs.«142875_j90099823936041_2_alg».proof.Proof.KbFrame
import proofs.«142875_j90099823936041_2_alg».proof.Proof.KiFrame
import proofs.«142875_j90099823936041_2_alg».proof.Proof.KiTail
import proofs.«142875_j90099823936041_2_alg».proof.Proof.KiArray
import proofs.«142875_j90099823936041_2_alg».proof.Proof.RefFrame
import proofs.«142875_j90099823936041_2_alg».proof.Proof.RefValue
import proofs.«142875_j90099823936041_2_alg».proof.Proof.RefBridge

noncomputable section

namespace Cert.Proof

open Idealize.ShloMosaic Idealize.ShloMosaic.TcCoe Idealize.SL.Sem

/-- The kernel program, read at the bit level, runs to the end and leaves its arguments unchanged. -/
theorem frame_p : Cert.frame_Kernel := fun m ρ _ => Cert.Kernel.Frm.frame m ρ

/-- So does the kernel program read on the extended reals. -/
theorem frame_pi : Cert.frame_KernelIdeal := fun m ρ _ => Cert.KernelIdeal.Frm.frame m ρ

/-- So does the reference. -/
theorem frame_ri : Cert.frame_ReferenceIdeal := Cert.ReferenceIdeal.Hand.frame_ri

/-- Nothing of the kernel was rewritten for the reading on the extended reals. -/
theorem preserves : Cert.preserves_Kernel_KernelIdeal := trivial

/-- On finite inputs the two programs end with the same result: the same classifier head applied
    to attended features that agree entry by entry. -/
theorem algebraic : Cert.algebraic_KernelIdeal_ReferenceIdeal := by
  intro m ρ m' ρ' hpre hagree
  refine ⟨fun c => Cert.SkTail.tail (F := Ideal) (Cert.KernelIdeal.Val.feaArr m c)
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14)), ?_, ?_⟩
  · refine (θ_run Cert.KernelIdeal.defs _ _).mono (fun r h c => ⟨((h c).1).trans ?_, (h c).2⟩)
      (Cert.KernelIdeal.Frm.run_value m ρ)
    rw [Cert.KernelIdeal.Val.final5]
  · refine (θ_run Cert.ReferenceIdeal.defs _ _).mono (fun r h c => ⟨((h c).1).trans ?_, (h c).2⟩)
      (Cert.ReferenceIdeal.Hand.run_value m' ρ')
    obtain ⟨a0, a1, a2, a3, a4, a5, a6, a7, a8, a9, a10, a11, a12, a13, a14⟩ := hagree c
    rw [a0, a1, a2, a3, a4, a5, a6, a7, a8, a9, a10, a11, a12, a13, a14,
      Cert.ReferenceIdeal.Hand.refFea_eq_feaVK_of_pre _ _ _ _ _ _ _ _ _ _ _ _ _ _ _ (hpre c)]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
